-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x384 : Shape := ⟨2, ![128, 384]⟩
abbrev S384 : Shape := ⟨1, ![384]⟩
abbrev S50000x384 : Shape := ⟨2, ![50000, 384]⟩
abbrev S10000x128 : Shape := ⟨2, ![10000, 128]⟩
abbrev S10000x384 : Shape := ⟨2, ![10000, 384]⟩
abbrev S1x384 : Shape := ⟨2, ![1, 384]⟩
abbrev S_ : Shape := ⟨0, ![]⟩
abbrev S800000x1 : Shape := ⟨2, ![800000, 1]⟩
abbrev S800000x8 : Shape := ⟨2, ![800000, 8]⟩
abbrev S6400x128 : Shape := ⟨2, ![6400, 128]⟩
abbrev S6400x8 : Shape := ⟨2, ![6400, 8]⟩
abbrev S1x128 : Shape := ⟨2, ![1, 128]⟩
abbrev S128x8 : Shape := ⟨2, ![128, 8]⟩
abbrev S8x128 : Shape := ⟨2, ![8, 128]⟩
abbrev S800000x8x16 : Shape := ⟨3, ![800000, 8, 16]⟩
abbrev S50000x8x16 : Shape := ⟨3, ![50000, 8, 16]⟩
abbrev S50000x8 : Shape := ⟨2, ![50000, 8]⟩
abbrev S50000x8x1 : Shape := ⟨3, ![50000, 8, 1]⟩

abbrev nBuf : Space → Nat
  | .hbm => 67
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x384, .f32⟩
  | .hbm, ⟨13, _⟩ => ⟨S384, .f32⟩
  | .hbm, ⟨14, _⟩ => ⟨S50000x384, .f32⟩
  | .hbm, ⟨15, _⟩ => ⟨S50000x128, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S800000x8, .f32⟩
  | .hbm, ⟨51, _⟩ => ⟨S800000x8x16, .f32⟩
  | .hbm, ⟨52, _⟩ => ⟨S_, .f32⟩
  | .hbm, ⟨53, _⟩ => ⟨S50000x8x16, .f32⟩
  | .hbm, ⟨54, _⟩ => ⟨S800000x1, .i32⟩
  | .hbm, ⟨55, _⟩ => ⟨S50000x8x16, .f32⟩
  | .hbm, ⟨56, _⟩ => ⟨S_, .f32⟩
  | .hbm, ⟨57, _⟩ => ⟨S50000x8, .f32⟩
  | .hbm, ⟨58, _⟩ => ⟨S800000x1, .i32⟩
  | .hbm, ⟨59, _⟩ => ⟨S50000x8, .f32⟩
  | .hbm, ⟨60, _⟩ => ⟨S50000x8x1, .f32⟩
  | .hbm, ⟨61, _⟩ => ⟨S_, .f32⟩
  | .hbm, ⟨62, _⟩ => ⟨S50000x8x1, .f32⟩
  | .hbm, ⟨63, _⟩ => ⟨S50000x8x1, .f32⟩
  | .hbm, ⟨64, _⟩ => ⟨S50000x8x16, .f32⟩
  | .hbm, ⟨65, _⟩ => ⟨S50000x8x16, .f32⟩
  | .hbm, ⟨66, _⟩ => ⟨S800000x8x16, .f32⟩
  | .local _ .vmem, ⟨0, _⟩ => ⟨S10000x128, .f32⟩
  | .local _ .vmem, ⟨1, _⟩ => ⟨S10000x128, .f32⟩
  | .local _ .vmem, ⟨2, _⟩ => ⟨S128x384, .f32⟩
  | .local _ .vmem, ⟨3, _⟩ => ⟨S384, .f32⟩
  | .local _ .vmem, ⟨4, _⟩ => ⟨S10000x384, .f32⟩
  | .local _ .vmem, ⟨5, _⟩ => ⟨S10000x384, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x128, .f32⟩
  | .local _ .vmem, ⟨10, _⟩ => ⟨S6400x128, .f32⟩
  | .local _ .vmem, ⟨11, _⟩ => ⟨S6400x128, .f32⟩
  | .local _ .vmem, ⟨12, _⟩ => ⟨S6400x128, .f32⟩
  | .local _ .vmem, ⟨13, _⟩ => ⟨S6400x128, .f32⟩
  | .local _ .vmem, ⟨14, _⟩ => ⟨S128x128, .f32⟩
  | .local _ .vmem, ⟨15, _⟩ => ⟨S128, .f32⟩
  | .local _ .vmem, ⟨16, _⟩ => ⟨S6400x128, .f32⟩
  | .local _ .vmem, ⟨17, _⟩ => ⟨S6400x128, .f32⟩
  | .local _ .vmem, ⟨18, _⟩ => ⟨S6400x128, .f32⟩
  | .local _ .vmem, ⟨19, _⟩ => ⟨S6400x128, .f32⟩
  | .local _ .vmem, ⟨20, _⟩ => ⟨S6400x8, .f32⟩
  | .local _ .vmem, ⟨21, _⟩ => ⟨S6400x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_v30_2 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S6400x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  inb_S10000x128_S10000x128_0_0 : ∀ a, (![0, 0] : Fin 2 → Nat) a + S10000x128.size a ≤ S10000x128.size a
  h_S10000x128 : 0 < S10000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S10000x384 : S1x384.Broadcasts S10000x384
  inb_S10000x384_S10000x384_0_0 : ∀ a, (![0, 0] : Fin 2 → Nat) a + S10000x384.size a ≤ S10000x384.size a
  h_S10000x384 : 0 < S10000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S800000 : S_.BroadcastsInDim S800000 (![] : Fin 0 → Fin S800000.rank)
  bcast_S800000_S800000x1_0 : S800000.BroadcastsInDim S800000x1 (![0] : Fin 1 → Fin S800000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  iota_S128x8_d0_w32 : S128x8.Iotas .tc 32 [0]
  iota_S128x8_d1_w32 : S128x8.Iotas .tc 32 [1]
  natLt_1_32 : 1 < 32
  transposes_S128x8_p1_0_S8x128 : S128x8.Transposes [1, 0] S8x128
  inb_S6400x8_S6400x8_0_0 : ∀ a, (![0, 0] : Fin 2 → Nat) a + S6400x8.size a ≤ S6400x8.size a
  h_S6400x8 : 0 < S6400x8.numel
  shapeCasts_S800000x128_S800000x8x16 : S800000x128.ShapeCasts S800000x8x16
  bcast_S_S50000x8x16 : S_.BroadcastsInDim S50000x8x16 (![] : Fin 0 → Fin S50000x8x16.rank)
  bcast_S_S50000x8 : S_.BroadcastsInDim S50000x8 (![] : Fin 0 → Fin S50000x8.rank)
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S10000x128_S128x384_S10000x384_1_0_0_1_n_n_wf : DotDims.WF S10000x128 S128x384 S10000x384 [1] [0] [0] [1] [] []
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  dot_S6400x128_S128x8_S6400x8_1_0_0_1_n_n_wf : DotDims.WF S6400x128 S128x8 S6400x8 [1] [0] [0] [1] [] []
  dot_S6400x8_S8x128_S6400x128_1_0_0_1_n_n_wf : DotDims.WF S6400x8 S8x128 S6400x128 [1] [0] [0] [1] [] []
  scatter_S50000x8x16_S800000x1_S800000x8x16_12_0_0_1_wf : ScatterDims.WF S50000x8x16 S800000x1 S800000x8x16 [1, 2] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x384.size a ≤ S50000x384.size a
  hwx0_3 : ∀ i : grid0.Coords, EltTy.bits .f32 = 32 ∨ (Rect.block (s := S50000x384) S10000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S800000x128.size a
  hwx1_0 : ∀ i : grid1.Coords, EltTy.bits .f32 = 32 ∨ (Rect.block (s := S800000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S800000x128.size a
  hwx1_1 : ∀ i : grid1.Coords, EltTy.bits .f32 = 32 ∨ (Rect.block (s := S800000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S800000x128.size a
  hwx1_2 : ∀ i : grid1.Coords, EltTy.bits .f32 = 32 ∨ (Rect.block (s := S800000x128) S6400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x128.size a ≤ S800000x128.size a
  hwx1_3 : ∀ i : grid1.Coords, EltTy.bits .f32 = 32 ∨ (Rect.block (s := S800000x128) S6400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6400x128.size a ≤ S800000x128.size a
  hwx1_6 : ∀ i : grid1.Coords, EltTy.bits .f32 = 32 ∨ (Rect.block (s := S800000x128) S6400x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x128.size a ≤ S800000x128.size a
  hwx1_7 : ∀ i : grid1.Coords, EltTy.bits .f32 = 32 ∨ (Rect.block (s := S800000x128) S6400x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S6400x8.size a ≤ S800000x8.size a
  hwx1_8 : ∀ i : grid1.Coords, EltTy.bits .f32 = 32 ∨ (Rect.block (s := S800000x8) S6400x8.size (cc1_transform_8 i) (hinb1_8 i)).WholeWords (EltTy.packing .f32)

variable [Facts₀]

def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x8_S6400x8_1_0_0_1_n_n : DotDims S6400x128 S128x8 S6400x8 where
  lhsContracting := [1]
  rhsContracting := [0]
  lhsNonContracting := [0]
  rhsNonContracting := [1]
  lhsBatch := []
  rhsBatch := []
  wf := dot_S6400x128_S128x8_S6400x8_1_0_0_1_n_n_wf
def dot_S6400x8_S8x128_S6400x128_1_0_0_1_n_n : DotDims S6400x8 S8x128 S6400x128 where
  lhsContracting := [1]
  rhsContracting := [0]
  lhsNonContracting := [0]
  rhsNonContracting := [1]
  lhsBatch := []
  rhsBatch := []
  wf := dot_S6400x8_S8x128_S6400x128_1_0_0_1_n_n_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S10000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S6400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30_0) S6400x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v30_1) S6400x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v30_2) S6400x8.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S800000x8x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x16, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x16, .f32⟩
  | .hbm, ⟨50, _⟩ => ⟨S800000x8x16, .f32⟩
  | .hbm, ⟨51, _⟩ => ⟨S_, .f32⟩
  | .hbm, ⟨52, _⟩ => ⟨S800000x8x16, .f32⟩
  | .hbm, ⟨53, _⟩ => ⟨S800000x8x16, .f32⟩
  | .hbm, ⟨54, _⟩ => ⟨S800000x8x16, .f32⟩
  | .hbm, ⟨55, _⟩ => ⟨S_, .f32⟩
  | .hbm, ⟨56, _⟩ => ⟨S800000x8, .f32⟩
  | .hbm, ⟨57, _⟩ => ⟨S800000x8x1, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S800000x8x1, .f32⟩
  | .hbm, ⟨62, _⟩ => ⟨S800000x8x1, .f32⟩
  | .hbm, ⟨63, _⟩ => ⟨S_, .f32⟩
  | .hbm, ⟨64, _⟩ => ⟨S800000x8x1, .f32⟩
  | .hbm, ⟨65, _⟩ => ⟨S800000x8x1, .f32⟩
  | .hbm, ⟨66, _⟩ => ⟨S800000x8x1, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x8x16, .f32⟩
  | .hbm, ⟨76, _⟩ => ⟨S800000x8x16, .f32⟩
  | .hbm, ⟨77, _⟩ => ⟨S800000x8x16, .f32⟩
  | .hbm, ⟨78, _⟩ => ⟨S_, .f32⟩
  | .hbm, ⟨79, _⟩ => ⟨S50000x8x16, .f32⟩
  | .hbm, ⟨80, _⟩ => ⟨S800000x1, .i32⟩
  | .hbm, ⟨81, _⟩ => ⟨S50000x8x16, .f32⟩
  | .hbm, ⟨82, _⟩ => ⟨S_, .f32⟩
  | .hbm, ⟨83, _⟩ => ⟨S50000x8x1, .f32⟩
  | .hbm, ⟨84, _⟩ => ⟨S800000x1, .i32⟩
  | .hbm, ⟨85, _⟩ => ⟨S50000x8x1, .f32⟩
  | .hbm, ⟨86, _⟩ => ⟨S_, .f32⟩
  | .hbm, ⟨87, _⟩ => ⟨S50000x8x1, .f32⟩
  | .hbm, ⟨88, _⟩ => ⟨S50000x8x1, .f32⟩
  | .hbm, ⟨89, _⟩ => ⟨S50000x8x16, .f32⟩
  | .hbm, ⟨90, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_c_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.AffineRegion.lean ====
import proofs.«145310_j17506286698747_2_alg».proof.Proof.Gen.KernelIdeal.Launch
import proofs.«145310_j17506286698747_2_alg».proof.Proof.Gen.KernelIdeal.Skeleton
import proofs.«145310_j17506286698747_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The affine map's region, at any entry contents

The first region of the program computes, row block by row block, `x ↦ x · W + b` for a 50000×128 array `x`
cut into five blocks of 10000 rows, a 128×384 matrix `W` and a 384-vector `b`, both read whole at every block.
Everything here is stated at a parameter `V`, the contents of the core's buffers when the region is entered:
what each window's block is, what the body leaves in the output's buffer as a function of the three input
blocks, and the obligation the pipelined run asks of the body at every block. -/

-- membership of an index in a rectangle with 10000 rows is decided structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at the `t`-th row block: the part of the window's array, as the region finds it, that
    the window's index map selects there. For the matrix and the vector this is the whole array at every `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block whenever the body runs: an input the body only reads keeps what was last
    brought in, and it is brought in afresh at every block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix's window holds the matrix whenever the body runs. It is brought in once, before the first block;
    afterwards its index never moves and the body leaves it in place, so what is there is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The vector's window holds the vector whenever the body runs, for the same reason as the matrix's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rA0 : Rect S10000x128 := Rect.unit (s := S10000x128) ![0, 0] S10000x128.size inb_S10000x128_S10000x128_0_0
abbrev rW0 : Rect S128x384 := Rect.unit (s := S128x384) ![0, 0] S128x384.size inb_S128x384_S128x384_0_0
abbrev rB0 : Rect S384 := Rect.unit (s := S384) ![0] S384.size inb_S384_S384_0
abbrev rO0 : Rect S10000x384 := Rect.unit (s := S10000x384) ![0, 0] S10000x384.size inb_S10000x384_S10000x384_0_0

/-! ## What the body leaves in the output's buffer -/

/-- The output block as a function of the three input blocks `x0` (rows), `x1` (matrix), `x2` (vector): the body's
    single store, of `x0 · x1 + x2` broadcast along the rows, over the whole buffer. -/
def out0_3 (x0 : Vec F S10000x128 .f32) (x1 : Vec F S128x384 .f32) (x2 : Vec F S384 .f32) : Vec F S10000x384 .f32 :=
  View.canon [⟨rO0, k0_pay1 (View.ld x0 rA0) (View.ld x1 rW0) (View.ld x2 rB0)⟩]

/-- The single store's rectangle is the whole buffer, so every index of the buffer lies in it. -/
theorem cover0_3 (p0 : Vec F S10000x384 .f32) (y : S10000x384.Idx) :
    ∃ pc ∈ ([⟨rO0, p0⟩] : List (View.Piece (Elt F) S10000x384 .f32)), y ∈ pc.1.set :=
  View.cover_of_tiled [⟨rO0, p0⟩] S10000x384.size (by rfl) y

/-! ## The body's triple -/

set_option maxHeartbeats 1000000 in
/-- The body, run on whole buffers holding `x0`, `x1`, `x2` and an output buffer holding anything, ends with the three
    inputs as they were and the output at `out0_3 x0 x1 x2`. (It also reads the output buffer before storing; what it
    reads there is not used.) -/
theorem sound_kernel0 (c : Dev nD) (E : Set ℕ) (i : grid0.Coords)
    (arg1 : Memref sig .tc .vmem S10000x128 .f32) (harg1 : arg1.IsWhole)
    (arg2 : Memref sig .tc .vmem S128x384 .f32) (harg2 : arg2.IsWhole)
    (arg3 : Memref sig .tc .vmem S384 .f32) (harg3 : arg3.IsWhole)
    (arg4 : Memref sig .tc .vmem S10000x384 .f32) (harg4 : arg4.IsWhole)
    (x0 : Vec F S10000x128 .f32) (x1 : Vec F S128x384 .f32) (x2 : Vec F S384 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The data the pipelined run is read against on core `c`: the arrays as the region finds them; after the body at
    block `t`, each input's buffer still at its block and the output's at `out0_3` of the three input blocks; nothing
    owed between cores, full ownership of every buffer. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at any block -/

/-- What the body is entered with at block `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any block: the three inputs' buffers hold their blocks, so the body's triple applies; the invariant
    and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipelined run asks of the body, at every block. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.EdgeRegion.lean ====
import proofs.«145310_j17506286698747_2_alg».proof.Proof.Gen.KernelIdeal.Launch
import proofs.«145310_j17506286698747_2_alg».proof.Proof.Gen.KernelIdeal.Skeleton
import proofs.«145310_j17506286698747_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The edge kernel's region, at the buffer contents the region is entered with

The second kernel call of the program runs the edge kernel over a grid of 125 points. At each point it
reads one block of 6400 rows from each of four edge-indexed arrays (the two gathered node projections
that form the attention score, the gathered value projection, and the raw edge features), together with
the whole edge weight matrix and the whole edge bias, and it writes one block of each of three outputs:
the edge message `e = (q ⊙ k) · ¼ ⊙ (x · W + b)`, the weighted value `v ⊙ (exp(clamp(e · S)) · Sᵀ)`
(with `S` the 128×8 zero-one matrix that sums each head's 16 lanes), and the per-head weight
`exp(clamp(e · S))`.

Everything here is stated at a parameter `V`: what every buffer of the core holds when the region is
entered. Nothing is assumed of `V`.
-/

-- membership of an index in a whole-block rectangle recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section EdgeRegion
-- what each buffer of the core holds when the region is entered
variable (V : (c : Dev nD) → (b : Ref sig .tc) → Buf (Elt F) ((c : Thread nD τ).loc b))

/-! ## The blocks the windows show -/

/-- The block of window `w` at grid point `t`: the entry contents of the window's array, read through
    the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes: each is a whole block -/

/-- All 6400 × 128 entries of an edge block. -/
abbrev rE1 : Rect S6400x128 := Rect.unit (s := S6400x128) ![0, 0] S6400x128.size inb_S6400x128_S6400x128_0_0
/-- All 128 × 128 entries of the weight matrix. -/
abbrev rW1 : Rect S128x128 := Rect.unit (s := S128x128) ![0, 0] S128x128.size inb_S128x128_S128x128_0_0
/-- All 128 entries of the bias. -/
abbrev rB1 : Rect S128 := Rect.unit (s := S128) ![0] S128.size inb_S128_S128_0
/-- All 6400 × 8 entries of a per-head block. -/
abbrev rS1 : Rect S6400x8 := Rect.unit (s := S6400x8) ![0, 0] S6400x8.size inb_S6400x8_S6400x8_0_0

/-! ## What the body leaves in each output block, as a function of the input blocks

Each output block is written once, whole, so what it holds afterwards is the single written value laid
over the block. `x0, x1` are the two score factors, `x2` the value block, `x3` the edge features,
`x4` the weight matrix and `x5` the bias. -/

/-- First output: the edge message. -/
def out1_6 (x0 x1 x3 : Vec F S6400x128 .f32) (x4 : Vec F S128x128 .f32) (x5 : Vec F S128 .f32) : Vec F S6400x128 .f32 :=
  View.canon [⟨rE1, k1_pay5 (View.ld x0 rE1) (View.ld x1 rE1) (View.ld x3 rE1) (View.ld x4 rW1) (View.ld x5 rB1)⟩]

/-- Second output: the value block scaled lane by lane with its head's weight. -/
def out1_7 (x0 x1 x2 x3 : Vec F S6400x128 .f32) (x4 : Vec F S128x128 .f32) (x5 : Vec F S128 .f32) : Vec F S6400x128 .f32 :=
  View.canon [⟨rE1, k1_pay3 (k1_pay4 (View.ld x2 rE1))
    (k1_pay5 (View.ld x0 rE1) (View.ld x1 rE1) (View.ld x3 rE1) (View.ld x4 rW1) (View.ld x5 rB1))
    (iota .tc S128x8 32 [1] iota_S128x8_d1_w32) k1_pay6 k1_pay7⟩]

/-- Third output: the per-head weights. -/
def out1_8 (x0 x1 x3 : Vec F S6400x128 .f32) (x4 : Vec F S128x128 .f32) (x5 : Vec F S128 .f32) : Vec F S6400x8 .f32 :=
  View.canon [⟨rS1, k1_pay2
    (k1_pay5 (View.ld x0 rE1) (View.ld x1 rE1) (View.ld x3 rE1) (View.ld x4 rW1) (View.ld x5 rB1))
    (iota .tc S128x8 32 [1] iota_S128x8_d1_w32) k1_pay6 k1_pay7⟩]

/-! ## The region's proof data -/

/-- The data the launch theorem asks for, on core `c`: every window's array is what the region finds in it;
    after the body at point `t` an input's staging buffer still holds its block and an output's holds the
    value above, computed from the input blocks at `t`; the invariant carried between points is the
    untouched remainder of the core's state; nothing is owed and every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 3 t) (iblk1 V c 4 t) (iblk1 V c 5 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 3 t) (iblk1 V c 4 t) (iblk1 V c 5 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t
    = out1_8 (iblk1 V c 0 t) (iblk1 V c 1 t) (iblk1 V c 3 t) (iblk1 V c 4 t) (iblk1 V c 5 t) := by dsimp only [dat1]

/-! ## An input's staging buffer holds its block at every point

Whether the pipeline fetched the block at this point or kept it from the point before (the weight matrix
and the bias are fetched once, their block index never moves), the staging buffer the body is handed holds
the block of the entry contents. This holds for any proof data whose array is the entry contents and whose
body leaves the input's block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## One whole-block write covers the block -/

theorem cover1_E (p : Vec F S6400x128 .f32) (y : S6400x128.Idx) :
    ∃ pc ∈ ([⟨rE1, p⟩] : List (View.Piece (Elt F) S6400x128 .f32)), y ∈ pc.1.set :=
  View.cover_of_tiled [⟨rE1, p⟩] S6400x128.size (by rfl) y

theorem cover1_S (p : Vec F S6400x8 .f32) (y : S6400x8.Idx) :
    ∃ pc ∈ ([⟨rS1, p⟩] : List (View.Piece (Elt F) S6400x8 .f32)), y ∈ pc.1.set :=
  View.cover_of_tiled [⟨rS1, p⟩] S6400x8.size (by rfl) y

/-! ## The body's triple -/

set_option maxHeartbeats 4000000 in
/-- The edge kernel on whole staging buffers: the six inputs' buffers read `x0 … x5`, the three outputs'
    buffers hold anything. It runs without fault to a state where the inputs' buffers are as they were and
    each output's buffer reads the value above. -/
theorem sound_kernel1 (c : Dev nD) (E : Set ℕ) (i : grid1.Coords)
    (arg1 : Memref sig .tc .vmem S6400x128 .f32) (harg1 : arg1.IsWhole) (arg2 : Memref sig .tc .vmem S6400x128 .f32) (harg2 : arg2.IsWhole)
    (arg3 : Memref sig .tc .vmem S6400x128 .f32) (harg3 : arg3.IsWhole) (arg4 : Memref sig .tc .vmem S6400x128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S6400x128 .f32) (harg7 : arg7.IsWhole) (arg8 : Memref sig .tc .vmem S6400x128 .f32) (harg8 : arg8.IsWhole)
    (arg9 : Memref sig .tc .vmem S6400x8 .f32) (harg9 : arg9.IsWhole)
    (x0 x1 x2 x3 : Vec F S6400x128 .f32) (x4 : Vec F S128x128 .f32) (x5 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x3 x4 x5)
            ∗ owns (c : Thread nD τ) arg8 fullShare (out1_7 x0 x1 x2 x3 x4 x5)
            ∗ owns (c : Thread nD τ) arg9 fullShare (out1_8 x0 x1 x3 x4 x5)) -∗ K ⟨⟩))
      ⊢ wp frame (wpE (defs₀ (F := F)) Variants.none c none) E
          (cc1__edge_kernel i arg1 harg1 arg2 harg2 arg3 harg3 arg4 harg4 arg5 harg5 arg6 harg6 arg7 harg7 arg8 harg8 arg9 harg9) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  -- the six loads, the pure values, and the three whole-block stores
  sl_exec
  sl_step
  iapply Hk
  -- the inputs' buffers were only read
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- each output's buffer took one write over the whole block, so it reads that write's value
  isplitl [H6]
  · iexists _; isplitr
    swap; · iexact H6
    ipureintro
    exact View.read_writes_eq_canon _ _ _ (cover1_E _)
  isplitl [H7]
  · iexists _; isplitr
    swap; · iexact H7
    ipureintro
    exact View.read_writes_eq_canon _ _ _ (cover1_E _)
  iexists _; isplitr
  swap; · iexact H8
  ipureintro
  exact View.read_writes_eq_canon _ _ _ (cover1_S _)

/-! ## The obligation at a grid point -/

/-- At every point each input's staging buffer holds its block of the entry contents. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the pipeline hands the body at point `t`: the invariant, the record of what is owed, and each
    window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' buffers hold their blocks, so the kernel's triple applies with those
    blocks as the values read; the invariant and the record of what is owed are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch theorem's obligation on the body, at every grid point. -/
theorem body_obligation1 (c : Dev nD) : BodyObligation (dat1 (F := F) V c) (defs₀ (F := F)) Variants.none () Set.univ := fun t => by
  rw [bigSep_W1, bigSep_W1]
  exact sound_body1 V c t

end EdgeRegion

end Cert.KernelIdeal.Hand

end
-- ==== Proof.Fold.lean ====
/-
  The contents of the core's buffers at each boundary of the program's five segments, as a fold from the launch memory:
  host operations, the node kernel's region, host operations, the edge kernel's region, host operations. A stretch of
  host operations takes the contents to the operations' composed results; a region leaves each of its arrays at what its
  pipelined write-backs leave there (an input array as entered, an output array at its blocks' final contents) and every
  other buffer as entered.
-/
import proofs.«145310_j17506286698747_2_alg».proof.Proof.AffineRegion
import proofs.«145310_j17506286698747_2_alg».proof.Proof.EdgeRegion

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch: the node kernel's region is entered from these. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- When the node kernel's region is left: its arrays at what the pipeline leaves, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m c b
/-- After the second host stretch: the edge kernel's region is entered from these. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- When the edge kernel's region is left. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the last host stretch: what the program ends with. -/
abbrev W5 : Dev nD → Valuation τ sig (Elt F) := fun c => StableHlo.after hostOps2 (W4 m c)

end Cert.KernelIdeal.Hand

end
-- ==== Proof.MainRun.lean ====
import proofs.«145310_j17506286698747_2_alg».proof.Proof.Fold
import proofs.«145310_j17506286698747_2_alg».proof.Proof.Gen.KernelIdeal.Regions

/-! # The run of the whole program

The program is five stretches in order: two concatenations on the host, the affine map's region, a stretch of
host operations (slices, index arithmetic, three gathers), the edge region, and a last host stretch (reshapes, two
scatter-adds, a division). The contents of every buffer of a core are followed through the five, from the
launch memory `m` to the return, by the fold of the preceding module: a host stretch changes them by its operations' results, a region changes its
own arrays to what its write-backs leave and nothing else. Every weakly fair execution terminates with the buffers
at the end of that fold, and since no stretch writes an argument's buffer, every argument ends as launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit, in the two forms the regrouping of buffers takes

The contents at each of the five boundaries (`W0` … `W5`, and `V1` … `V4` for the same read at the core's own
references) are the fold of the preceding module. When a region is left, each of its arrays holds what the pipelined
run leaves in it, and every other buffer what it held on entry. -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each stretch leaves alone

A host stretch changes only the buffers its operations write; a region leaves an array it only reads as it
found it, and touches no buffer that is not one of its arrays. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## Every argument ends as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_in m c 3 rfl
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_of m c main_arg8 (by decide)
    _ = W3 m c (Proc.devRef .tc main_arg8) := W4_in m c 4 rfl
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_of m c main_arg9 (by decide)
    _ = W3 m c (Proc.devRef .tc main_arg9) := W4_in m c 5 rfl
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_of m c main_arg11 (by decide)
    _ = W3 m c (Proc.devRef .tc main_arg11) := W4_of_ne m c main_arg11 (by decide)
    _ = W2 m c (Proc.devRef .tc main_arg11) := W3_of m c main_arg11 (by decide)
    _ = W1 m c (Proc.devRef .tc main_arg11) := W2_of_ne m c main_arg11 (by decide)
    _ = W0 m c (Proc.devRef .tc main_arg11) := W1_of m c main_arg11 (by decide)
    _ = m ((c : Thread nD τ).loc main_arg11) := rfl

/-! ## The proof data of the two regions, and what rides beside the buffers -/

/-- Each region's data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and its (empty) account of what it owes. -/
abbrev R (c : Dev nD) : sProp 𝕄 := iprop((∃ r, prngReg c r) ∗ ∃ W, owes (c : Thread nD τ) (0 : CellTallies nD τ sig Unit) W)
/-- A host stretch run from the contents `W`: it ends at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer of the core that is not scoped to a region is among those followed here. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core, without its account of what it owes: every buffer at `W5`, the register at some state. -/
abbrev Tₙ (c : Dev nD) : sProp 𝕄 := iprop(StableHlo.held (c : Thread nD τ) (Pipeline.ucRefs τ sig) (W5 m c) ∗ ∃ r, prngReg c r)

/-- What the last host stretch ends with is the last state beside the core's empty account: a regrouping. -/
theorem last_link (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two regions as stretches of the run

Each region is entered with every buffer at the contents before it, splits its own arrays off, runs its pipeline
(the body's obligation is the region's own lemma), and puts the arrays back at what the run left in them. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The five stretches, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- The program is the five stretches run in order. -/
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- Every weakly fair execution from `m` terminates, nothing faulting, with every unscoped buffer of every core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- Every weakly fair execution from `m` terminates, nothing faulting, and every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c)⟩) (run_all m ρ)

end Cert.KernelIdeal.Hand

end
-- ==== Proof.AffineRegionW.lean ====
import proofs.«145310_j17506286698747_2_alg».proof.Proof.Gen.Kernel.Launch
import proofs.«145310_j17506286698747_2_alg».proof.Proof.Gen.Kernel.Skeleton
import proofs.«145310_j17506286698747_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The affine map's region, at any entry contents

The first region of the program computes, row block by row block, `x ↦ x · W + b` for a 50000×128 array `x`
cut into five blocks of 10000 rows, a 128×384 matrix `W` and a 384-vector `b`, both read whole at every block.
Everything here is stated at a parameter `V`, the contents of the core's buffers when the region is entered:
what each window's block is, what the body leaves in the output's buffer as a function of the three input
blocks, and the obligation the pipelined run asks of the body at every block. -/

-- membership of an index in a rectangle with 10000 rows is decided structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- The block of window `w` at the `t`-th row block: the part of the window's array, as the region finds it, that
    the window's index map selects there. For the matrix and the vector this is the whole array at every `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window holds its block whenever the body runs: an input the body only reads keeps what was last
    brought in, and it is brought in afresh at every block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix's window holds the matrix whenever the body runs. It is brought in once, before the first block;
    afterwards its index never moves and the body leaves it in place, so what is there is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The vector's window holds the vector whenever the body runs, for the same reason as the matrix's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rA0 : Rect S10000x128 := Rect.unit (s := S10000x128) ![0, 0] S10000x128.size inb_S10000x128_S10000x128_0_0
abbrev rW0 : Rect S128x384 := Rect.unit (s := S128x384) ![0, 0] S128x384.size inb_S128x384_S128x384_0_0
abbrev rB0 : Rect S384 := Rect.unit (s := S384) ![0] S384.size inb_S384_S384_0
abbrev rO0 : Rect S10000x384 := Rect.unit (s := S10000x384) ![0, 0] S10000x384.size inb_S10000x384_S10000x384_0_0

/-! ## What the body leaves in the output's buffer -/

/-- The output block as a function of the three input blocks `x0` (rows), `x1` (matrix), `x2` (vector): the body's
    single store, of `x0 · x1 + x2` broadcast along the rows, over the whole buffer. -/
def out0_3 (x0 : Vec F S10000x128 .f32) (x1 : Vec F S128x384 .f32) (x2 : Vec F S384 .f32) : Vec F S10000x384 .f32 :=
  View.canon [⟨rO0, k0_pay1 (View.ld x0 rA0) (View.ld x1 rW0) (View.ld x2 rB0)⟩]

/-- The single store's rectangle is the whole buffer, so every index of the buffer lies in it. -/
theorem cover0_3 (p0 : Vec F S10000x384 .f32) (y : S10000x384.Idx) :
    ∃ pc ∈ ([⟨rO0, p0⟩] : List (View.Piece (Elt F) S10000x384 .f32)), y ∈ pc.1.set :=
  View.cover_of_tiled [⟨rO0, p0⟩] S10000x384.size (by rfl) y

/-! ## The body's triple -/

set_option maxHeartbeats 1000000 in
/-- The body, run on whole buffers holding `x0`, `x1`, `x2` and an output buffer holding anything, ends with the three
    inputs as they were and the output at `out0_3 x0 x1 x2`. (It also reads the output buffer before storing; what it
    reads there is not used.) -/
theorem sound_kernel0 (c : Dev nD) (E : Set ℕ) (i : grid0.Coords)
    (arg1 : Memref sig .tc .vmem S10000x128 .f32) (harg1 : arg1.IsWhole)
    (arg2 : Memref sig .tc .vmem S128x384 .f32) (harg2 : arg2.IsWhole)
    (arg3 : Memref sig .tc .vmem S384 .f32) (harg3 : arg3.IsWhole)
    (arg4 : Memref sig .tc .vmem S10000x384 .f32) (harg4 : arg4.IsWhole)
    (x0 : Vec F S10000x128 .f32) (x1 : Vec F S128x384 .f32) (x2 : Vec F S384 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__affine_kernel i arg1 harg1 arg2 harg2 arg3 harg3 arg4 harg4) K := by
  simp only [cc0__affine_kernel_eq_skeleton]; unfold cc0__affine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The data the pipelined run is read against on core `c`: the arrays as the region finds them; after the body at
    block `t`, each input's buffer still at its block and the output's at `out0_3` of the three input blocks; nothing
    owed between cores, full ownership of every buffer. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at any block -/

/-- What the body is entered with at block `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any block: the three inputs' buffers hold their blocks, so the body's triple applies; the invariant
    and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipelined run asks of the body, at every block. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.EdgeRegionW.lean ====
import proofs.«145310_j17506286698747_2_alg».proof.Proof.Gen.Kernel.Launch
import proofs.«145310_j17506286698747_2_alg».proof.Proof.Gen.Kernel.Skeleton
import proofs.«145310_j17506286698747_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The edge kernel's region, at the buffer contents the region is entered with

The second kernel call of the program runs the edge kernel over a grid of 125 points. At each point it
reads one block of 6400 rows from each of four edge-indexed arrays (the two gathered node projections
that form the attention score, the gathered value projection, and the raw edge features), together with
the whole edge weight matrix and the whole edge bias, and it writes one block of each of three outputs:
the edge message `e = (q ⊙ k) · ¼ ⊙ (x · W + b)`, the weighted value `v ⊙ (exp(clamp(e · S)) · Sᵀ)`
(with `S` the 128×8 zero-one matrix that sums each head's 16 lanes), and the per-head weight
`exp(clamp(e · S))`.

Everything here is stated at a parameter `V`: what every buffer of the core holds when the region is
entered. Nothing is assumed of `V`.
-/

-- membership of an index in a whole-block rectangle recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section EdgeRegion
-- what each buffer of the core holds when the region is entered
variable (V : (c : Dev nD) → (b : Ref sig .tc) → Buf (Elt F) ((c : Thread nD τ).loc b))

/-! ## The blocks the windows show -/

/-- The block of window `w` at grid point `t`: the entry contents of the window's array, read through
    the block's rectangle. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes: each is a whole block -/

/-- All 6400 × 128 entries of an edge block. -/
abbrev rE1 : Rect S6400x128 := Rect.unit (s := S6400x128) ![0, 0] S6400x128.size inb_S6400x128_S6400x128_0_0
/-- All 128 × 128 entries of the weight matrix. -/
abbrev rW1 : Rect S128x128 := Rect.unit (s := S128x128) ![0, 0] S128x128.size inb_S128x128_S128x128_0_0
/-- All 128 entries of the bias. -/
abbrev rB1 : Rect S128 := Rect.unit (s := S128) ![0] S128.size inb_S128_S128_0
/-- All 6400 × 8 entries of a per-head block. -/
abbrev rS1 : Rect S6400x8 := Rect.unit (s := S6400x8) ![0, 0] S6400x8.size inb_S6400x8_S6400x8_0_0

/-! ## What the body leaves in each output block, as a function of the input blocks

Each output block is written once, whole, so what it holds afterwards is the single written value laid
over the block. `x0, x1` are the two score factors, `x2` the value block, `x3` the edge features,
`x4` the weight matrix and `x5` the bias. -/

/-- First output: the edge message. -/
def out1_6 (x0 x1 x3 : Vec F S6400x128 .f32) (x4 : Vec F S128x128 .f32) (x5 : Vec F S128 .f32) : Vec F S6400x128 .f32 :=
  View.canon [⟨rE1, k1_pay5 (View.ld x0 rE1) (View.ld x1 rE1) (View.ld x3 rE1) (View.ld x4 rW1) (View.ld x5 rB1)⟩]

/-- Second output: the value block scaled lane by lane with its head's weight. -/
def out1_7 (x0 x1 x2 x3 : Vec F S6400x128 .f32) (x4 : Vec F S128x128 .f32) (x5 : Vec F S128 .f32) : Vec F S6400x128 .f32 :=
  View.canon [⟨rE1, k1_pay3 (k1_pay4 (View.ld x2 rE1))
    (k1_pay5 (View.ld x0 rE1) (View.ld x1 rE1) (View.ld x3 rE1) (View.ld x4 rW1) (View.ld x5 rB1))
    (iota .tc S128x8 32 [1] iota_S128x8_d1_w32) k1_pay6 k1_pay7⟩]

/-- Third output: the per-head weights. -/
def out1_8 (x0 x1 x3 : Vec F S6400x128 .f32) (x4 : Vec F S128x128 .f32) (x5 : Vec F S128 .f32) : Vec F S6400x8 .f32 :=
  View.canon [⟨rS1, k1_pay2
    (k1_pay5 (View.ld x0 rE1) (View.ld x1 rE1) (View.ld x3 rE1) (View.ld x4 rW1) (View.ld x5 rB1))
    (iota .tc S128x8 32 [1] iota_S128x8_d1_w32) k1_pay6 k1_pay7⟩]

/-! ## The region's proof data -/

/-- The data the launch theorem asks for, on core `c`: every window's array is what the region finds in it;
    after the body at point `t` an input's staging buffer still holds its block and an output's holds the
    value above, computed from the input blocks at `t`; the invariant carried between points is the
    untouched remainder of the core's state; nothing is owed and every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 0 t) (iblk1 V c 1 t) (iblk1 V c 3 t) (iblk1 V c 4 t) (iblk1 V c 5 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 3 t) (iblk1 V c 4 t) (iblk1 V c 5 t) := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 V c).after 8 t
    = out1_8 (iblk1 V c 0 t) (iblk1 V c 1 t) (iblk1 V c 3 t) (iblk1 V c 4 t) (iblk1 V c 5 t) := by dsimp only [dat1]

/-! ## An input's staging buffer holds its block at every point

Whether the pipeline fetched the block at this point or kept it from the point before (the weight matrix
and the bias are fetched once, their block index never moves), the staging buffer the body is handed holds
the block of the entry contents. This holds for any proof data whose array is the entry contents and whose
body leaves the input's block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## One whole-block write covers the block -/

theorem cover1_E (p : Vec F S6400x128 .f32) (y : S6400x128.Idx) :
    ∃ pc ∈ ([⟨rE1, p⟩] : List (View.Piece (Elt F) S6400x128 .f32)), y ∈ pc.1.set :=
  View.cover_of_tiled [⟨rE1, p⟩] S6400x128.size (by rfl) y

theorem cover1_S (p : Vec F S6400x8 .f32) (y : S6400x8.Idx) :
    ∃ pc ∈ ([⟨rS1, p⟩] : List (View.Piece (Elt F) S6400x8 .f32)), y ∈ pc.1.set :=
  View.cover_of_tiled [⟨rS1, p⟩] S6400x8.size (by rfl) y

/-! ## The body's triple -/

set_option maxHeartbeats 4000000 in
/-- The edge kernel on whole staging buffers: the six inputs' buffers read `x0 … x5`, the three outputs'
    buffers hold anything. It runs without fault to a state where the inputs' buffers are as they were and
    each output's buffer reads the value above. -/
theorem sound_kernel1 (c : Dev nD) (E : Set ℕ) (i : grid1.Coords)
    (arg1 : Memref sig .tc .vmem S6400x128 .f32) (harg1 : arg1.IsWhole) (arg2 : Memref sig .tc .vmem S6400x128 .f32) (harg2 : arg2.IsWhole)
    (arg3 : Memref sig .tc .vmem S6400x128 .f32) (harg3 : arg3.IsWhole) (arg4 : Memref sig .tc .vmem S6400x128 .f32) (harg4 : arg4.IsWhole)
    (arg5 : Memref sig .tc .vmem S128x128 .f32) (harg5 : arg5.IsWhole) (arg6 : Memref sig .tc .vmem S128 .f32) (harg6 : arg6.IsWhole)
    (arg7 : Memref sig .tc .vmem S6400x128 .f32) (harg7 : arg7.IsWhole) (arg8 : Memref sig .tc .vmem S6400x128 .f32) (harg8 : arg8.IsWhole)
    (arg9 : Memref sig .tc .vmem S6400x8 .f32) (harg9 : arg9.IsWhole)
    (x0 x1 x2 x3 : Vec F S6400x128 .f32) (x4 : Vec F S128x128 .f32) (x5 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x3 x4 x5)
            ∗ owns (c : Thread nD τ) arg8 fullShare (out1_7 x0 x1 x2 x3 x4 x5)
            ∗ owns (c : Thread nD τ) arg9 fullShare (out1_8 x0 x1 x3 x4 x5)) -∗ K ⟨⟩))
      ⊢ wp frame (wpE (defs₀ (F := F)) Variants.none c none) E
          (cc1__edge_kernel i arg1 harg1 arg2 harg2 arg3 harg3 arg4 harg4 arg5 harg5 arg6 harg6 arg7 harg7 arg8 harg8 arg9 harg9) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  -- the six loads, the pure values, and the three whole-block stores
  sl_exec
  sl_step
  iapply Hk
  -- the inputs' buffers were only read
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- each output's buffer took one write over the whole block, so it reads that write's value
  isplitl [H6]
  · iexists _; isplitr
    swap; · iexact H6
    ipureintro
    exact View.read_writes_eq_canon _ _ _ (cover1_E _)
  isplitl [H7]
  · iexists _; isplitr
    swap; · iexact H7
    ipureintro
    exact View.read_writes_eq_canon _ _ _ (cover1_E _)
  iexists _; isplitr
  swap; · iexact H8
  ipureintro
  exact View.read_writes_eq_canon _ _ _ (cover1_S _)

/-! ## The obligation at a grid point -/

/-- At every point each input's staging buffer holds its block of the entry contents. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the pipeline hands the body at point `t`: the invariant, the record of what is owed, and each
    window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' buffers hold their blocks, so the kernel's triple applies with those
    blocks as the values read; the invariant and the record of what is owed are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch theorem's obligation on the body, at every grid point. -/
theorem body_obligation1 (c : Dev nD) : BodyObligation (dat1 (F := F) V c) (defs₀ (F := F)) Variants.none () Set.univ := fun t => by
  rw [bigSep_W1, bigSep_W1]
  exact sound_body1 V c t

end EdgeRegion

end Cert.Kernel.Hand

end
-- ==== Proof.FoldW.lean ====
/-
  The contents of the core's buffers at each boundary of the program's five segments, as a fold from the launch memory:
  host operations, the node kernel's region, host operations, the edge kernel's region, host operations. A stretch of
  host operations takes the contents to the operations' composed results; a region leaves each of its arrays at what its
  pipelined write-backs leave there (an input array as entered, an output array at its blocks' final contents) and every
  other buffer as entered.
-/
import proofs.«145310_j17506286698747_2_alg».proof.Proof.AffineRegionW
import proofs.«145310_j17506286698747_2_alg».proof.Proof.EdgeRegionW

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the first host stretch: the node kernel's region is entered from these. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- When the node kernel's region is left: its arrays at what the pipeline leaves, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m c b
/-- After the second host stretch: the edge kernel's region is entered from these. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- When the edge kernel's region is left. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the last host stretch: what the program ends with. -/
abbrev W5 : Dev nD → Valuation τ sig (Elt F) := fun c => StableHlo.after hostOps2 (W4 m c)

end Cert.Kernel.Hand

end
-- ==== Proof.MainRunW.lean ====
import proofs.«145310_j17506286698747_2_alg».proof.Proof.FoldW
import proofs.«145310_j17506286698747_2_alg».proof.Proof.Gen.Kernel.Regions

/-! # The run of the whole program

The program is five stretches in order: two concatenations on the host, the affine map's region, a stretch of
host operations (slices, index arithmetic, three gathers), the edge region, and a last host stretch (reshapes, two
scatter-adds, a division). The contents of every buffer of a core are followed through the five, from the
launch memory `m` to the return, by the fold of the preceding module: a host stretch changes them by its operations' results, a region changes its
own arrays to what its write-backs leave and nothing else. Every weakly fair execution terminates with the buffers
at the end of that fold, and since no stretch writes an argument's buffer, every argument ends as launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit, in the two forms the regrouping of buffers takes

The contents at each of the five boundaries (`W0` … `W5`, and `V1` … `V4` for the same read at the core's own
references) are the fold of the preceding module. When a region is left, each of its arrays holds what the pipelined
run leaves in it, and every other buffer what it held on entry. -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each stretch leaves alone

A host stretch changes only the buffers its operations write; a region leaves an array it only reads as it
found it, and touches no buffer that is not one of its arrays. -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## Every argument ends as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_in m c 0 rfl
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_in m c 3 rfl
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := W4_of_ne m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := W5_of m c main_arg7 (by decide)
    _ = W3 m c (Proc.devRef .tc main_arg7) := W4_of_ne m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := W5_of m c main_arg8 (by decide)
    _ = W3 m c (Proc.devRef .tc main_arg8) := W4_in m c 4 rfl
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := W5_of m c main_arg9 (by decide)
    _ = W3 m c (Proc.devRef .tc main_arg9) := W4_in m c 5 rfl
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := W5_of m c main_arg10 (by decide)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := W5_of m c main_arg11 (by decide)
    _ = W3 m c (Proc.devRef .tc main_arg11) := W4_of_ne m c main_arg11 (by decide)
    _ = W2 m c (Proc.devRef .tc main_arg11) := W3_of m c main_arg11 (by decide)
    _ = W1 m c (Proc.devRef .tc main_arg11) := W2_of_ne m c main_arg11 (by decide)
    _ = W0 m c (Proc.devRef .tc main_arg11) := W1_of m c main_arg11 (by decide)
    _ = m ((c : Thread nD τ).loc main_arg11) := rfl

/-! ## The proof data of the two regions, and what rides beside the buffers -/

/-- Each region's data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register, at some state, and its (empty) account of what it owes. -/
abbrev R (c : Dev nD) : sProp 𝕄 := iprop((∃ r, prngReg c r) ∗ ∃ W, owes (c : Thread nD τ) (0 : CellTallies nD τ sig Unit) W)
/-- A host stretch run from the contents `W`: it ends at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer of the core that is not scoped to a region is among those followed here. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of a core, without its account of what it owes: every buffer at `W5`, the register at some state. -/
abbrev Tₙ (c : Dev nD) : sProp 𝕄 := iprop(StableHlo.held (c : Thread nD τ) (Pipeline.ucRefs τ sig) (W5 m c) ∗ ∃ r, prngReg c r)

/-- What the last host stretch ends with is the last state beside the core's empty account: a regrouping. -/
theorem last_link (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The two regions as stretches of the run

Each region is entered with every buffer at the contents before it, splits its own arrays off, runs its pipeline
(the body's obligation is the region's own lemma), and puts the arrays back at what the run left in them. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The five stretches, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

/-- The program is the five stretches run in order. -/
theorem main_run (c : Dev nD) : main (F := F) c = Pipeline.Seg.run (segs m) :=
  main_segs adm (pdats m) () 𝒱₀ L lv _ _ _ (reg0 m) (reg1 m) rfl rfl rfl c

set_option backward.isDefEq.respectTransparency.types false in
/-- Every weakly fair execution from `m` terminates, nothing faulting, with every unscoped buffer of every core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- Every weakly fair execution from `m` terminates, nothing faulting, and every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c),
      (h c _ (mem_uc main_arg7 (by decide))).trans (W5_main_arg7 m c),
      (h c _ (mem_uc main_arg8 (by decide))).trans (W5_main_arg8 m c),
      (h c _ (mem_uc main_arg9 (by decide))).trans (W5_main_arg9 m c),
      (h c _ (mem_uc main_arg10 (by decide))).trans (W5_main_arg10 m c),
      (h c _ (mem_uc main_arg11 (by decide))).trans (W5_main_arg11 m c)⟩) (run_all m ρ)

end Cert.Kernel.Hand

end
-- ==== Proof.Spec.lean ====
/-
  What the two programs compute, index by index, on the extended reals.

  Nodes carry 128 features, edges 128 features, and there are 8 heads of 16 lanes: lane `j` of a 128-wide row belongs to
  head `j / 16`, and lane `d` of head `a` is row lane `16·a + d`. Every projection is an affine map of rows,
  `lin X W b (n, j) = ∑ k, X[n,k]·W[k,j] + b[j]`. For an edge `e` with source row `rS e` and destination row `rD e`:
  * the score at lane `j` is `((K[rS e, j] · Q[rD e, j]) · ¼) · Ef[e, j]`;
  * the head weight is `exp` of the head's summed score clamped to [−5, 5];
  * the weighted value at lane `j` is `V[rS e, j]` times the weight of `j`'s head.
  A node `p` then collects, over the edges that land on it, the weighted values (`wV`) and the head weights (`z`), and the
  output is `wV / (z + ε)`. The rows `rS`, `rD` and the landing index `dstI` are parameters: how an integer array selects
  them is the same on both sides and is not looked into here.
-/
import Idealize.ShloMosaic.PureOps.Ideal
import Idealize.ShloMosaic.PureOps
import Idealize.ShloMosaic.Lib.ValueIdx

noncomputable section

open scoped BigOperators

namespace Cert.Spec

open Idealize.ShloMosaic Idealize.ShloMosaic.ValueIdx

/-- Lane `d` of head `a` in a 128-wide row. -/
def lane (a : Fin 8) (d : Fin 16) : Fin 128 := ⟨16 * a.val + d.val, by have := a.isLt; have := d.isLt; omega⟩
/-- The head a lane belongs to. -/
def hd (j : Fin 128) : Fin 8 := ⟨j.val / 16, by have := j.isLt; omega⟩
/-- A lane's position inside its head. -/
def pos (j : Fin 128) : Fin 16 := ⟨j.val % 16, by omega⟩

theorem hd_lane (a : Fin 8) (d : Fin 16) : hd (lane a d) = a := by
  apply Fin.ext; show (16 * a.val + d.val) / 16 = a.val; have := d.isLt; omega
theorem pos_lane (a : Fin 8) (d : Fin 16) : pos (lane a d) = d := by
  apply Fin.ext; show (16 * a.val + d.val) % 16 = d.val; have := d.isLt; omega
theorem lane_hd_pos (j : Fin 128) : lane (hd j) (pos j) = j := by
  apply Fin.ext; show 16 * (j.val / 16) + j.val % 16 = j.val; omega

/-- The float words the programs spell, as the extended reals they denote. -/
abbrev zero : EReal := Ideal.ofBits .f32 0x00000000#32
abbrev quarter : EReal := Ideal.ofBits .f32 0x3E800000#32
abbrev four : EReal := Ideal.ofBits .f32 0x40800000#32
abbrev five : EReal := Ideal.ofBits .f32 0x40A00000#32
abbrev negfive : EReal := Ideal.ofBits .f32 0xC0A00000#32
abbrev eps : EReal := Ideal.ofBits .f32 0x358637BD#32
abbrev one : EReal := Ideal.ofBits .f32 0x3F800000#32

theorem zero_eq : zero = 0 := by
  simp [zero, Ideal.ofBits, Ideal.ieee]
theorem one_eq : one = 1 := by
  simp [one, Ideal.ofBits, Ideal.ieee, -EReal.coe_mul]; norm_num
theorem quarter_eq : quarter = (((1 / 4 : ℝ)) : EReal) := by
  simp [quarter, Ideal.ofBits, Ideal.ieee, -EReal.coe_mul]; norm_num
theorem four_eq : four = ((4 : ℝ) : EReal) := by
  simp [four, Ideal.ofBits, Ideal.ieee, -EReal.coe_mul]; norm_num

/-- Dividing by the word 4.0 is multiplying by the word 0.25, on every extended real. -/
theorem div_four (x : EReal) : Ideal.div x four = x * quarter := by
  rw [four_eq, quarter_eq, Ideal.div_coe (by norm_num : (4 : ℝ) ≠ 0)]

/-- An affine map of the rows of `X`: entry `(n, j)` is `∑ k, X[n,k]·W[k,j] + b[j]`. -/
def lin {R : Nat} (X : (⟨2, ![R, 128]⟩ : Shape).Idx → EReal) (W : (⟨2, ![128, 128]⟩ : Shape).Idx → EReal)
    (b : (⟨1, ![128]⟩ : Shape).Idx → EReal) (n : Fin R) (j : Fin 128) : EReal :=
  (∑ k : Fin 128, X (ix2 n k) * W (ix2 k j)) + b (ix1 j)

section
variable (h : (⟨2, ![50000, 128]⟩ : Shape).Idx → EReal) (ef : (⟨2, ![800000, 128]⟩ : Shape).Idx → EReal)
  (Wq Wk We Wv : (⟨2, ![128, 128]⟩ : Shape).Idx → EReal) (bq bk be bv : (⟨1, ![128]⟩ : Shape).Idx → EReal)
  (rS rD : Fin 800000 → Fin 50000) (dstI : Fin 800000 → Int)

/-- The score of edge `e` at lane `j`. -/
def sc (e : Fin 800000) (j : Fin 128) : EReal :=
  ((lin h Wk bk (rS e) j * lin h Wq bq (rD e) j) * quarter) * lin ef We be e j

/-- The summed score of head `a` on edge `e`. -/
def ssum (e : Fin 800000) (a : Fin 8) : EReal := ∑ d : Fin 16, sc h ef Wq Wk We bq bk be rS rD e (lane a d)

/-- The weight of head `a` on edge `e`: `exp` of the summed score clamped to [−5, 5]. -/
def sv (e : Fin 800000) (a : Fin 8) : EReal :=
  Ideal.exp (min five (max negfive (ssum h ef Wq Wk We bq bk be rS rD e a)))

/-- The weighted value of edge `e` at lane `j`. -/
def wv (e : Fin 800000) (j : Fin 128) : EReal :=
  lin h Wv bv (rS e) j * sv h ef Wq Wk We bq bk be rS rD e (hd j)

/-- The weighted values node `p` collects at head `a`, lane `d`. -/
def wV (p : Fin 50000) (a : Fin 8) (d : Fin 16) : EReal :=
  zero + ∑ e ∈ Finset.univ.filter (fun e : Fin 800000 => dstI e = (p.val : Int)),
    wv h ef Wq Wk We Wv bq bk be bv rS rD e (lane a d)

/-- The head weights node `p` collects at head `a`. -/
def z (p : Fin 50000) (a : Fin 8) : EReal :=
  zero + ∑ e ∈ Finset.univ.filter (fun e : Fin 800000 => dstI e = (p.val : Int)),
    sv h ef Wq Wk We bq bk be rS rD e a

/-- The first result: the collected weighted values over the collected weights plus ε. -/
def hout (p : Fin 50000) (a : Fin 8) (d : Fin 16) : EReal :=
  Ideal.div (wV h ef Wq Wk We Wv bq bk be bv rS rD dstI p a d) (z h ef Wq Wk We bq bk be rS rD dstI p a + eps)

/-- The second result: the scores, laid out by head and lane. -/
def score3 (e : Fin 800000) (a : Fin 8) (d : Fin 16) : EReal := sc h ef Wq Wk We bq bk be rS rD e (lane a d)

end

/-! ## How an integer array selects rows

Both programs normalise a gather's node index the same way (a negative index counts from the end), read the
normalised word signed, take negatives to 0 and clamp to the last row. An update lands on the node whose number is the
raw index read signed, and is dropped when that is no node's number. -/

/-- A node index as normalised before a gather: a negative index has the node count added. -/
def norm (x : BitVec 32) : BitVec 32 := Scalar.select (IntOp.cmpi .slt x 0#32) (IntOp.addi x 50000#32) x

/-- The row a gather reads for edge `e`. -/
def rowOfIdx (a : (⟨1, ![800000]⟩ : Shape).Idx → BitVec 32) (e : Fin 800000) : Fin 50000 :=
  ⟨min (norm (a (ix1 e))).toInt.toNat 49999, by omega⟩

/-- The node number edge `e`'s update is sent to, read signed. -/
def landOf (a : (⟨1, ![800000]⟩ : Shape).Idx → BitVec 32) (e : Fin 800000) : Int := (a (ix1 e)).toInt

/-! ## The two results as whole arrays of the twelve arguments -/

section
variable (h : (⟨2, ![50000, 128]⟩ : Shape).Idx → EReal) (ef : (⟨2, ![800000, 128]⟩ : Shape).Idx → EReal)
  (src dst : (⟨1, ![800000]⟩ : Shape).Idx → BitVec 32)
  (Wq : (⟨2, ![128, 128]⟩ : Shape).Idx → EReal) (bq : (⟨1, ![128]⟩ : Shape).Idx → EReal)
  (Wk : (⟨2, ![128, 128]⟩ : Shape).Idx → EReal) (bk : (⟨1, ![128]⟩ : Shape).Idx → EReal)
  (We : (⟨2, ![128, 128]⟩ : Shape).Idx → EReal) (be : (⟨1, ![128]⟩ : Shape).Idx → EReal)
  (Wv : (⟨2, ![128, 128]⟩ : Shape).Idx → EReal) (bv : (⟨1, ![128]⟩ : Shape).Idx → EReal)

/-- The first result, [50000, 8, 16]: entry (p, a, d) is `hout` at node p, head a, lane d. -/
def resultA : (⟨3, ![50000, 8, 16]⟩ : Shape).Idx → EReal := fun i =>
  hout h ef Wq Wk We Wv bq bk be bv (rowOfIdx src) (rowOfIdx dst) (landOf dst)
    ⟨(i 0).val, (i 0).isLt⟩ ⟨(i 1).val, (i 1).isLt⟩ ⟨(i 2).val, (i 2).isLt⟩

/-- The second result, [800000, 8, 16]: entry (e, a, d) is the score of edge e at lane d of head a. -/
def resultB : (⟨3, ![800000, 8, 16]⟩ : Shape).Idx → EReal := fun i =>
  score3 h ef Wq Wk We bq bk be (rowOfIdx src) (rowOfIdx dst)
    ⟨(i 0).val, (i 0).isLt⟩ ⟨(i 1).val, (i 1).isLt⟩ ⟨(i 2).val, (i 2).isLt⟩

end

end Cert.Spec

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.KernelVals.lean ====
/-
  The two kernel bodies' arithmetic read at an index, on the extended reals.

  The node kernel's one store is an affine map of the rows of its block: entry (p, q) is `∑ k, x[p,k]·w[k,q] + b[q]`.
  The edge kernel's score block is, at (p, j), `((k[p,j]·q[p,j])·¼)·(∑ k, e[p,k]·we[k,j] + be[j])`.
-/
import proofs.«145310_j17506286698747_2_alg».proof.Proof.Gen.KernelIdeal.Skeleton
import proofs.«145310_j17506286698747_2_alg».proof.Proof.Spec
import proofs.«145310_j17506286698747_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Vals

open Cert.KernelIdeal Cert.KernelIdeal.Gen Idealize.ShloMosaic Idealize.ShloMosaic.ValueIdx

/-- A row vector cast to one row and broadcast down the rows of a block reads, at (p, q), the vector at q. -/
theorem rowBias_at {a b : ℕ} (x : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

/-- The node kernel's stored block at (p, q): the affine map of row p at lane q. -/
theorem affine_at (x0 : Vec Ideal S10000x128 .f32) (x1 : Vec Ideal S128x384 .f32) (x2 : Vec Ideal S384 .f32)
    (p : Fin 10000) (q : Fin 384) :
    k0_pay1 (F := Ideal) x0 x1 x2 (ix2 p q) = (∑ k : Fin 128, x0 (ix2 p k) * x1 (ix2 k q)) + x2 (ix1 q) := by
  unfold k0_pay1
  show (matmul dot_S10000x128_S128x384_S10000x384_1_0_0_1_n_n none x0 (shapeCast S128x384 x1 shapeCasts_S128x384_S128x384)
      (constant (F := Ideal) S10000x384 .f32 0x00000000#32)) (ix2 p q)
    + broadcastTo S10000x384 (shapeCast S1x384 (shapeCast S384 x2 shapeCasts_S384_S384) shapeCasts_S384_S1x384) broadcasts_S1x384_S10000x384 (ix2 p q) = _
  rw [shapeCast_self, shapeCast_self]
  refine congrArg₂ (· + ·) ?_ ?_
  · exact LibMatmulNN.matmul_zero_apply 10000 128 384 none x0 x1 p q
  · exact rowBias_at x2 _ _ p q

/-- The edge kernel's score block at (p, j). -/
theorem score_at (x0 x1 x3 : Vec Ideal S6400x128 .f32) (x4 : Vec Ideal S128x128 .f32) (x5 : Vec Ideal S128 .f32)
    (p : Fin 6400) (j : Fin 128) :
    k1_pay5 (F := Ideal) x0 x1 x3 x4 x5 (ix2 p j)
      = ((x0 (ix2 p j) * x1 (ix2 p j)) * Cert.Spec.quarter) * ((∑ k : Fin 128, x3 (ix2 p k) * x4 (ix2 k j)) + x5 (ix1 j)) := by
  unfold k1_pay5
  show ((shapeCast S6400x128 x0 shapeCasts_S6400x128_S6400x128 (ix2 p j) * shapeCast S6400x128 x1 shapeCasts_S6400x128_S6400x128 (ix2 p j))
        * Cert.Spec.quarter)
      * ((matmul dot_S6400x128_S128x128_S6400x128_1_0_0_1_n_n none x3 x4 (constant (F := Ideal) S6400x128 .f32 0x00000000#32)) (ix2 p j)
        + broadcastTo S6400x128 (shapeCast S1x128 x5 shapeCasts_S128_S1x128) broadcasts_S1x128_S6400x128 (ix2 p j)) = _
  rw [shapeCast_self, shapeCast_self]
  refine congrArg₂ (· * ·) rfl (congrArg₂ (· + ·) ?_ ?_)
  · exact LibMatmulNN.matmul_zero_apply 6400 128 128 none x3 x4 p j
  · exact rowBias_at x5 _ _ p j

/-! ## The head selector

The edge kernel builds a 128 × 8 matrix of ones and zeros from two integer ramps: entry (j, a) is one exactly when lane
`j` belongs to head `a`, the head computed as the floor of j / 16 by a truncating signed division and its correction.
For lanes 0 to 127 the correction never fires and the truncating division is the natural one; the whole integer
computation is checked by evaluation at each of the 1024 index pairs. -/

/-- The word computation entry (j, a) of the selector goes through, on the two ramps' words. -/
def selWord (x y : BitVec 32) : BitVec 1 :=
  IntOp.cmpi .eq
    (Scalar.select
      (IntOp.andi
        (IntOp.cmpi .ne
          (IntOp.subi ((IntOp.cmpi .sgt x 0#32).setWidth 32) ((IntOp.cmpi .slt x 0#32).setWidth 32))
          (Scalar.subi (Scalar.extui (Scalar.cmpi .sgt 16#32 0#32)) (Scalar.extui (Scalar.cmpi .slt 16#32 0#32))))
        (IntOp.cmpi .ne (IntOp.remsi .vector x 16#32) 0#32))
      (IntOp.subi (IntOp.divsi .vector x 16#32) 1#32)
      (IntOp.divsi .vector x 16#32))
    y

theorem selWord_eq : ∀ (j : Fin 128) (a : Fin 8),
    selWord (BitVec.ofNat 32 j.val) (BitVec.ofNat 32 a.val) = if j.val / 16 = a.val then 1#1 else 0#1 := by
  decide +kernel

/-- The selector at (j, a): one when lane j belongs to head a, zero otherwise. -/
theorem mask_at (j : Fin 128) (a : Fin 8) :
    k1_pay1 (F := Ideal) (iota .tc S128x8 32 [1] iota_S128x8_d1_w32) k1_pay6 k1_pay7 (ix2 j a)
      = if Cert.Spec.hd j = a then Cert.Spec.one else Cert.Spec.zero := by
  have h0 : iota .tc S128x8 32 [0] iota_S128x8_d0_w32 (ix2 j a) = BitVec.ofNat 32 j.val :=
    iota_single_apply _ _ _ _ _ _
  have h1 : iota .tc S128x8 32 [1] iota_S128x8_d1_w32 (ix2 j a) = BitVec.ofNat 32 a.val :=
    iota_single_apply _ _ _ _ _ _
  have hw : k1_pay1 (F := Ideal) (iota .tc S128x8 32 [1] iota_S128x8_d1_w32) k1_pay6 k1_pay7 (ix2 j a)
      = Scalar.select (selWord (iota .tc S128x8 32 [0] iota_S128x8_d0_w32 (ix2 j a))
          (iota .tc S128x8 32 [1] iota_S128x8_d1_w32 (ix2 j a))) Cert.Spec.one Cert.Spec.zero := rfl
  rw [hw, h0, h1, selWord_eq]
  by_cases h : j.val / 16 = a.val
  · rw [if_pos h, if_pos (Fin.ext h), select_one]
  · rw [if_neg h, if_neg (fun e => h (congrArg Fin.val e)), select_zero]

/-! ## Sums against the selector -/

/-- The 128 lanes are the 8 heads' 16 lanes each. -/
def laneEquiv : Fin 128 ≃ Fin 8 × Fin 16 where
  toFun j := (Cert.Spec.hd j, Cert.Spec.pos j)
  invFun ad := Cert.Spec.lane ad.1 ad.2
  left_inv j := Cert.Spec.lane_hd_pos j
  right_inv ad := Prod.ext (Cert.Spec.hd_lane ad.1 ad.2) (Cert.Spec.pos_lane ad.1 ad.2)

/-- A row summed against column `a` of the selector is the sum of the row over head `a`'s lanes: a term times one is
    the term and a term times zero is zero, on every extended real. -/
theorem sum_sel_col (f : Fin 128 → EReal) (a : Fin 8) :
    ∑ j : Fin 128, f j * (if Cert.Spec.hd j = a then Cert.Spec.one else Cert.Spec.zero)
      = ∑ d : Fin 16, f (Cert.Spec.lane a d) := by
  have h1 : ∀ j : Fin 128, f j * (if Cert.Spec.hd j = a then Cert.Spec.one else Cert.Spec.zero)
      = if Cert.Spec.hd j = a then f j else 0 := by
    intro j
    by_cases h : Cert.Spec.hd j = a
    · rw [if_pos h, if_pos h, Cert.Spec.one_eq, mul_one]
    · rw [if_neg h, if_neg h, Cert.Spec.zero_eq, mul_zero]
  rw [Finset.sum_congr rfl (fun j _ => h1 j), ← Equiv.sum_comp laneEquiv.symm, Fintype.sum_prod_type]
  have h2 : ∀ a' : Fin 8, (∑ d : Fin 16, if Cert.Spec.hd (laneEquiv.symm (a', d)) = a then f (laneEquiv.symm (a', d)) else 0)
      = if a' = a then ∑ d : Fin 16, f (Cert.Spec.lane a' d) else 0 := by
    intro a'
    by_cases h : a' = a
    · rw [if_pos h]
      refine Finset.sum_congr rfl fun d _ => ?_
      show (if Cert.Spec.hd (Cert.Spec.lane a' d) = a then f (Cert.Spec.lane a' d) else 0) = _
      rw [Cert.Spec.hd_lane, if_pos h]
    · rw [if_neg h]
      refine Finset.sum_eq_zero fun d _ => ?_
      show (if Cert.Spec.hd (Cert.Spec.lane a' d) = a then f (Cert.Spec.lane a' d) else 0) = _
      rw [Cert.Spec.hd_lane, if_neg h]
  rw [Finset.sum_congr rfl (fun a' _ => h2 a'), Finset.sum_ite_eq' Finset.univ a, if_pos (Finset.mem_univ a)]

/-- The head weights summed against row `j` of the transposed selector pick out the weight of `j`'s head. -/
theorem sum_sel_row (g : Fin 8 → EReal) (j : Fin 128) :
    ∑ a : Fin 8, g a * (if Cert.Spec.hd j = a then Cert.Spec.one else Cert.Spec.zero) = g (Cert.Spec.hd j) := by
  have h1 : ∀ a : Fin 8, g a * (if Cert.Spec.hd j = a then Cert.Spec.one else Cert.Spec.zero)
      = if Cert.Spec.hd j = a then g a else 0 := by
    intro a
    by_cases h : Cert.Spec.hd j = a
    · rw [if_pos h, if_pos h, Cert.Spec.one_eq, mul_one]
    · rw [if_neg h, if_neg h, Cert.Spec.zero_eq, mul_zero]
  rw [Finset.sum_congr rfl (fun a _ => h1 a), Finset.sum_ite_eq Finset.univ (Cert.Spec.hd j), if_pos (Finset.mem_univ _)]

/-! ## The head weights and the weighted values -/

/-- The edge kernel's weight block at (p, a): `exp` of head a's summed score, clamped to [−5, 5]. -/
theorem s_at (v16 : FVec Ideal S6400x128 .f32) (p : Fin 6400) (a : Fin 8) :
    k1_pay2 (F := Ideal) v16 (iota .tc S128x8 32 [1] iota_S128x8_d1_w32) k1_pay6 k1_pay7 (ix2 p a)
      = Ideal.exp (min Cert.Spec.five (max Cert.Spec.negfive (∑ d : Fin 16, v16 (ix2 p (Cert.Spec.lane a d))))) := by
  unfold k1_pay2
  show Ideal.exp (min Cert.Spec.five (max Cert.Spec.negfive
      ((matmul dot_S6400x128_S128x8_S6400x8_1_0_0_1_n_n none v16
        (k1_pay1 (F := Ideal) (iota .tc S128x8 32 [1] iota_S128x8_d1_w32) k1_pay6 k1_pay7)
        (constant (F := Ideal) S6400x8 .f32 0x00000000#32)) (ix2 p a)))) = _
  refine congrArg (fun x => Ideal.exp (min Cert.Spec.five (max Cert.Spec.negfive x))) ?_
  refine (LibMatmulNN.matmul_zero_apply 6400 128 8 none v16 _ p a).trans ?_
  rw [Finset.sum_congr rfl (fun j _ => congrArg (v16 (ix2 p j) * ·) (mask_at j a))]
  exact sum_sel_col (fun j => v16 (ix2 p j)) a

/-- The edge kernel's weighted-value block at (p, j): the value at (p, j) times the weight of j's head. -/
theorem wv_at (v5 v16 : FVec Ideal S6400x128 .f32) (p : Fin 6400) (j : Fin 128) :
    k1_pay3 (F := Ideal) v5 v16 (iota .tc S128x8 32 [1] iota_S128x8_d1_w32) k1_pay6 k1_pay7 (ix2 p j)
      = v5 (ix2 p j)
        * k1_pay2 (F := Ideal) v16 (iota .tc S128x8 32 [1] iota_S128x8_d1_w32) k1_pay6 k1_pay7 (ix2 p (Cert.Spec.hd j)) := by
  unfold k1_pay3
  show v5 (ix2 p j) * ((matmul dot_S6400x8_S8x128_S6400x128_1_0_0_1_n_n none
        (k1_pay2 (F := Ideal) v16 (iota .tc S128x8 32 [1] iota_S128x8_d1_w32) k1_pay6 k1_pay7)
        (transpose S8x128 [1, 0] (k1_pay1 (F := Ideal) (iota .tc S128x8 32 [1] iota_S128x8_d1_w32) k1_pay6 k1_pay7)
          transposes_S128x8_p1_0_S8x128)
        (constant (F := Ideal) S6400x128 .f32 0x00000000#32)) (ix2 p j)) = _
  refine congrArg (v5 (ix2 p j) * ·) ?_
  refine (LibMatmulNN.matmul_zero_apply 6400 8 128 none _ _ p j).trans ?_
  rw [Finset.sum_congr rfl (fun a _ => congrArg (_ * ·) ((transpose_ix2_apply _ _ a j).trans (mask_at j a)))]
  exact sum_sel_row _ j

/-- The value block passes through a cast to its own shape unchanged. -/
theorem val_at (v4 : Vec Ideal S6400x128 .f32) : k1_pay4 (F := Ideal) v4 = v4 := by
  unfold k1_pay4; exact shapeCast_self _ _

end Cert.KernelIdeal.Vals

end
-- ==== Proof.Arrays.lean ====
/-
  What each region leaves in its output arrays, as whole-array functions of the arrays the region reads.

  The node kernel leaves the affine map of every row. The edge kernel leaves, per edge row: the score at each lane; the
  weight of each head (`exp` of the head's summed score clamped to [−5, 5]); and the value at each lane times the weight of
  the lane's head.
-/
import proofs.«145310_j17506286698747_2_alg».proof.KernelIdeal
import proofs.«145310_j17506286698747_2_alg».proof.Proof.Spec

noncomputable section

open scoped BigOperators

namespace Cert.KernelIdeal.Arr

open Cert.KernelIdeal Idealize.ShloMosaic Idealize.ShloMosaic.ValueIdx

/-- The affine map of all 50000 rows against the 128 × 384 matrix and the 384 vector. -/
def affArr (X : S50000x128.Idx → EReal) (Wc : S128x384.Idx → EReal) (bc : S384.Idx → EReal) : S50000x384.Idx → EReal := fun i =>
  (∑ k : Fin 128, X (ix2 (⟨(i 0).val, (i 0).isLt⟩ : Fin 50000) k) * Wc (ix2 k (⟨(i 1).val, (i 1).isLt⟩ : Fin 384)))
    + bc (ix1 (⟨(i 1).val, (i 1).isLt⟩ : Fin 384))

/-- The score of edge row e at lane j, from the gathered key and query rows and the edge's projected features. -/
def scoreAt (Kg Qg E : S800000x128.Idx → EReal) (We : S128x128.Idx → EReal) (be : S128.Idx → EReal)
    (e : Fin 800000) (j : Fin 128) : EReal :=
  ((Kg (ix2 e j) * Qg (ix2 e j)) * Cert.Spec.quarter) * ((∑ k : Fin 128, E (ix2 e k) * We (ix2 k j)) + be (ix1 j))

/-- The weight of head a on edge row e. -/
def sAt (Kg Qg E : S800000x128.Idx → EReal) (We : S128x128.Idx → EReal) (be : S128.Idx → EReal)
    (e : Fin 800000) (a : Fin 8) : EReal :=
  Ideal.exp (min Cert.Spec.five (max Cert.Spec.negfive (∑ d : Fin 16, scoreAt Kg Qg E We be e (Cert.Spec.lane a d))))

/-- The score array, [800000, 128]. -/
def scoreArr (Kg Qg E : S800000x128.Idx → EReal) (We : S128x128.Idx → EReal) (be : S128.Idx → EReal) :
    S800000x128.Idx → EReal := fun i =>
  scoreAt Kg Qg E We be (⟨(i 0).val, (i 0).isLt⟩ : Fin 800000) (⟨(i 1).val, (i 1).isLt⟩ : Fin 128)

/-- The head-weight array, [800000, 8]. -/
def sArr (Kg Qg E : S800000x128.Idx → EReal) (We : S128x128.Idx → EReal) (be : S128.Idx → EReal) :
    S800000x8.Idx → EReal := fun i =>
  sAt Kg Qg E We be (⟨(i 0).val, (i 0).isLt⟩ : Fin 800000) (⟨(i 1).val, (i 1).isLt⟩ : Fin 8)

/-- The weighted-value array, [800000, 128]: the gathered value at (e, j) times the weight of j's head. -/
def wvArr (Kg Qg Vg E : S800000x128.Idx → EReal) (We : S128x128.Idx → EReal) (be : S128.Idx → EReal) :
    S800000x128.Idx → EReal := fun i =>
  Vg (ix2 (⟨(i 0).val, (i 0).isLt⟩ : Fin 800000) (⟨(i 1).val, (i 1).isLt⟩ : Fin 128))
    * sAt Kg Qg E We be (⟨(i 0).val, (i 0).isLt⟩ : Fin 800000) (Cert.Spec.hd (⟨(i 1).val, (i 1).isLt⟩ : Fin 128))

end Cert.KernelIdeal.Arr

end
-- ==== Proof.AffineArray.lean ====
/-
  What the node kernel's region leaves in its output array: the affine map of every row.

  The 50000 rows are cut into five blocks of 10000; at block t the body stores the affine map of the block's rows against
  the whole 128 × 384 matrix and the whole 384 vector, and the block is written back to rows 10000·t … 10000·t + 9999 of the
  output. Row r is therefore written by block r / 10000, the five blocks cover the array, and the array ends holding the
  affine map of all rows.
-/
import proofs.«145310_j17506286698747_2_alg».proof.Proof.AffineRegion
import proofs.«145310_j17506286698747_2_alg».proof.Proof.KernelVals
import proofs.«145310_j17506286698747_2_alg».proof.Proof.Arrays
import Idealize.ShloMosaic.Lib.Pipeline.Value

set_option maxRecDepth 16384

noncomputable section

open scoped BigOperators

namespace Cert.KernelIdeal.Arr

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hzRows : (![0, 0] : Fin 2 → Nat) = fun _ => 0 := funext fun a => by fin_cases a <;> rfl
theorem hzVec : (![0] : Fin 1 → Nat) = fun _ => 0 := funext fun a => by fin_cases a; rfl

/-- The block indices at point t, decided over the five points: the row blocks of the input and of the output move
    together; the matrix, the vector and every lane axis stay at block 0; the row block is at most 4. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 4 :=
  (by decide +kernel : ∀ t : Fin grid0.N, _)

/-- Every one of the five row blocks is some point's. -/
theorem idx_onto0 : ∀ q0 : Fin 5, ∃ t : Fin cfg0.N, win0_3.index t = ![q0.val, 0] :=
  (by decide +kernel : ∀ q0 : Fin 5, ∃ t : Fin grid0.N, win0_3.index t = ![q0.val, 0])

/-- What point t writes back is block t of the affine map of all rows. -/
theorem flushed0_eq (c : Dev nD) (t : Fin cfg0.N) :
    (dat0 V c).flushed 3 t
      = ((cfg0.win 3).blk t).view.read (Elt Ideal) (affArr (V c main_arg0) (V c main_v0) (V c main_v1)) := by
  show (cfg0.win 3).cut (grid0.coords t) ((dat0 V c).after 3 t) = _
  rw [after0_3]
  unfold out0_3
  rw [View.canon_unit_zero hzRows]
  simp only [View.ld_unit_zero (S := S10000x128) hzRows, View.ld_unit_zero (S := S128x384) hzRows, View.ld_unit_zero (S := S384) hzVec]
  obtain ⟨e0, e1, e2, e3, e4, e5, e6⟩ := idx_facts0 t
  funext j
  obtain ⟨p, q, rfl⟩ : ∃ (p : Fin 10000) (q : Fin 384), j = ix2 p q := ⟨j 0, j 1, eq_ix2 j⟩
  show k0_pay1 (F := Ideal) (iblk0 V c 0 t) (iblk0 V c 1 t) (iblk0 V c 2 t) (ix2 p q)
    = affArr (V c main_arg0) (V c main_v0) (V c main_v1) (((cfg0.win 3).blk t).view.emb (ix2 p q))
  refine (Vals.affine_at (iblk0 V c 0 t) (iblk0 V c 1 t) (iblk0 V c 2 t) p q).trans ?_
  unfold affArr
  refine congrArg₂ (· + ·) (Finset.sum_congr rfl fun k _ => congrArg₂ (· * ·) ?_ ?_) ?_
  · show V c main_arg0 (((cfg0.win 0).blk t).view.emb (ix2 p k)) = V c main_arg0 _
    refine congrArg (V c main_arg0) ?_
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  · show V c main_v0 (((cfg0.win 1).blk t).view.emb (ix2 k q)) = V c main_v0 _
    refine congrArg (V c main_v0) ?_
    funext a; apply Fin.ext
    match a with
    | ⟨0, _⟩ => show win0_1.index t (0 : Fin 2) * 128 + 1 * k.val = k.val; omega
    | ⟨1, _⟩ => show win0_1.index t (1 : Fin 2) * 384 + 1 * q.val = win0_3.index t (1 : Fin 2) * 384 + 1 * q.val; omega
  · show V c main_v1 (((cfg0.win 2).blk t).view.emb (ix1 q)) = V c main_v1 _
    refine congrArg (V c main_v1) ?_
    funext a; apply Fin.ext
    match a with
    | ⟨0, _⟩ => show win0_2.index t (0 : Fin 1) * 384 + 1 * q.val = win0_3.index t (1 : Fin 2) * 384 + 1 * q.val; omega

/-- An index of the output array is in point t's block iff each coordinate is in the block's range on its axis. -/
theorem mem_blk0 (t : Fin cfg0.N) (i : S50000x384.Idx) :
    i ∈ ((cfg0.win 3).blk t).view.set ↔ ∀ a : Fin 2, win0_3.index t a * S10000x384.size a ≤ (i a).val
      ∧ (i a).val < win0_3.index t a * S10000x384.size a + S10000x384.size a := by
  show i ∈ ((View.whole main_v2).slice (win0_3.rect t)).set ↔ _
  rw [View.set_slice_whole, Rect.mem_set_unit]
  exact Iff.rfl

/-- Row r lies in the block of point r / 10000: the five blocks cover the array. -/
theorem cover0 (i : S50000x384.Idx) :
    ∃ t : Fin cfg0.N, (cfg0.win 3).flush t = true ∧ i ∈ ((cfg0.win 3).blk t).view.set := by
  have hi0 : (i 0).val < 50000 := (i 0).isLt
  have hi1 : (i 1).val < 384 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 384 ≤ (i 1).val ∧ (i 1).val < win0_3.index t (1 : Fin 2) * 384 + 384
    omega

/-- The output array after the region: the affine map of all rows of the arrays the region was entered with. -/
theorem final0 (c : Dev nD) :
    (dat0 V c).arrAt 3 cfg0.N = affArr (V c main_arg0) (V c main_v0) (V c main_v1) :=
  (dat0 V c).arrAt_eq_of_cover 3 _ (fun t _ => flushed0_eq V c t) cover0

end Cert.KernelIdeal.Arr

end
-- ==== Proof.EdgeArray.lean ====
import proofs.«145310_j17506286698747_2_alg».proof.Proof.EdgeRegion
import proofs.«145310_j17506286698747_2_alg».proof.Proof.KernelVals
import proofs.«145310_j17506286698747_2_alg».proof.Proof.Arrays
import Idealize.ShloMosaic.Lib.Pipeline.Value

/-!
# The edge region's three output arrays, whole

At each of its 125 grid points the edge kernel writes rows `6400·t … 6400·t + 6399` of each output array,
computed from the same rows of the four edge-indexed input arrays and from the whole weight matrix and bias.
The 125 row blocks tile the 800000 rows, so after the region each output array is one function of the
arrays the region read, index by index: the score at every (edge, lane), the head weight at every
(edge, head), and the weighted value at every (edge, lane).
-/

noncomputable section

open scoped BigOperators

namespace Cert.KernelIdeal.Arr

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- what each buffer of the core holds when the region is entered, on the extended reals
variable (V : (c : Dev nD) → (b : Ref sig .tc) → Buf (Elt Ideal) ((c : Thread nD τ).loc b))

/-! ## Where the blocks sit

Every window that moves with the grid (the four edge inputs and the three outputs) has block index `t` along
the rows and `0` along the lanes; the weight matrix and the bias are one block. Decided over the 125 points. -/

theorem hz2 : (![0, 0] : Fin 2 → Nat) = fun _ => 0 := funext fun a => by fin_cases a <;> rfl
theorem hz1 : (![0] : Fin 1 → Nat) = fun _ => 0 := funext fun a => by fin_cases a <;> rfl

theorem blockIdx : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = win1_6.index t (0 : Fin 2) ∧ win1_3.index t (1 : Fin 2) = 0
    ∧ win1_4.index t (0 : Fin 2) = 0 ∧ win1_4.index t (1 : Fin 2) = 0
    ∧ win1_5.index t (0 : Fin 1) = 0
    ∧ win1_7.index t (0 : Fin 2) = win1_6.index t (0 : Fin 2) ∧ win1_7.index t (1 : Fin 2) = 0
    ∧ win1_8.index t (0 : Fin 2) = win1_6.index t (0 : Fin 2) ∧ win1_8.index t (1 : Fin 2) = 0
    ∧ win1_6.index t (0 : Fin 2) ≤ 124 ∧ win1_6.index t (1 : Fin 2) = 0 :=
  (by decide +kernel : ∀ t : Fin grid1.N, _)

/-- Every one of the 125 row blocks is some grid point's, for each output. -/
theorem onto6 : ∀ q0 : Fin 125, ∃ t : Fin cfg1.N, win1_6.index t = ![q0.val, 0] :=
  (by decide +kernel : ∀ q0 : Fin 125, ∃ t : Fin grid1.N, win1_6.index t = ![q0.val, 0])
theorem onto7 : ∀ q0 : Fin 125, ∃ t : Fin cfg1.N, win1_7.index t = ![q0.val, 0] :=
  (by decide +kernel : ∀ q0 : Fin 125, ∃ t : Fin grid1.N, win1_7.index t = ![q0.val, 0])
theorem onto8 : ∀ q0 : Fin 125, ∃ t : Fin cfg1.N, win1_8.index t = ![q0.val, 0] :=
  (by decide +kernel : ∀ q0 : Fin 125, ∃ t : Fin grid1.N, win1_8.index t = ![q0.val, 0])

/-- The array row that row `p` of a block is at grid point `t`. -/
def erow (t : Fin cfg1.N) (p : Fin 6400) : Fin 800000 :=
  ⟨win1_6.index t (0 : Fin 2) * 6400 + p.val, by
    have h := (blockIdx t).2.2.2.2.2.2.2.2.2.2.2.2.2.2.2.1
    have hp := p.isLt
    omega⟩

/-! ## A block's entry is the array's entry at the block's place

An entry of a block sits in the array at block index × block size + its place in the block, axis by axis. -/

theorem read_in0 (c : Dev nD) (t : Fin cfg1.N) (p : Fin 6400) (q : Fin 128) :
    iblk1 V c 0 t (ix2 p q) = V c main_v13 (ix2 (erow t p) q) := by
  obtain ⟨e0, e1, -⟩ := blockIdx t
  show V c main_v13 (((cfg1.win 0).blk t).view.emb (ix2 p q)) = V c main_v13 (ix2 (erow t p) q)
  refine congrArg _ ?_
  funext a; apply Fin.ext
  match a with
  | ⟨0, _⟩ => show win1_0.index t (0 : Fin 2) * 6400 + 1 * p.val = win1_6.index t (0 : Fin 2) * 6400 + p.val; omega
  | ⟨1, _⟩ => show win1_0.index t (1 : Fin 2) * 128 + 1 * q.val = q.val; omega

theorem read_in1 (c : Dev nD) (t : Fin cfg1.N) (p : Fin 6400) (q : Fin 128) :
    iblk1 V c 1 t (ix2 p q) = V c main_v21 (ix2 (erow t p) q) := by
  obtain ⟨-, -, e0, e1, -⟩ := blockIdx t
  show V c main_v21 (((cfg1.win 1).blk t).view.emb (ix2 p q)) = V c main_v21 (ix2 (erow t p) q)
  refine congrArg _ ?_
  funext a; apply Fin.ext
  match a with
  | ⟨0, _⟩ => show win1_1.index t (0 : Fin 2) * 6400 + 1 * p.val = win1_6.index t (0 : Fin 2) * 6400 + p.val; omega
  | ⟨1, _⟩ => show win1_1.index t (1 : Fin 2) * 128 + 1 * q.val = q.val; omega

theorem read_in2 (c : Dev nD) (t : Fin cfg1.N) (p : Fin 6400) (q : Fin 128) :
    iblk1 V c 2 t (ix2 p q) = V c main_v29 (ix2 (erow t p) q) := by
  obtain ⟨-, -, -, -, e0, e1, -⟩ := blockIdx t
  show V c main_v29 (((cfg1.win 2).blk t).view.emb (ix2 p q)) = V c main_v29 (ix2 (erow t p) q)
  refine congrArg _ ?_
  funext a; apply Fin.ext
  match a with
  | ⟨0, _⟩ => show win1_2.index t (0 : Fin 2) * 6400 + 1 * p.val = win1_6.index t (0 : Fin 2) * 6400 + p.val; omega
  | ⟨1, _⟩ => show win1_2.index t (1 : Fin 2) * 128 + 1 * q.val = q.val; omega

theorem read_in3 (c : Dev nD) (t : Fin cfg1.N) (p : Fin 6400) (q : Fin 128) :
    iblk1 V c 3 t (ix2 p q) = V c main_arg1 (ix2 (erow t p) q) := by
  obtain ⟨-, -, -, -, -, -, e0, e1, -⟩ := blockIdx t
  show V c main_arg1 (((cfg1.win 3).blk t).view.emb (ix2 p q)) = V c main_arg1 (ix2 (erow t p) q)
  refine congrArg _ ?_
  funext a; apply Fin.ext
  match a with
  | ⟨0, _⟩ => show win1_3.index t (0 : Fin 2) * 6400 + 1 * p.val = win1_6.index t (0 : Fin 2) * 6400 + p.val; omega
  | ⟨1, _⟩ => show win1_3.index t (1 : Fin 2) * 128 + 1 * q.val = q.val; omega

/-- The weight matrix is one block: an entry of the block is the same entry of the matrix. -/
theorem read_in4 (c : Dev nD) (t : Fin cfg1.N) (k : Fin 128) (q : Fin 128) :
    iblk1 V c 4 t (ix2 k q) = V c main_arg8 (ix2 k q) := by
  obtain ⟨-, -, -, -, -, -, -, -, e0, e1, -⟩ := blockIdx t
  show V c main_arg8 (((cfg1.win 4).blk t).view.emb (ix2 k q)) = V c main_arg8 (ix2 k q)
  refine congrArg _ ?_
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- The bias is one block. -/
theorem read_in5 (c : Dev nD) (t : Fin cfg1.N) (q : Fin 128) :
    iblk1 V c 5 t (ix1 q) = V c main_arg9 (ix1 q) := by
  obtain ⟨-, -, -, -, -, -, -, -, -, -, e0, -⟩ := blockIdx t
  show V c main_arg9 (((cfg1.win 5).blk t).view.emb (ix1 q)) = V c main_arg9 (ix1 q)
  refine congrArg _ ?_
  funext a; apply Fin.ext
  match a with
  | ⟨0, _⟩ => show win1_5.index t (0 : Fin 1) * 128 + 1 * q.val = q.val; omega

/-- Reading a whole-array function through an output's block. -/
theorem read_out6 (t : Fin cfg1.N) (G : S800000x128.Idx → EReal) (p : Fin 6400) (q : Fin 128) :
    ((cfg1.win 6).blk t).view.read (Elt Ideal) G (ix2 p q) = G (ix2 (erow t p) q) := by
  obtain ⟨-, -, -, -, -, -, -, -, -, -, -, -, -, -, -, -, e1⟩ := blockIdx t
  show G (((cfg1.win 6).blk t).view.emb (ix2 p q)) = G (ix2 (erow t p) q)
  refine congrArg _ ?_
  funext a; apply Fin.ext
  match a with
  | ⟨0, _⟩ => show win1_6.index t (0 : Fin 2) * 6400 + 1 * p.val = win1_6.index t (0 : Fin 2) * 6400 + p.val; omega
  | ⟨1, _⟩ => show win1_6.index t (1 : Fin 2) * 128 + 1 * q.val = q.val; omega

theorem read_out7 (t : Fin cfg1.N) (G : S800000x128.Idx → EReal) (p : Fin 6400) (q : Fin 128) :
    ((cfg1.win 7).blk t).view.read (Elt Ideal) G (ix2 p q) = G (ix2 (erow t p) q) := by
  obtain ⟨-, -, -, -, -, -, -, -, -, -, -, e0, e1, -⟩ := blockIdx t
  show G (((cfg1.win 7).blk t).view.emb (ix2 p q)) = G (ix2 (erow t p) q)
  refine congrArg _ ?_
  funext a; apply Fin.ext
  match a with
  | ⟨0, _⟩ => show win1_7.index t (0 : Fin 2) * 6400 + 1 * p.val = win1_6.index t (0 : Fin 2) * 6400 + p.val; omega
  | ⟨1, _⟩ => show win1_7.index t (1 : Fin 2) * 128 + 1 * q.val = q.val; omega

theorem read_out8 (t : Fin cfg1.N) (G : S800000x8.Idx → EReal) (p : Fin 6400) (a : Fin 8) :
    ((cfg1.win 8).blk t).view.read (Elt Ideal) G (ix2 p a) = G (ix2 (erow t p) a) := by
  obtain ⟨-, -, -, -, -, -, -, -, -, -, -, -, -, e0, e1, -⟩ := blockIdx t
  show G (((cfg1.win 8).blk t).view.emb (ix2 p a)) = G (ix2 (erow t p) a)
  refine congrArg _ ?_
  funext b; apply Fin.ext
  match b with
  | ⟨0, _⟩ => show win1_8.index t (0 : Fin 2) * 6400 + 1 * p.val = win1_6.index t (0 : Fin 2) * 6400 + p.val; omega
  | ⟨1, _⟩ => show win1_8.index t (1 : Fin 2) * 8 + 1 * a.val = a.val; omega

/-! ## The three written values, at a row of a block

Row `p` of the block at point `t` is row `erow t p` of the arrays. -/

/-- The score written at (p, j) is the score of array row `erow t p` at lane j. -/
theorem score_blk (c : Dev nD) (t : Fin cfg1.N) (p : Fin 6400) (j : Fin 128) :
    k1_pay5 (F := Ideal) (iblk1 V c 0 t) (iblk1 V c 1 t) (iblk1 V c 3 t) (iblk1 V c 4 t) (iblk1 V c 5 t) (ix2 p j)
      = scoreAt (V c main_v13) (V c main_v21) (V c main_arg1) (V c main_arg8) (V c main_arg9) (erow t p) j :=
  (Vals.score_at (iblk1 V c 0 t) (iblk1 V c 1 t) (iblk1 V c 3 t) (iblk1 V c 4 t) (iblk1 V c 5 t) p j).trans
    (congrArg₂ (· * ·)
      (congrArg₂ (· * ·) (congrArg₂ (· * ·) (read_in0 V c t p j) (read_in1 V c t p j)) rfl)
      (congrArg₂ (· + ·)
        (Finset.sum_congr rfl fun k _ => congrArg₂ (· * ·) (read_in3 V c t p k) (read_in4 V c t k j))
        (read_in5 V c t j)))

/-- The head weight written at (p, a) is the weight of head a on array row `erow t p`. -/
theorem weight_blk (c : Dev nD) (t : Fin cfg1.N) (p : Fin 6400) (a : Fin 8) :
    k1_pay2 (F := Ideal)
        (k1_pay5 (F := Ideal) (iblk1 V c 0 t) (iblk1 V c 1 t) (iblk1 V c 3 t) (iblk1 V c 4 t) (iblk1 V c 5 t))
        (iota .tc S128x8 32 [1] iota_S128x8_d1_w32) k1_pay6 k1_pay7 (ix2 p a)
      = sAt (V c main_v13) (V c main_v21) (V c main_arg1) (V c main_arg8) (V c main_arg9) (erow t p) a :=
  (Vals.s_at (k1_pay5 (F := Ideal) (iblk1 V c 0 t) (iblk1 V c 1 t) (iblk1 V c 3 t) (iblk1 V c 4 t) (iblk1 V c 5 t)) p a).trans
    (congrArg (fun x => Ideal.exp (min Cert.Spec.five (max Cert.Spec.negfive x)))
      (Finset.sum_congr rfl fun d _ => score_blk V c t p (Cert.Spec.lane a d)))

/-- The weighted value written at (p, j) is the value of array row `erow t p` at lane j times the weight of j's head. -/
theorem wvalue_blk (c : Dev nD) (t : Fin cfg1.N) (p : Fin 6400) (j : Fin 128) :
    k1_pay3 (F := Ideal) (k1_pay4 (F := Ideal) (iblk1 V c 2 t))
        (k1_pay5 (F := Ideal) (iblk1 V c 0 t) (iblk1 V c 1 t) (iblk1 V c 3 t) (iblk1 V c 4 t) (iblk1 V c 5 t))
        (iota .tc S128x8 32 [1] iota_S128x8_d1_w32) k1_pay6 k1_pay7 (ix2 p j)
      = wvArr (V c main_v13) (V c main_v21) (V c main_v29) (V c main_arg1) (V c main_arg8) (V c main_arg9) (ix2 (erow t p) j) :=
  (Vals.wv_at (k1_pay4 (F := Ideal) (iblk1 V c 2 t))
      (k1_pay5 (F := Ideal) (iblk1 V c 0 t) (iblk1 V c 1 t) (iblk1 V c 3 t) (iblk1 V c 4 t) (iblk1 V c 5 t)) p j).trans
    (congrArg₂ (· * ·)
      ((congrFun (Vals.val_at (iblk1 V c 2 t)) (ix2 p j)).trans (read_in2 V c t p j))
      (weight_blk V c t p (Cert.Spec.hd j)))

/-! ## First output: the scores -/

/-- What grid point `t` writes back is block `t` of the score array. -/
theorem flushed6_eq (c : Dev nD) (t : Fin cfg1.N) :
    (dat1 V c).flushed 6 t = ((cfg1.win 6).blk t).view.read (Elt Ideal)
      (scoreArr (V c main_v13) (V c main_v21) (V c main_arg1) (V c main_arg8) (V c main_arg9)) := by
  show (cfg1.win 6).cut (grid1.coords t) ((dat1 V c).after 6 t) = _
  rw [after1_6]
  unfold out1_6
  rw [View.canon_unit_zero hz2]
  simp only [View.ld_unit_zero (S := S6400x128) hz2, View.ld_unit_zero (S := S128x128) hz2, View.ld_unit_zero (S := S128) hz1]
  funext j
  obtain ⟨p, q, rfl⟩ : ∃ (p : Fin 6400) (q : Fin 128), j = ix2 p q := ⟨j 0, j 1, eq_ix2 j⟩
  exact (score_blk V c t p q).trans
    (read_out6 t (scoreArr (V c main_v13) (V c main_v21) (V c main_arg1) (V c main_arg8) (V c main_arg9)) p q).symm

/-- An index of the array is in point `t`'s block iff each coordinate is in the block's range. -/
theorem mem_blk6 (t : Fin cfg1.N) (i : S800000x128.Idx) :
    i ∈ ((cfg1.win 6).blk t).view.set ↔ ∀ a : Fin 2, win1_6.index t a * S6400x128.size a ≤ (i a).val
      ∧ (i a).val < win1_6.index t a * S6400x128.size a + S6400x128.size a := by
  show i ∈ ((View.whole main_v30_0).slice (win1_6.rect t)).set ↔ _
  rw [View.set_slice_whole, Rect.mem_set_unit]
  exact Iff.rfl

/-- Row r is in the block of the point whose block index is r / 6400. -/
theorem cover6 (i : S800000x128.Idx) :
    ∃ t : Fin cfg1.N, (cfg1.win 6).flush t = true ∧ i ∈ ((cfg1.win 6).blk t).view.set := by
  have hi0 : (i 0).val < 800000 := (i 0).isLt
  have hi1 : (i 1).val < 128 := (i 1).isLt
  obtain ⟨t, ht⟩ := onto6 ⟨(i 0).val / 6400, by omega⟩
  have q0 : win1_6.index t (0 : Fin 2) = (i 0).val / 6400 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 6400 ≤ (i 0).val ∧ (i 0).val < win1_6.index t (0 : Fin 2) * 6400 + 6400; omega
  | ⟨1, _⟩ => show win1_6.index t (1 : Fin 2) * 128 ≤ (i 1).val ∧ (i 1).val < win1_6.index t (1 : Fin 2) * 128 + 128; omega

/-- After the region the first output array holds the score at every (edge, lane). -/
theorem final1_6 (c : Dev nD) : (dat1 V c).arrAt 6 cfg1.N
    = scoreArr (V c main_v13) (V c main_v21) (V c main_arg1) (V c main_arg8) (V c main_arg9) :=
  (dat1 V c).arrAt_eq_of_cover 6 _ (fun t _ => flushed6_eq V c t) cover6

/-! ## Second output: the weighted values -/

/-- What grid point `t` writes back is block `t` of the weighted-value array. -/
theorem flushed7_eq (c : Dev nD) (t : Fin cfg1.N) :
    (dat1 V c).flushed 7 t = ((cfg1.win 7).blk t).view.read (Elt Ideal)
      (wvArr (V c main_v13) (V c main_v21) (V c main_v29) (V c main_arg1) (V c main_arg8) (V c main_arg9)) := by
  show (cfg1.win 7).cut (grid1.coords t) ((dat1 V c).after 7 t) = _
  rw [after1_7]
  unfold out1_7
  rw [View.canon_unit_zero hz2]
  simp only [View.ld_unit_zero (S := S6400x128) hz2, View.ld_unit_zero (S := S128x128) hz2, View.ld_unit_zero (S := S128) hz1]
  funext j
  obtain ⟨p, q, rfl⟩ : ∃ (p : Fin 6400) (q : Fin 128), j = ix2 p q := ⟨j 0, j 1, eq_ix2 j⟩
  exact (wvalue_blk V c t p q).trans
    (read_out7 t (wvArr (V c main_v13) (V c main_v21) (V c main_v29) (V c main_arg1) (V c main_arg8) (V c main_arg9)) p q).symm

theorem mem_blk7 (t : Fin cfg1.N) (i : S800000x128.Idx) :
    i ∈ ((cfg1.win 7).blk t).view.set ↔ ∀ a : Fin 2, win1_7.index t a * S6400x128.size a ≤ (i a).val
      ∧ (i a).val < win1_7.index t a * S6400x128.size a + S6400x128.size a := by
  show i ∈ ((View.whole main_v30_1).slice (win1_7.rect t)).set ↔ _
  rw [View.set_slice_whole, Rect.mem_set_unit]
  exact Iff.rfl

theorem cover7 (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  obtain ⟨t, ht⟩ := onto7 ⟨(i 0).val / 6400, by omega⟩
  have q0 : win1_7.index t (0 : Fin 2) = (i 0).val / 6400 := congrFun ht 0
  have q1 : win1_7.index t (1 : Fin 2) = 0 := congrFun ht 1
  refine ⟨t, flush1_7 t, ?_⟩
  rw [mem_blk7]
  intro a
  match a with
  | ⟨0, _⟩ => show win1_7.index t (0 : Fin 2) * 6400 ≤ (i 0).val ∧ (i 0).val < win1_7.index t (0 : Fin 2) * 6400 + 6400; omega
  | ⟨1, _⟩ => show win1_7.index t (1 : Fin 2) * 128 ≤ (i 1).val ∧ (i 1).val < win1_7.index t (1 : Fin 2) * 128 + 128; omega

/-- After the region the second output array holds the weighted value at every (edge, lane). -/
theorem final1_7 (c : Dev nD) : (dat1 V c).arrAt 7 cfg1.N
    = wvArr (V c main_v13) (V c main_v21) (V c main_v29) (V c main_arg1) (V c main_arg8) (V c main_arg9) :=
  (dat1 V c).arrAt_eq_of_cover 7 _ (fun t _ => flushed7_eq V c t) cover7

/-! ## Third output: the head weights -/

/-- What grid point `t` writes back is block `t` of the head-weight array. -/
theorem flushed8_eq (c : Dev nD) (t : Fin cfg1.N) :
    (dat1 V c).flushed 8 t = ((cfg1.win 8).blk t).view.read (Elt Ideal)
      (sArr (V c main_v13) (V c main_v21) (V c main_arg1) (V c main_arg8) (V c main_arg9)) := by
  show (cfg1.win 8).cut (grid1.coords t) ((dat1 V c).after 8 t) = _
  rw [after1_8]
  unfold out1_8
  rw [View.canon_unit_zero hz2]
  simp only [View.ld_unit_zero (S := S6400x128) hz2, View.ld_unit_zero (S := S128x128) hz2, View.ld_unit_zero (S := S128) hz1]
  funext j
  obtain ⟨p, a, rfl⟩ : ∃ (p : Fin 6400) (a : Fin 8), j = ix2 p a := ⟨j 0, j 1, eq_ix2 j⟩
  exact (weight_blk V c t p a).trans
    (read_out8 t (sArr (V c main_v13) (V c main_v21) (V c main_arg1) (V c main_arg8) (V c main_arg9)) p a).symm

theorem mem_blk8 (t : Fin cfg1.N) (i : S800000x8.Idx) :
    i ∈ ((cfg1.win 8).blk t).view.set ↔ ∀ a : Fin 2, win1_8.index t a * S6400x8.size a ≤ (i a).val
      ∧ (i a).val < win1_8.index t a * S6400x8.size a + S6400x8.size a := by
  show i ∈ ((View.whole main_v30_2).slice (win1_8.rect t)).set ↔ _
  rw [View.set_slice_whole, Rect.mem_set_unit]
  exact Iff.rfl

theorem cover8 (i : S800000x8.Idx) :
    ∃ t : Fin cfg1.N, (cfg1.win 8).flush t = true ∧ i ∈ ((cfg1.win 8).blk t).view.set := by
  have hi0 : (i 0).val < 800000 := (i 0).isLt
  have hi1 : (i 1).val < 8 := (i 1).isLt
  obtain ⟨t, ht⟩ := onto8 ⟨(i 0).val / 6400, by omega⟩
  have q0 : win1_8.index t (0 : Fin 2) = (i 0).val / 6400 := congrFun ht 0
  have q1 : win1_8.index t (1 : Fin 2) = 0 := congrFun ht 1
  refine ⟨t, flush1_8 t, ?_⟩
  rw [mem_blk8]
  intro a
  match a with
  | ⟨0, _⟩ => show win1_8.index t (0 : Fin 2) * 6400 ≤ (i 0).val ∧ (i 0).val < win1_8.index t (0 : Fin 2) * 6400 + 6400; omega
  | ⟨1, _⟩ => show win1_8.index t (1 : Fin 2) * 8 ≤ (i 1).val ∧ (i 1).val < win1_8.index t (1 : Fin 2) * 8 + 8; omega

/-- After the region the third output array holds the head weight at every (edge, head). -/
theorem final1_8 (c : Dev nD) : (dat1 V c).arrAt 8 cfg1.N
    = sArr (V c main_v13) (V c main_v21) (V c main_arg1) (V c main_arg8) (V c main_arg9) :=
  (dat1 V c).arrAt_eq_of_cover 8 _ (fun t _ => flushed8_eq V c t) cover8

end Cert.KernelIdeal.Arr

end
-- ==== Proof.KernelHost.lean ====
/-
  The host operations of the kernel's program, read as functions of the buffers they start from.

  Before the node kernel: the three projection matrices are laid side by side into one 128 × 384 matrix and the three
  bias vectors end to end into one 384 vector. Between the two kernels: the 384-wide result is cut back into its three
  128-wide parts, the node indices are normalised, and the parts' rows are gathered per edge. After the edge kernel:
  the weighted values (viewed per head) and the head weights are summed into the nodes they land on, and the first is
  divided by the second plus ε; the scores are viewed per head.
-/
import proofs.«145310_j17506286698747_2_alg».proof.Proof.Gen.KernelIdeal.Launch
import Idealize.ShloMosaic.Lib.StableHlo.Run
import Idealize.ShloMosaic.PureOps.Ideal
import Idealize.ShloMosaic.PureOps.Ideal.Laws
import Idealize.ShloMosaic.Lib.Pipeline.Value

noncomputable section

namespace Cert.KernelIdeal.HostOps

open Cert.KernelIdeal Cert.KernelIdeal.Gen
open Idealize.ShloMosaic Idealize.ShloMosaic.TcCoe Idealize.ShloMosaic.StableHlo
open Idealize.SL Idealize.SL.Sem

variable (W : Valuation τ sig (Elt Ideal))

/-- A node index array as normalised for a gather and given a unit column axis. -/
def gidx (a : S800000.Idx → BitVec 32) : S800000x1.Idx → BitVec 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The raw node index array given a unit column axis (what a scatter is indexed by). -/
def sidx (a : S800000.Idx → BitVec 32) : S800000x1.Idx → BitVec 32 :=
  broadcastInDim S800000x1 ![0] bcast_S800000_S800000x1_0 a

/-- The fused projection matrix. -/
theorem fused_matrix :
    (StableHlo.after hostOps0 W (Proc.devRef .tc main_v0) : S128x384.Idx → EReal)
      = concatenate S128x384 1 [⟨S128x128, (W (Proc.devRef .tc main_arg4) : S128x128.Idx → EReal)⟩,
          ⟨S128x128, (W (Proc.devRef .tc main_arg6) : S128x128.Idx → EReal)⟩,
          ⟨S128x128, (W (Proc.devRef .tc main_arg10) : S128x128.Idx → EReal)⟩]
          concatenates_S128x128_S128x128_S128x128_S128x384_d1 := by
  after_results
  rfl

/-- The fused bias vector. -/
theorem fused_bias :
    (StableHlo.after hostOps0 W (Proc.devRef .tc main_v1) : S384.Idx → EReal)
      = concatenate S384 0 [⟨S128, (W (Proc.devRef .tc main_arg5) : S128.Idx → EReal)⟩,
          ⟨S128, (W (Proc.devRef .tc main_arg7) : S128.Idx → EReal)⟩,
          ⟨S128, (W (Proc.devRef .tc main_arg11) : S128.Idx → EReal)⟩]
          concatenates_S128_S128_S128_S384_d0 := by
  after_results
  rfl

/-- The gathered key rows: lanes 128 … 255 of the fused result, by the normalised source index. -/
theorem gathered_keys :
    (StableHlo.after hostOps1 W (Proc.devRef .tc main_v13) : S800000x128.Idx → EReal)
      = Host.gather gather_S50000x128_S800000x1_S800000x128_1_0_n_n_0_1_1128
          (extractStridedSlice S50000x128 ![0, 128] (W (Proc.devRef .tc main_v2) : S50000x384.Idx → EReal) slices_S50000x384_S50000x128_0_128)
          (gidx (W (Proc.devRef .tc main_arg2) : S800000.Idx → BitVec 32)) := by
  after_results_simp
  rfl

/-- The gathered query rows: lanes 0 … 127, by the normalised destination index. -/
theorem gathered_queries :
    (StableHlo.after hostOps1 W (Proc.devRef .tc main_v21) : S800000x128.Idx → EReal)
      = Host.gather gather_S50000x128_S800000x1_S800000x128_1_0_n_n_0_1_1128
          (extractStridedSlice S50000x128 ![0, 0] (W (Proc.devRef .tc main_v2) : S50000x384.Idx → EReal) slices_S50000x384_S50000x128_0_0)
          (gidx (W (Proc.devRef .tc main_arg3) : S800000.Idx → BitVec 32)) := by
  after_results_simp
  rfl

/-- The gathered value rows: lanes 256 … 383, by the normalised source index. -/
theorem gathered_values :
    (StableHlo.after hostOps1 W (Proc.devRef .tc main_v29) : S800000x128.Idx → EReal)
      = Host.gather gather_S50000x128_S800000x1_S800000x128_1_0_n_n_0_1_1128
          (extractStridedSlice S50000x128 ![0, 256] (W (Proc.devRef .tc main_v2) : S50000x384.Idx → EReal) slices_S50000x384_S50000x128_0_256)
          (gidx (W (Proc.devRef .tc main_arg2) : S800000.Idx → BitVec 32)) := by
  after_results_simp
  rfl

/-- The second result: the score array viewed per head. -/
theorem scores_by_head :
    (StableHlo.after hostOps2 W (Proc.devRef .tc main_v43) : S800000x8x16.Idx → EReal)
      = shapeCast S800000x8x16 (W (Proc.devRef .tc main_v30_0) : S800000x128.Idx → EReal) shapeCasts_S800000x128_S800000x8x16 := by
  after_results
  rfl

/-- The first result: the collected weighted values over the collected head weights plus ε. -/
theorem node_output :
    (StableHlo.after hostOps2 W (Proc.devRef .tc main_v42) : S50000x8x16.Idx → EReal)
      = Host.divf
          (Host.scatterAdd scatter_S50000x8x16_S800000x1_S800000x8x16_12_0_0_1
            (broadcastInDim S50000x8x16 ![] bcast_S_S50000x8x16 (constant (F := Ideal) S_ .f32 0x00000000#32))
            (sidx (W (Proc.devRef .tc main_arg3) : S800000.Idx → BitVec 32))
            (shapeCast S800000x8x16 (W (Proc.devRef .tc main_v30_1) : S800000x128.Idx → EReal) shapeCasts_S800000x128_S800000x8x16))
          (broadcastInDim S50000x8x16 ![0, 1, 2] bcast_S50000x8x1_S50000x8x16_0_1_2
            (addf
              (shapeCast S50000x8x1
                (Host.scatterAdd scatter_S50000x8_S800000x1_S800000x8_1_0_0_1
                  (broadcastInDim S50000x8 ![] bcast_S_S50000x8 (constant (F := Ideal) S_ .f32 0x00000000#32))
                  (sidx (W (Proc.devRef .tc main_arg3) : S800000.Idx → BitVec 32))
                  (W (Proc.devRef .tc main_v30_2) : S800000x8.Idx → EReal))
                shapeCasts_S50000x8_S50000x8x1)
              (broadcastInDim S50000x8x1 ![] bcast_S_S50000x8x1 (constant (F := Ideal) S_ .f32 0x358637BD#32)))) := by
  after_results
  rfl

end Cert.KernelIdeal.HostOps

end
-- ==== Proof.KernelChain.lean ====
import proofs.«145310_j17506286698747_2_alg».proof.Proof.MainRun
import proofs.«145310_j17506286698747_2_alg».proof.Proof.AffineArray
import proofs.«145310_j17506286698747_2_alg».proof.Proof.EdgeArray
import proofs.«145310_j17506286698747_2_alg».proof.Proof.KernelHost
import proofs.«145310_j17506286698747_2_alg».proof.Proof.Arrays

/-! # The buffers that matter, at each boundary, as terms of the launch memory

The program's two results are computed through a chain of intermediate arrays. Following the fold of buffer contents
through the five stretches, each link of that chain is named here as an explicit function of the launch memory `m`
on core `c`: the fused 128×384 matrix and 384-vector (the three projections laid side by side), the 50000×384 array
of projected node rows, its three 128-wide parts gathered per edge (keys by source, queries by destination, values by
source), the edge region's three outputs over those, and the two results: the scores viewed per head, and the weighted
values summed into their destination nodes over the summed head weights plus ε.

Nothing here looks inside an array at an index; each statement only says which array a buffer holds. -/

noncomputable section

namespace Cert.KernelIdeal.Chain

open Cert.KernelIdeal Cert.KernelIdeal.Gen Cert.KernelIdeal.Hand
open Idealize.ShloMosaic Idealize.ShloMosaic.TcCoe Idealize.ShloMosaic.StableHlo
open Idealize.SL Idealize.SL.Sem

variable (m : (ℓ : Loc nD τ sig) → Buf (Elt Ideal) ℓ) (c : Dev nD)

/-! ## The chain's links -/

/-- The three 128×128 projection matrices side by side. -/
def fusedW : S128x384.Idx → EReal :=
  concatenate S128x384 1 [⟨S128x128, ((m ((c.tc : Thread nD τ).loc main_arg4)) : S128x128.Idx → EReal)⟩,
      ⟨S128x128, ((m ((c.tc : Thread nD τ).loc main_arg6)) : S128x128.Idx → EReal)⟩,
      ⟨S128x128, ((m ((c.tc : Thread nD τ).loc main_arg10)) : S128x128.Idx → EReal)⟩]
    concatenates_S128x128_S128x128_S128x128_S128x384_d1

/-- The three 128-vectors of biases end to end. -/
def fusedB : S384.Idx → EReal :=
  concatenate S384 0 [⟨S128, ((m ((c.tc : Thread nD τ).loc main_arg5)) : S128.Idx → EReal)⟩,
      ⟨S128, ((m ((c.tc : Thread nD τ).loc main_arg7)) : S128.Idx → EReal)⟩,
      ⟨S128, ((m ((c.tc : Thread nD τ).loc main_arg11)) : S128.Idx → EReal)⟩]
    concatenates_S128_S128_S128_S384_d0

/-- Every node row under the fused affine map: queries, keys and values side by side. -/
def qkv : S50000x384.Idx → EReal := Arr.affArr (m ((c.tc : Thread nD τ).loc main_arg0)) (fusedW m c) (fusedB m c)

/-- The key rows (lanes 128 … 255) gathered per edge by the source index. -/
def Kg : S800000x128.Idx → EReal :=
  Host.gather gather_S50000x128_S800000x1_S800000x128_1_0_n_n_0_1_1128
    (extractStridedSlice S50000x128 ![0, 128] (qkv m c) slices_S50000x384_S50000x128_0_128)
    (HostOps.gidx ((m ((c.tc : Thread nD τ).loc main_arg2)) : S800000.Idx → BitVec 32))

/-- The query rows (lanes 0 … 127) gathered per edge by the destination index. -/
def Qg : S800000x128.Idx → EReal :=
  Host.gather gather_S50000x128_S800000x1_S800000x128_1_0_n_n_0_1_1128
    (extractStridedSlice S50000x128 ![0, 0] (qkv m c) slices_S50000x384_S50000x128_0_0)
    (HostOps.gidx ((m ((c.tc : Thread nD τ).loc main_arg3)) : S800000.Idx → BitVec 32))

/-- The value rows (lanes 256 … 383) gathered per edge by the source index. -/
def Vg : S800000x128.Idx → EReal :=
  Host.gather gather_S50000x128_S800000x1_S800000x128_1_0_n_n_0_1_1128
    (extractStridedSlice S50000x128 ![0, 256] (qkv m c) slices_S50000x384_S50000x128_0_256)
    (HostOps.gidx ((m ((c.tc : Thread nD τ).loc main_arg2)) : S800000.Idx → BitVec 32))

/-! ## A buffer no stretch has written yet holds its launch contents

No host stretch writes an argument, and a region changes only its own output arrays; so at every boundary a buffer
that nothing before it wrote still holds what the launch put there. -/

theorem W1_arg (r : Ref sig .tc) (h1 : r ∉ hostOps0_W) :
    W1 m c (Proc.devRef .tc r) = (m ((c.tc : Thread nD τ).loc r)) := W1_of m c r h1
theorem W2_arg (r : Ref sig .tc) (h2 : ∀ w, Pipeline.arrRef spec0 w ≠ r) (h1 : r ∉ hostOps0_W) :
    W2 m c (Proc.devRef .tc r) = (m ((c.tc : Thread nD τ).loc r)) := (W2_of_ne m c r h2).trans (W1_arg m c r h1)
theorem W3_arg (r : Ref sig .tc) (h3 : r ∉ hostOps1_W) (h2 : ∀ w, Pipeline.arrRef spec0 w ≠ r) (h1 : r ∉ hostOps0_W) :
    W3 m c (Proc.devRef .tc r) = (m ((c.tc : Thread nD τ).loc r)) := (W3_of m c r h3).trans (W2_arg m c r h2 h1)
theorem W4_arg (r : Ref sig .tc) (h4 : ∀ w, Pipeline.arrRef spec1 w ≠ r) (h3 : r ∉ hostOps1_W)
    (h2 : ∀ w, Pipeline.arrRef spec0 w ≠ r) (h1 : r ∉ hostOps0_W) :
    W4 m c (Proc.devRef .tc r) = (m ((c.tc : Thread nD τ).loc r)) := (W4_of_ne m c r h4).trans (W3_arg m c r h3 h2 h1)

/-! ## What the buffers hold at the boundaries -/

/-- After the affine map's region its output array holds every projected node row. -/
theorem at_v2 : (W2 m c (Proc.devRef .tc main_v2) : S50000x384.Idx → EReal) = qkv m c := by
  have h : (W2 m c (Proc.devRef .tc main_v2) : S50000x384.Idx → EReal)
      = Arr.affArr (Hand.V1 m c main_arg0) (Hand.V1 m c main_v0) (Hand.V1 m c main_v1) :=
    (W2_arr m c 3).trans (Arr.final0 (Hand.V1 m) c)
  have hA : (Hand.V1 m c main_arg0 : S50000x128.Idx → EReal) = (m ((c.tc : Thread nD τ).loc main_arg0)) := W1_arg m c main_arg0 (by decide)
  have hW : (Hand.V1 m c main_v0 : S128x384.Idx → EReal) = fusedW m c := HostOps.fused_matrix (W0 m c)
  have hB : (Hand.V1 m c main_v1 : S384.Idx → EReal) = fusedB m c := HostOps.fused_bias (W0 m c)
  unfold qkv
  rw [h, hA, hW, hB]

/-- The edge region is entered with the gathered keys in its first window's array, -/
theorem at_v13 : (W3 m c (Proc.devRef .tc main_v13) : S800000x128.Idx → EReal) = Kg m c := by
  have h := HostOps.gathered_keys (W2 m c)
  have hI2 : (W2 m c (Proc.devRef .tc main_arg2) : S800000.Idx → BitVec 32) = (m ((c.tc : Thread nD τ).loc main_arg2)) := W2_arg m c main_arg2 (by decide) (by decide)
  have hI3 : (W2 m c (Proc.devRef .tc main_arg3) : S800000.Idx → BitVec 32) = (m ((c.tc : Thread nD τ).loc main_arg3)) := W2_arg m c main_arg3 (by decide) (by decide)
  rw [at_v2 m c] at h
  first | rw [hI2] at h | rw [hI3] at h
  exact h

/-- the gathered queries in its second, -/
theorem at_v21 : (W3 m c (Proc.devRef .tc main_v21) : S800000x128.Idx → EReal) = Qg m c := by
  have h := HostOps.gathered_queries (W2 m c)
  have hI2 : (W2 m c (Proc.devRef .tc main_arg2) : S800000.Idx → BitVec 32) = (m ((c.tc : Thread nD τ).loc main_arg2)) := W2_arg m c main_arg2 (by decide) (by decide)
  have hI3 : (W2 m c (Proc.devRef .tc main_arg3) : S800000.Idx → BitVec 32) = (m ((c.tc : Thread nD τ).loc main_arg3)) := W2_arg m c main_arg3 (by decide) (by decide)
  rw [at_v2 m c] at h
  first | rw [hI2] at h | rw [hI3] at h
  exact h

/-- and the gathered values in its third. -/
theorem at_v29 : (W3 m c (Proc.devRef .tc main_v29) : S800000x128.Idx → EReal) = Vg m c := by
  have h := HostOps.gathered_values (W2 m c)
  have hI2 : (W2 m c (Proc.devRef .tc main_arg2) : S800000.Idx → BitVec 32) = (m ((c.tc : Thread nD τ).loc main_arg2)) := W2_arg m c main_arg2 (by decide) (by decide)
  have hI3 : (W2 m c (Proc.devRef .tc main_arg3) : S800000.Idx → BitVec 32) = (m ((c.tc : Thread nD τ).loc main_arg3)) := W2_arg m c main_arg3 (by decide) (by decide)
  rw [at_v2 m c] at h
  first | rw [hI2] at h | rw [hI3] at h
  exact h

/-- After the edge region: the scores, -/
theorem at_v30_0 : (W4 m c (Proc.devRef .tc main_v30_0) : S800000x128.Idx → EReal)
    = Arr.scoreArr (Kg m c) (Qg m c) (m ((c.tc : Thread nD τ).loc main_arg1)) (m ((c.tc : Thread nD τ).loc main_arg8)) (m ((c.tc : Thread nD τ).loc main_arg9)) := by
  have h : (W4 m c (Proc.devRef .tc main_v30_0) : S800000x128.Idx → EReal)
      = Arr.scoreArr (Hand.V3 m c main_v13) (Hand.V3 m c main_v21) (Hand.V3 m c main_arg1) (Hand.V3 m c main_arg8) (Hand.V3 m c main_arg9) :=
    (W4_arr m c 6).trans (Arr.final1_6 (Hand.V3 m) c)
  have e1 : (Hand.V3 m c main_arg1 : S800000x128.Idx → EReal) = (m ((c.tc : Thread nD τ).loc main_arg1)) := W3_arg m c main_arg1 (by decide) (by decide) (by decide)
  have e8 : (Hand.V3 m c main_arg8 : S128x128.Idx → EReal) = (m ((c.tc : Thread nD τ).loc main_arg8)) := W3_arg m c main_arg8 (by decide) (by decide) (by decide)
  have e9 : (Hand.V3 m c main_arg9 : S128.Idx → EReal) = (m ((c.tc : Thread nD τ).loc main_arg9)) := W3_arg m c main_arg9 (by decide) (by decide) (by decide)
  have eK : (Hand.V3 m c main_v13 : S800000x128.Idx → EReal) = Kg m c := at_v13 m c
  have eQ : (Hand.V3 m c main_v21 : S800000x128.Idx → EReal) = Qg m c := at_v21 m c
  rw [h, eK, eQ, e1, e8, e9]

/-- the weighted values, -/
theorem at_v30_1 : (W4 m c (Proc.devRef .tc main_v30_1) : S800000x128.Idx → EReal)
    = Arr.wvArr (Kg m c) (Qg m c) (Vg m c) (m ((c.tc : Thread nD τ).loc main_arg1)) (m ((c.tc : Thread nD τ).loc main_arg8)) (m ((c.tc : Thread nD τ).loc main_arg9)) := by
  have h : (W4 m c (Proc.devRef .tc main_v30_1) : S800000x128.Idx → EReal)
      = Arr.wvArr (Hand.V3 m c main_v13) (Hand.V3 m c main_v21) (Hand.V3 m c main_v29) (Hand.V3 m c main_arg1) (Hand.V3 m c main_arg8) (Hand.V3 m c main_arg9) :=
    (W4_arr m c 7).trans (Arr.final1_7 (Hand.V3 m) c)
  have e1 : (Hand.V3 m c main_arg1 : S800000x128.Idx → EReal) = (m ((c.tc : Thread nD τ).loc main_arg1)) := W3_arg m c main_arg1 (by decide) (by decide) (by decide)
  have e8 : (Hand.V3 m c main_arg8 : S128x128.Idx → EReal) = (m ((c.tc : Thread nD τ).loc main_arg8)) := W3_arg m c main_arg8 (by decide) (by decide) (by decide)
  have e9 : (Hand.V3 m c main_arg9 : S128.Idx → EReal) = (m ((c.tc : Thread nD τ).loc main_arg9)) := W3_arg m c main_arg9 (by decide) (by decide) (by decide)
  have eK : (Hand.V3 m c main_v13 : S800000x128.Idx → EReal) = Kg m c := at_v13 m c
  have eQ : (Hand.V3 m c main_v21 : S800000x128.Idx → EReal) = Qg m c := at_v21 m c
  have eV : (Hand.V3 m c main_v29 : S800000x128.Idx → EReal) = Vg m c := at_v29 m c
  rw [h, eK, eQ, eV, e1, e8, e9]

/-- and the head weights, each over the gathered rows and the launch's edge features, edge matrix and edge bias. -/
theorem at_v30_2 : (W4 m c (Proc.devRef .tc main_v30_2) : S800000x8.Idx → EReal)
    = Arr.sArr (Kg m c) (Qg m c) (m ((c.tc : Thread nD τ).loc main_arg1)) (m ((c.tc : Thread nD τ).loc main_arg8)) (m ((c.tc : Thread nD τ).loc main_arg9)) := by
  have h : (W4 m c (Proc.devRef .tc main_v30_2) : S800000x8.Idx → EReal)
      = Arr.sArr (Hand.V3 m c main_v13) (Hand.V3 m c main_v21) (Hand.V3 m c main_arg1) (Hand.V3 m c main_arg8) (Hand.V3 m c main_arg9) :=
    (W4_arr m c 8).trans (Arr.final1_8 (Hand.V3 m) c)
  have e1 : (Hand.V3 m c main_arg1 : S800000x128.Idx → EReal) = (m ((c.tc : Thread nD τ).loc main_arg1)) := W3_arg m c main_arg1 (by decide) (by decide) (by decide)
  have e8 : (Hand.V3 m c main_arg8 : S128x128.Idx → EReal) = (m ((c.tc : Thread nD τ).loc main_arg8)) := W3_arg m c main_arg8 (by decide) (by decide) (by decide)
  have e9 : (Hand.V3 m c main_arg9 : S128.Idx → EReal) = (m ((c.tc : Thread nD τ).loc main_arg9)) := W3_arg m c main_arg9 (by decide) (by decide) (by decide)
  have eK : (Hand.V3 m c main_v13 : S800000x128.Idx → EReal) = Kg m c := at_v13 m c
  have eQ : (Hand.V3 m c main_v21 : S800000x128.Idx → EReal) = Qg m c := at_v21 m c
  rw [h, eK, eQ, e1, e8, e9]

/-- The second result: the scores viewed per head. -/
theorem out_scores : (W5 m c (Proc.devRef .tc main_v43) : S800000x8x16.Idx → EReal)
    = shapeCast S800000x8x16 (Arr.scoreArr (Kg m c) (Qg m c) (m ((c.tc : Thread nD τ).loc main_arg1)) (m ((c.tc : Thread nD τ).loc main_arg8)) (m ((c.tc : Thread nD τ).loc main_arg9))) shapeCasts_S800000x128_S800000x8x16 := by
  have h := HostOps.scores_by_head (W4 m c)
  rw [at_v30_0 m c] at h
  exact h

/-- The first result: the weighted values summed into their destination nodes, over the summed head weights plus ε. -/
theorem out_nodes : (W5 m c (Proc.devRef .tc main_v42) : S50000x8x16.Idx → EReal)
    = Host.divf
        (Host.scatterAdd scatter_S50000x8x16_S800000x1_S800000x8x16_12_0_0_1
          (broadcastInDim S50000x8x16 ![] bcast_S_S50000x8x16 (constant (F := Ideal) S_ .f32 0x00000000#32))
          (HostOps.sidx ((m ((c.tc : Thread nD τ).loc main_arg3)) : S800000.Idx → BitVec 32))
          (shapeCast S800000x8x16 (Arr.wvArr (Kg m c) (Qg m c) (Vg m c) (m ((c.tc : Thread nD τ).loc main_arg1)) (m ((c.tc : Thread nD τ).loc main_arg8)) (m ((c.tc : Thread nD τ).loc main_arg9))) shapeCasts_S800000x128_S800000x8x16))
        (broadcastInDim S50000x8x16 ![0, 1, 2] bcast_S50000x8x1_S50000x8x16_0_1_2
          (addf
            (shapeCast S50000x8x1
              (Host.scatterAdd scatter_S50000x8_S800000x1_S800000x8_1_0_0_1
                (broadcastInDim S50000x8 ![] bcast_S_S50000x8 (constant (F := Ideal) S_ .f32 0x00000000#32))
                (HostOps.sidx ((m ((c.tc : Thread nD τ).loc main_arg3)) : S800000.Idx → BitVec 32))
                (Arr.sArr (Kg m c) (Qg m c) (m ((c.tc : Thread nD τ).loc main_arg1)) (m ((c.tc : Thread nD τ).loc main_arg8)) (m ((c.tc : Thread nD τ).loc main_arg9))))
              shapeCasts_S50000x8_S50000x8x1)
            (broadcastInDim S50000x8x1 ![] bcast_S_S50000x8x1 (constant (F := Ideal) S_ .f32 0x358637BD#32)))) := by
  have h := HostOps.node_output (W4 m c)
  have hI : (W4 m c (Proc.devRef .tc main_arg3) : S800000.Idx → BitVec 32) = (m ((c.tc : Thread nD τ).loc main_arg3)) :=
    W4_arg m c main_arg3 (by decide) (by decide) (by decide) (by decide)
  rw [at_v30_1 m c, at_v30_2 m c, hI] at h
  exact h

end Cert.KernelIdeal.Chain

end
-- ==== Proof.LibScatterAddFinite.lean ====
/-
  The host's accumulating scatter and its gather on the extended reals: what the entries of their results are when the
  entries of their operands are reals.

  At the ideal instance an accumulating scatter's result at an index `i` is the operand's entry at `i` plus the sum of
  the updates whose result index is `i`. A finite sum of reals is a real, so the result's entries are reals when the
  operand's and the updates' are; and when the operand is 0 everywhere and every update is 1, the entry at `i` is the
  NUMBER of updates landing at `i`, a natural number. A gather's result entry is the operand's entry at a computed
  index, so it is a real when the operand's entries are. All of it holds for any shapes, any dimension numbers and any
  index arrays. (A count above 0 is at least 1, and one that is not above 0 is 0: the two facts a guarded mean needs.)
-/
import Idealize.ShloMosaic.PureOps.Ideal
import Idealize.ShloMosaic.PureOps

noncomputable section

open scoped BigOperators

namespace Cert.ScatterAddFinite

open Idealize.ShloMosaic

/-- A finite sum, in the extended reals, of terms that are reals is a real. -/
theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- The accumulating scatter at an index, on the extended reals: the operand's entry there plus the sum of the updates
    whose result index is that index. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- (a) When every entry of the operand and every update is a real, every entry of the accumulating scatter's result
    is a real, whatever the indices. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  obtain ⟨rx, hrx⟩ := hx i
  obtain ⟨rs, hrs⟩ :=
    exists_real_sum (Finset.univ.filter (fun j => d.resultIdx? j idx = some i)) upd (fun j _ => hu j)
  exact ⟨rx + rs, by rw [scatterAdd_apply, hrx, hrs, EReal.coe_add]⟩

/-- (b), with the number named: when the operand is 0 everywhere and every update is 1, the accumulating scatter's
    entry at `i` is the number of updates whose result index is `i`. -/
theorem scatterAdd_zero_one_apply {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    Host.scatterAdd (F := Ideal) d x idx upd i
      = (((Finset.univ.filter (fun j => d.resultIdx? j idx = some i)).card : ℝ) : EReal) := by
  rw [scatterAdd_apply, hx i, zero_add, Finset.sum_congr rfl (fun j _ => hu j), Finset.sum_const,
    EReal.nsmul_eq_mul, mul_one]
  exact (EReal.coe_coe_eq_natCast _).symm

/-- (b) When the operand is 0 everywhere and every update is 1, every entry of the accumulating scatter's result is a
    natural number, whatever the indices. -/
theorem scatterAdd_zero_one_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    ∃ n : ℕ, Host.scatterAdd (F := Ideal) d x idx upd i = ((n : ℝ) : EReal) :=
  ⟨_, scatterAdd_zero_one_apply d x idx upd hx hu i⟩

/-- A natural number above 0 is at least 1: its maximum with 1, in the extended reals, is itself. -/
theorem natCast_max_one_of_pos (n : ℕ) (h : (0 : EReal) < ((n : ℝ) : EReal)) :
    max ((n : ℝ) : EReal) 1 = ((n : ℝ) : EReal) := by
  have h1 : 0 < n := Nat.cast_pos.1 (EReal.coe_pos.1 h)
  have h2 : (1 : ℝ) ≤ (n : ℝ) := Nat.one_le_cast.2 h1
  refine max_eq_left ?_
  rw [← EReal.coe_one]
  exact EReal.coe_le_coe_iff.2 h2

/-- A natural number not above 0 is 0, in the extended reals. -/
theorem natCast_eq_zero_of_not_pos (n : ℕ) (h : ¬ (0 : EReal) < ((n : ℝ) : EReal)) : ((n : ℝ) : EReal) = 0 := by
  have h1 : ¬ 0 < n := fun hn => h (EReal.coe_pos.2 (Nat.cast_pos.2 hn))
  have h2 : n = 0 := Nat.eq_zero_of_not_pos h1
  rw [h2, Nat.cast_zero, EReal.coe_zero]

/-- A natural number above 0, as an extended real, is not 0. -/
theorem natCast_ne_zero_of_pos (n : ℕ) (h : (0 : EReal) < ((n : ℝ) : EReal)) : ((n : ℝ) : EReal) ≠ 0 :=
  ne_of_gt h

/-- A gather's result entry is the operand's entry at the operand index the dimension numbers compute. -/
theorem gather_apply {s si t : Shape} {α : Type} {w : Nat} (d : GatherDims s si t) (x : s.Idx → α) (idx : IVec si w)
    (j : t.Idx) : Host.gather d x idx j = x (d.operandIdx j idx) := rfl

/-- (c) Every entry of a gather's result is an entry of its operand. -/
theorem gather_mem {s si t : Shape} {α : Type} {w : Nat} (d : GatherDims s si t) (x : s.Idx → α) (idx : IVec si w)
    (j : t.Idx) : ∃ k : s.Idx, Host.gather d x idx j = x k := ⟨_, rfl⟩

/-- (c) Every entry of a gather's result is a real when every entry of its operand is, whatever the indices. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

end Cert.ScatterAddFinite

end
-- ==== Proof.LibRows3.lean ====
/-
  Rows of a rank-3 array selected by an [E, 1] index array, read at an index.

  The index array has one start index per edge, shape [E, 1]; the array has shape [N, A, B], a row being an [A, B] slab.
  A gather of rows reads, for edge `e`, the slab whose number is the edge's start index read signed, negatives taken to
  0, clamped to the last row. An accumulating scatter of rows adds edge `e`'s update slab into the slab whose number is
  the edge's start index read signed, when that number is a row's, and drops it otherwise; so the entry (p, a, b) of the
  result is the operand's entry plus the sum, over the edges whose start index is `p`, of the updates' entries (e, a, b).
-/
import Idealize.ShloMosaic.PureOps.Ideal
import Idealize.ShloMosaic.PureOps
import Idealize.ShloMosaic.Lib.ValueIdx
import proofs.«145310_j17506286698747_2_alg».proof.Proof.LibScatterAddFinite

noncomputable section

open scoped BigOperators

namespace Cert.Rows3

open Idealize.ShloMosaic Idealize.ShloMosaic.ValueIdx

variable {N E A B : Nat}

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The row a start index selects -/

/-- The row a start index selects for a gather: read signed, negatives to 0, clamped to the last row. -/
def rowOf (hN : 0 < N) {w : Nat} (idx : IVec ⟨2, ![E, 1]⟩ w) (e : Fin E) : Fin N :=
  ⟨min (idx (ix2 e 0)).toInt.toNat (N - 1), by omega⟩

/-- A start index that IS a row's number selects that row. -/
theorem rowOf_eq (hN : 0 < N) {w : Nat} (idx : IVec ⟨2, ![E, 1]⟩ w) (e : Fin E) (p : Fin N)
    (h : (idx (ix2 e 0)).toInt = (p.val : Int)) : rowOf hN idx e = p := by
  apply Fin.ext
  show min (idx (ix2 e 0)).toInt.toNat (N - 1) = p.val
  rw [h, Int.toNat_natCast]
  have := p.isLt
  omega

/-! ## The gather -/

/-- The dimension numbers of a gather of [A, B] rows of an [N, A, B] array by an [E, 1] index array. -/
abbrev gd3 (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ :=
  { offsetDims := [1, 2], collapsedSliceDims := [0], operandBatchingDims := [], startIndicesBatchingDims := [],
    startIndexMap := [0], indexVectorDim := 1, sliceSizes := ![1, A, B], wf := wf }

/-- The operand index a row gather reads at result index (e, a, b): (the edge's row, a, b). -/
theorem gd3_operandIdx (wf : GatherDims.WF ⟨3, ![N, A, B]⟩ ⟨2, ![E, 1]⟩ ⟨3, ![E, A, B]⟩ [1, 2] [0] [] [0] [] 1 ![1, A, B]) (hN : 0 < N) {w : Nat}
    (idx : IVec ⟨2, ![E, 1]⟩ w) (e : Fin E) (a : Fin A) (b : Fin B) :
    (gd3 (N := N) (E := E) (A := A) (B := B) wf).operandIdx (ix3 e a b) idx = ix3 (rowOf hN idx e) a b := by
  funext c
  apply Fin.ext
  match c with
  | ⟨0, _⟩ =>
    show (gd3 wf).start (ix3 e a b) idx 0 + (gd3 wf).batchCoord (ix3 e a b) 0 + (gd3 wf).offCoord (ix3 e a b) 0
      = min (idx (ix2 e 0)).toInt.toNat (N - 1)
    have h1 : (gd3 wf).batchCoord (ix3 e a b) 0 = 0 :=
      (gd3 wf).batchCoord_eq_zero _ _ (show (0 : Fin 3) ∉ ([] : List (Fin 3)) by decide)
    have h2 : (gd3 wf).offCoord (ix3 e a b) 0 = 0 :=
      (gd3 wf).offCoord_eq_zero _ _ (show (0 : Fin 3) ∉ ([1, 2] : List (Fin 3)) by decide)
    have h3 : (gd3 wf).start (ix3 e a b) idx 0 = min (idx (ix2 e 0)).toInt.toNat (N - 1) := by
      unfold GatherDims.start
      rw [dif_pos (show (0 : Fin 3) ∈ ([0] : List (Fin 3)) by decide)]
      have hs : ∀ hh, (gd3 wf).siIdx (ix3 e a b) ⟨List.idxOf (0 : Fin 3) ([0] : List (Fin 3)), hh⟩ = ix2 e 0 := by
        intro hh
        funext k
        apply Fin.ext
        match k with
        | ⟨0, _⟩ => rfl
        | ⟨1, _⟩ => rfl
      rw [hs]
      rfl
    omega
  | ⟨1, _⟩ =>
    show (gd3 wf).start (ix3 e a b) idx 1 + (gd3 wf).batchCoord (ix3 e a b) 1 + (gd3 wf).offCoord (ix3 e a b) 1 = a.val
    have h1 : (gd3 wf).batchCoord (ix3 e a b) 1 = 0 :=
      (gd3 wf).batchCoord_eq_zero _ _ (show (1 : Fin 3) ∉ ([] : List (Fin 3)) by decide)
    have h0 : (gd3 wf).start (ix3 e a b) idx 1 = 0 := by
      unfold GatherDims.start
      rw [dif_neg (show (1 : Fin 3) ∉ ([0] : List (Fin 3)) by decide)]
    have h3 : (gd3 wf).offCoord (ix3 e a b) 1 = a.val := by
      unfold GatherDims.offCoord
      have hm : (1 : Fin 3) ∈ (gd3 wf).sKept := (show (1 : Fin 3) ∈ ([1, 2] : List (Fin 3)) by decide)
      rw [dif_pos hm]
      rfl
    omega
  | ⟨2, _⟩ =>
    show (gd3 wf).start (ix3 e a b) idx 2 + (gd3 wf).batchCoord (ix3 e a b) 2 + (gd3 wf).offCoord (ix3 e a b) 2 = b.val
    have h1 : (gd3 wf).batchCoord (ix3 e a b) 2 = 0 :=
      (gd3 wf).batchCoord_eq_zero _ _ (show (2 : Fin 3) ∉ ([] : List (Fin 3)) by decide)
    have h0 : (gd3 wf).start (ix3 e a b) idx 2 = 0 := by
      unfold GatherDims.start
      rw [dif_neg (show (2 : Fin 3) ∉ ([0] : List (Fin 3)) by decide)]
    have h3 : (gd3 wf).offCoord (ix3 e a b) 2 = b.val := by
      unfold GatherDims.offCoord
      have hm : (2 : Fin 3) ∈ (gd3 wf).sKept := (show (2 : Fin 3) ∈ ([1, 2] : List (Fin 3)) by decide)
      rw [dif_pos hm]
      rfl
    omega

/-- A gather of rows of a rank-3 array reads, at (e, a, b), the array at (the edge's row, a, b). -/
theorem gather3_apply {α : Type} (wf : GatherDims.WF ⟨3, ![N, A, B]⟩ ⟨2, ![E, 1]⟩ ⟨3, ![E, A, B]⟩ [1, 2] [0] [] [0] [] 1 ![1, A, B]) (hN : 0 < N) {w : Nat}
    (x : (⟨3, ![N, A, B]⟩ : Shape).Idx → α) (idx : IVec ⟨2, ![E, 1]⟩ w) (e : Fin E) (a : Fin A) (b : Fin B) :
    Host.gather (gd3 wf) x idx (ix3 e a b) = x (ix3 (rowOf hN idx e) a b) := by
  rw [Cert.ScatterAddFinite.gather_apply, gd3_operandIdx wf hN]

/-! ## The accumulating scatter -/

/-- The dimension numbers of an accumulating scatter of [E, A, B] update rows into an [N, A, B] array by an [E, 1]
    index array. -/
abbrev sd3 (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ :=
  { updateWindowDims := [1, 2], insertedWindowDims := [0], scatterDimsToOperandDims := [0], indexVectorDim := 1, wf := wf }

/-- On the row axis an update's window starts at the edge's start index, read signed. -/
theorem sd3_start0 (wf : ScatterDims.WF ⟨3, ![N, A, B]⟩ ⟨2, ![E, 1]⟩ ⟨3, ![E, A, B]⟩ [1, 2] [0] [0] 1) {w : Nat} (idx : IVec ⟨2, ![E, 1]⟩ w) (e : Fin E) (a : Fin A) (b : Fin B) :
    (sd3 (N := N) wf).start (ix3 e a b) idx 0 = (idx (ix2 e 0)).toInt := by
  unfold ScatterDims.start
  rw [dif_pos (show (0 : Fin 3) ∈ ([0] : List (Fin 3)) by decide)]
  have hs : ∀ hh, (sd3 wf).siIdx (ix3 e a b) ⟨List.idxOf (0 : Fin 3) ([0] : List (Fin 3)), hh⟩ = ix2 e 0 := by
    intro hh
    funext k
    apply Fin.ext
    match k with
    | ⟨0, _⟩ => rfl
    | ⟨1, _⟩ => rfl
  rw [hs]

/-- On the first kept axis an update's window starts at 0. -/
theorem sd3_start1 (wf : ScatterDims.WF ⟨3, ![N, A, B]⟩ ⟨2, ![E, 1]⟩ ⟨3, ![E, A, B]⟩ [1, 2] [0] [0] 1) {w : Nat} (idx : IVec ⟨2, ![E, 1]⟩ w) (e : Fin E) (a : Fin A) (b : Fin B) :
    (sd3 (N := N) wf).start (ix3 e a b) idx 1 = 0 := by
  unfold ScatterDims.start
  rw [dif_neg (show (1 : Fin 3) ∉ ([0] : List (Fin 3)) by decide)]

/-- On the second kept axis an update's window starts at 0. -/
theorem sd3_start2 (wf : ScatterDims.WF ⟨3, ![N, A, B]⟩ ⟨2, ![E, 1]⟩ ⟨3, ![E, A, B]⟩ [1, 2] [0] [0] 1) {w : Nat} (idx : IVec ⟨2, ![E, 1]⟩ w) (e : Fin E) (a : Fin A) (b : Fin B) :
    (sd3 (N := N) wf).start (ix3 e a b) idx 2 = 0 := by
  unfold ScatterDims.start
  rw [dif_neg (show (2 : Fin 3) ∉ ([0] : List (Fin 3)) by decide)]

/-- The row axis is inserted: the window coordinate there is 0. -/
theorem sd3_window0 (wf : ScatterDims.WF ⟨3, ![N, A, B]⟩ ⟨2, ![E, 1]⟩ ⟨3, ![E, A, B]⟩ [1, 2] [0] [0] 1) (e : Fin E) (a : Fin A) (b : Fin B) :
    (sd3 (N := N) wf).window (ix3 e a b) 0 = 0 := by
  unfold ScatterDims.window
  have hm : (0 : Fin 3) ∉ (sd3 wf).sKept := (show (0 : Fin 3) ∉ ([1, 2] : List (Fin 3)) by decide)
  rw [dif_neg hm]

/-- The window coordinate on the first kept axis is the update's second coordinate. -/
theorem sd3_window1 (wf : ScatterDims.WF ⟨3, ![N, A, B]⟩ ⟨2, ![E, 1]⟩ ⟨3, ![E, A, B]⟩ [1, 2] [0] [0] 1) (e : Fin E) (a : Fin A) (b : Fin B) :
    (sd3 (N := N) wf).window (ix3 e a b) 1 = a.val := by
  unfold ScatterDims.window
  have hm : (1 : Fin 3) ∈ (sd3 wf).sKept := (show (1 : Fin 3) ∈ ([1, 2] : List (Fin 3)) by decide)
  rw [dif_pos hm]
  rfl

/-- The window coordinate on the second kept axis is the update's third coordinate. -/
theorem sd3_window2 (wf : ScatterDims.WF ⟨3, ![N, A, B]⟩ ⟨2, ![E, 1]⟩ ⟨3, ![E, A, B]⟩ [1, 2] [0] [0] 1) (e : Fin E) (a : Fin A) (b : Fin B) :
    (sd3 (N := N) wf).window (ix3 e a b) 2 = b.val := by
  unfold ScatterDims.window
  have hm : (2 : Fin 3) ∈ (sd3 wf).sKept := (show (2 : Fin 3) ∈ ([1, 2] : List (Fin 3)) by decide)
  rw [dif_pos hm]
  rfl

/-- Update index (e, a, b) lands on (p, a', b') exactly when edge e's start index, read signed, is p, and a = a',
    b = b'. -/
theorem sd3_lands (wf : ScatterDims.WF ⟨3, ![N, A, B]⟩ ⟨2, ![E, 1]⟩ ⟨3, ![E, A, B]⟩ [1, 2] [0] [0] 1) {w : Nat} (idx : IVec ⟨2, ![E, 1]⟩ w) (e : Fin E) (a : Fin A) (b : Fin B)
    (p : Fin N) (a' : Fin A) (b' : Fin B) :
    (sd3 wf).resultIdx? (ix3 e a b) idx = some (ix3 p a' b')
      ↔ (idx (ix2 e 0)).toInt = (p.val : Int) ∧ a = a' ∧ b = b' := by
  have s0 := sd3_start0 (N := N) wf idx e a b
  have s1 := sd3_start1 (N := N) wf idx e a b
  have s2 := sd3_start2 (N := N) wf idx e a b
  have w0 := sd3_window0 (N := N) wf e a b
  have w1 := sd3_window1 (N := N) wf e a b
  have w2 := sd3_window2 (N := N) wf e a b
  have hp := p.isLt
  have ha := a.isLt
  have hb := b.isLt
  unfold ScatterDims.resultIdx?
  split
  · rename_i h
    rw [Option.some.injEq]
    constructor
    · intro hf
      have h0 := congrArg (fun f => (f 0).val) hf
      have h1 := congrArg (fun f => (f 1).val) hf
      have h2 := congrArg (fun f => (f 2).val) hf
      have a0 := h 0
      simp only [s0, w0] at h0 a0
      simp only [s1, w1] at h1
      simp only [s2, w2] at h2
      refine ⟨?_, Fin.ext ?_, Fin.ext ?_⟩
      · change ((idx (ix2 e 0)).toInt + ((0 : Nat) : Int)).toNat = p.val at h0
        omega
      · change ((0 : Int) + (a.val : Int)).toNat = a'.val at h1
        omega
      · change ((0 : Int) + (b.val : Int)).toNat = b'.val at h2
        omega
    · rintro ⟨hi, rfl, rfl⟩
      funext c
      apply Fin.ext
      match c with
      | ⟨0, _⟩ =>
        show ((sd3 wf).start (ix3 e a b) idx 0 + ((sd3 wf).window (ix3 e a b) 0 : Int)).toNat = p.val
        rw [s0, w0]; omega
      | ⟨1, _⟩ =>
        show ((sd3 wf).start (ix3 e a b) idx 1 + ((sd3 wf).window (ix3 e a b) 1 : Int)).toNat = a.val
        rw [s1, w1]; omega
      | ⟨2, _⟩ =>
        show ((sd3 wf).start (ix3 e a b) idx 2 + ((sd3 wf).window (ix3 e a b) 2 : Int)).toNat = b.val
        rw [s2, w2]; omega
  · rename_i h
    constructor
    · intro hf; exact absurd hf (by simp)
    · rintro ⟨hi, rfl, rfl⟩
      exfalso
      apply h
      intro c
      match c with
      | ⟨0, _⟩ =>
        show 0 ≤ (sd3 wf).start (ix3 e a b) idx 0 + ((sd3 wf).window (ix3 e a b) 0 : Int)
          ∧ (sd3 wf).start (ix3 e a b) idx 0 + ((sd3 wf).window (ix3 e a b) 0 : Int) < (N : Int)
        rw [s0, w0]; omega
      | ⟨1, _⟩ =>
        show 0 ≤ (sd3 wf).start (ix3 e a b) idx 1 + ((sd3 wf).window (ix3 e a b) 1 : Int)
          ∧ (sd3 wf).start (ix3 e a b) idx 1 + ((sd3 wf).window (ix3 e a b) 1 : Int) < (A : Int)
        rw [s1, w1]; omega
      | ⟨2, _⟩ =>
        show 0 ≤ (sd3 wf).start (ix3 e a b) idx 2 + ((sd3 wf).window (ix3 e a b) 2 : Int)
          ∧ (sd3 wf).start (ix3 e a b) idx 2 + ((sd3 wf).window (ix3 e a b) 2 : Int) < (B : Int)
        rw [s2, w2]; omega

/-- An accumulating scatter of rows, at (p, a, b): the operand's entry plus the sum, over the edges whose start index is
    p, of the updates' entries (e, a, b). -/
theorem scatterAdd3_apply (wf : ScatterDims.WF ⟨3, ![N, A, B]⟩ ⟨2, ![E, 1]⟩ ⟨3, ![E, A, B]⟩ [1, 2] [0] [0] 1) {w : Nat} {φ : FTy} (x : FVec Ideal ⟨3, ![N, A, B]⟩ φ)
    (idx : IVec ⟨2, ![E, 1]⟩ w) (upd : FVec Ideal ⟨3, ![E, A, B]⟩ φ) (p : Fin N) (a : Fin A) (b : Fin B) :
    Host.scatterAdd (F := Ideal) (sd3 wf) x idx upd (ix3 p a b)
      = x (ix3 p a b)
        + ∑ e ∈ Finset.univ.filter (fun e : Fin E => (idx (ix2 e 0)).toInt = (p.val : Int)), upd (ix3 e a b) := by
  classical
  rw [Cert.ScatterAddFinite.scatterAdd_apply]
  congr 1
  rw [Finset.sum_filter, sum_idx3, Finset.sum_filter]
  refine Finset.sum_congr rfl fun e _ => ?_
  by_cases hL : (idx (ix2 e 0)).toInt = (p.val : Int)
  · rw [if_pos hL]
    have h1 : ∀ (a1 : Fin A) (b1 : Fin B),
        (if (sd3 wf).resultIdx? (ix3 e a1 b1) idx = some (ix3 p a b) then upd (ix3 e a1 b1) else 0)
          = if b1 = b then (if a1 = a then upd (ix3 e a1 b1) else 0) else 0 := by
      intro a1 b1
      by_cases hb : b1 = b
      · by_cases ha : a1 = a
        · rw [if_pos hb, if_pos ha, if_pos ((sd3_lands wf idx e a1 b1 p a b).2 ⟨hL, ha, hb⟩)]
        · rw [if_pos hb, if_neg ha, if_neg (fun h => ha ((sd3_lands wf idx e a1 b1 p a b).1 h).2.1)]
      · rw [if_neg hb, if_neg (fun h => hb ((sd3_lands wf idx e a1 b1 p a b).1 h).2.2)]
    have h2 : ∀ a1 : Fin A,
        (∑ b1 : Fin B, if (sd3 wf).resultIdx? (ix3 e a1 b1) idx = some (ix3 p a b) then upd (ix3 e a1 b1) else 0)
          = if a1 = a then upd (ix3 e a1 b) else 0 := by
      intro a1
      rw [Finset.sum_congr rfl (fun b1 _ => h1 a1 b1), Finset.sum_ite_eq' Finset.univ b, if_pos (Finset.mem_univ b)]
    rw [Finset.sum_congr rfl (fun a1 _ => h2 a1), Finset.sum_ite_eq' Finset.univ a, if_pos (Finset.mem_univ a)]
  · rw [if_neg hL]
    refine Finset.sum_eq_zero fun a1 _ => Finset.sum_eq_zero fun b1 _ => ?_
    rw [if_neg (fun h => hL ((sd3_lands wf idx e a1 b1 p a b).1 h).1)]

end Cert.Rows3

end
-- ==== Proof.LibGraphIdx.lean ====
/-
  The host's row gather and row scatter-add of this graph convolution, read at an index.

  The index array has one start index per edge, shape [E, 1]. A gather of rows reads, for edge `e`, the row whose number
  is the edge's start index read signed, negatives taken to 0, clamped to the last row; it reads the same row of a matrix
  [N, D] and of a vector [N]. An accumulating scatter of rows adds edge `e`'s update row into the row whose number is the
  edge's start index read signed, when that number is a row's, and drops it otherwise; so the entry (p, q) of the result
  is the operand's entry plus the sum, over the edges whose start index is `p`, of the updates' entries (e, q).
-/
import Idealize.ShloMosaic.PureOps.Ideal
import Idealize.ShloMosaic.PureOps
import Idealize.ShloMosaic.Lib.ValueIdx
import proofs.«145310_j17506286698747_2_alg».proof.Proof.LibScatterAddFinite

noncomputable section

open scoped BigOperators

namespace Cert.GraphIdx

open Idealize.ShloMosaic Idealize.ShloMosaic.ValueIdx

variable {N E D : Nat}

/-- The row a start index selects for a gather: read signed, negatives to 0, clamped to the last row. -/
def rowOf (hN : 0 < N) {w : Nat} (idx : IVec ⟨2, ![E, 1]⟩ w) (e : Fin E) : Fin N :=
  ⟨min (idx (ix2 e 0)).toInt.toNat (N - 1), by omega⟩

/-- A start index that IS a row's number selects that row. -/
theorem rowOf_eq (hN : 0 < N) {w : Nat} (idx : IVec ⟨2, ![E, 1]⟩ w) (e : Fin E) (p : Fin N)
    (h : (idx (ix2 e 0)).toInt = (p.val : Int)) : rowOf hN idx e = p := by
  apply Fin.ext
  show min (idx (ix2 e 0)).toInt.toNat (N - 1) = p.val
  rw [h, Int.toNat_natCast]
  have := p.isLt
  omega

/-! ## The gathers -/

/-- The dimension numbers of a gather of rows of an [N, D] matrix by an [E, 1] index array. -/
abbrev gd2 (wf : GatherDims.WF ⟨2, ![N, D]⟩ ⟨2, ![E, 1]⟩ ⟨2, ![E, D]⟩ [1] [0] [] [0] [] 1 ![1, D]) : GatherDims ⟨2, ![N, D]⟩ ⟨2, ![E, 1]⟩ ⟨2, ![E, D]⟩ :=
  { offsetDims := [1], collapsedSliceDims := [0], operandBatchingDims := [], startIndicesBatchingDims := [],
    startIndexMap := [0], indexVectorDim := 1, sliceSizes := ![1, D], wf := wf }

/-- The operand index a row gather of a matrix reads at result index (e, q): (the edge's row, q). -/
theorem gd2_operandIdx (wf : GatherDims.WF ⟨2, ![N, D]⟩ ⟨2, ![E, 1]⟩ ⟨2, ![E, D]⟩ [1] [0] [] [0] [] 1 ![1, D]) (hN : 0 < N) {w : Nat} (idx : IVec ⟨2, ![E, 1]⟩ w) (e : Fin E) (q : Fin D) :
    (gd2 (N := N) (E := E) (D := D) wf).operandIdx (ix2 e q) idx = ix2 (rowOf hN idx e) q := by
  funext a
  apply Fin.ext
  match a with
  | ⟨0, _⟩ =>
    show (gd2 wf).start (ix2 e q) idx 0 + (gd2 wf).batchCoord (ix2 e q) 0 + (gd2 wf).offCoord (ix2 e q) 0 = min (idx (ix2 e 0)).toInt.toNat (N - 1)
    have h1 : (gd2 wf).batchCoord (ix2 e q) 0 = 0 :=
      (gd2 wf).batchCoord_eq_zero _ _ (show (0 : Fin 2) ∉ ([] : List (Fin 2)) by decide)
    have h2 : (gd2 wf).offCoord (ix2 e q) 0 = 0 :=
      (gd2 wf).offCoord_eq_zero _ _ (show (0 : Fin 2) ∉ ([1] : List (Fin 2)) by decide)
    have h3 : (gd2 wf).start (ix2 e q) idx 0 = min (idx (ix2 e 0)).toInt.toNat (N - 1) := by
      unfold GatherDims.start
      rw [dif_pos (show (0 : Fin 2) ∈ ([0] : List (Fin 2)) by decide)]
      have hs : ∀ hh, (gd2 wf).siIdx (ix2 e q) ⟨List.idxOf (0 : Fin 2) ([0] : List (Fin 2)), hh⟩ = ix2 e 0 := by
        intro hh
        funext b
        apply Fin.ext
        match b with
        | ⟨0, _⟩ => rfl
        | ⟨1, _⟩ => rfl
      rw [hs]
      rfl
    omega
  | ⟨1, _⟩ =>
    show (gd2 wf).start (ix2 e q) idx 1 + (gd2 wf).batchCoord (ix2 e q) 1 + (gd2 wf).offCoord (ix2 e q) 1 = q.val
    have h1 : (gd2 wf).batchCoord (ix2 e q) 1 = 0 :=
      (gd2 wf).batchCoord_eq_zero _ _ (show (1 : Fin 2) ∉ ([] : List (Fin 2)) by decide)
    have h0 : (gd2 wf).start (ix2 e q) idx 1 = 0 := by
      unfold GatherDims.start
      rw [dif_neg (show (1 : Fin 2) ∉ ([0] : List (Fin 2)) by decide)]
    have h3 : (gd2 wf).offCoord (ix2 e q) 1 = q.val := by
      unfold GatherDims.offCoord
      have hm : (1 : Fin 2) ∈ (gd2 wf).sKept := (show (1 : Fin 2) ∈ ([1] : List (Fin 2)) by decide)
      rw [dif_pos hm]
      rfl
    omega

/-- A gather of rows of a matrix reads, at (e, q), the matrix at (the edge's row, q). -/
theorem gather2_apply {α : Type} (wf : GatherDims.WF ⟨2, ![N, D]⟩ ⟨2, ![E, 1]⟩ ⟨2, ![E, D]⟩ [1] [0] [] [0] [] 1 ![1, D]) (hN : 0 < N) {w : Nat}
    (x : (⟨2, ![N, D]⟩ : Shape).Idx → α) (idx : IVec ⟨2, ![E, 1]⟩ w) (e : Fin E) (q : Fin D) :
    Host.gather (gd2 wf) x idx (ix2 e q) = x (ix2 (rowOf hN idx e) q) := by
  rw [Cert.ScatterAddFinite.gather_apply, gd2_operandIdx wf hN]

/-- The dimension numbers of a gather of entries of an [N] vector by an [E, 1] index array. -/
abbrev gd1 (wf : GatherDims.WF ⟨1, ![N]⟩ ⟨2, ![E, 1]⟩ ⟨1, ![E]⟩ [] [0] [] [0] [] 1 ![1]) : GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- The operand index a gather of a vector's entries reads at result index e: the edge's row. -/
theorem gd1_operandIdx (wf : GatherDims.WF ⟨1, ![N]⟩ ⟨2, ![E, 1]⟩ ⟨1, ![E]⟩ [] [0] [] [0] [] 1 ![1]) (hN : 0 < N) {w : Nat} (idx : IVec ⟨2, ![E, 1]⟩ w) (e : Fin E) :
    (gd1 (N := N) (E := E) wf).operandIdx (ix1 e) idx = ix1 (rowOf hN idx e) := by
  funext a
  apply Fin.ext
  match a with
  | ⟨0, _⟩ =>
    show (gd1 wf).start (ix1 e) idx 0 + (gd1 wf).batchCoord (ix1 e) 0 + (gd1 wf).offCoord (ix1 e) 0 = min (idx (ix2 e 0)).toInt.toNat (N - 1)
    have h1 : (gd1 wf).batchCoord (ix1 e) 0 = 0 :=
      (gd1 wf).batchCoord_eq_zero _ _ (show (0 : Fin 1) ∉ ([] : List (Fin 1)) by decide)
    have h2 : (gd1 wf).offCoord (ix1 e) 0 = 0 :=
      (gd1 wf).offCoord_eq_zero _ _ (show (0 : Fin 1) ∉ ([] : List (Fin 1)) by decide)
    have h3 : (gd1 wf).start (ix1 e) idx 0 = min (idx (ix2 e 0)).toInt.toNat (N - 1) := by
      unfold GatherDims.start
      rw [dif_pos (show (0 : Fin 1) ∈ ([0] : List (Fin 1)) by decide)]
      have hs : ∀ hh, (gd1 wf).siIdx (ix1 e) ⟨List.idxOf (0 : Fin 1) ([0] : List (Fin 1)), hh⟩ = ix2 e 0 := by
        intro hh
        funext b
        apply Fin.ext
        match b with
        | ⟨0, _⟩ => rfl
        | ⟨1, _⟩ => rfl
      rw [hs]
      rfl
    omega

/-- A gather of entries of a vector reads, at e, the vector at the edge's row: the SAME row as the matrix gather's. -/
theorem gather1_apply {α : Type} (wf : GatherDims.WF ⟨1, ![N]⟩ ⟨2, ![E, 1]⟩ ⟨1, ![E]⟩ [] [0] [] [0] [] 1 ![1]) (hN : 0 < N) {w : Nat}
    (x : (⟨1, ![N]⟩ : Shape).Idx → α) (idx : IVec ⟨2, ![E, 1]⟩ w) (e : Fin E) :
    Host.gather (gd1 wf) x idx (ix1 e) = x (ix1 (rowOf hN idx e)) := by
  rw [Cert.ScatterAddFinite.gather_apply, gd1_operandIdx wf hN]

/-! ## The accumulating scatters -/

/-- The dimension numbers of an accumulating scatter of [E, D] update rows into an [N, D] matrix by an [E, 1] index array. -/
abbrev sd2 (wf : ScatterDims.WF ⟨2, ![N, D]⟩ ⟨2, ![E, 1]⟩ ⟨2, ![E, D]⟩ [1] [0] [0] 1) : ScatterDims ⟨2, ![N, D]⟩ ⟨2, ![E, 1]⟩ ⟨2, ![E, D]⟩ :=
  { updateWindowDims := [1], insertedWindowDims := [0], scatterDimsToOperandDims := [0], indexVectorDim := 1, wf := wf }

theorem sd2_start0 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 0 = (idx (ix2 e 0)).toInt := by
  unfold ScatterDims.start
  rw [dif_pos (show (0 : Fin 2) ∈ ([0] : List (Fin 2)) by decide)]
  have hs : ∀ hh, (sd2 wf).siIdx (ix2 e q) ⟨List.idxOf (0 : Fin 2) ([0] : List (Fin 2)), hh⟩ = ix2 e 0 := by
    intro hh
    funext b
    apply Fin.ext
    match b with
    | ⟨0, _⟩ => rfl
    | ⟨1, _⟩ => rfl
  rw [hs]

theorem sd2_start1 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 1 = 0 := by
  unfold ScatterDims.start
  rw [dif_neg (show (1 : Fin 2) ∉ ([0] : List (Fin 2)) by decide)]

theorem sd2_window0 (wf : ScatterDims.WF ⟨2, ![N, D]⟩ ⟨2, ![E, 1]⟩ ⟨2, ![E, D]⟩ [1] [0] [0] 1) (e : Fin E) (q : Fin D) : (sd2 (N := N) wf).window (ix2 e q) 0 = 0 := by
  unfold ScatterDims.window
  have hm : (0 : Fin 2) ∉ (sd2 wf).sKept := (show (0 : Fin 2) ∉ ([1] : List (Fin 2)) by decide)
  rw [dif_neg hm]

theorem sd2_window1 (wf : ScatterDims.WF ⟨2, ![N, D]⟩ ⟨2, ![E, 1]⟩ ⟨2, ![E, D]⟩ [1] [0] [0] 1) (e : Fin E) (q : Fin D) : (sd2 (N := N) wf).window (ix2 e q) 1 = q.val := by
  unfold ScatterDims.window
  have hm : (1 : Fin 2) ∈ (sd2 wf).sKept := (show (1 : Fin 2) ∈ ([1] : List (Fin 2)) by decide)
  rw [dif_pos hm]
  rfl

/-- Update index (e, q) lands on (p, q') exactly when edge e's start index, read signed, is p, and q = q'. -/
theorem sd2_lands (wf : ScatterDims.WF ⟨2, ![N, D]⟩ ⟨2, ![E, 1]⟩ ⟨2, ![E, D]⟩ [1] [0] [0] 1) {w : Nat} (idx : IVec ⟨2, ![E, 1]⟩ w) (e : Fin E) (q : Fin D) (p : Fin N) (q' : Fin D) :
    (sd2 wf).resultIdx? (ix2 e q) idx = some (ix2 p q') ↔ (idx (ix2 e 0)).toInt = (p.val : Int) ∧ q = q' := by
  have s0 := sd2_start0 (N := N) wf idx e q
  have s1 := sd2_start1 (N := N) wf idx e q
  have w0 := sd2_window0 (N := N) wf e q
  have w1 := sd2_window1 (N := N) wf e q
  have hp := p.isLt
  have hq := q.isLt
  unfold ScatterDims.resultIdx?
  split
  · rename_i h
    rw [Option.some.injEq]
    constructor
    · intro hf
      have h0 := congrArg (fun f => (f 0).val) hf
      have h1 := congrArg (fun f => (f 1).val) hf
      have a0 := h 0
      simp only [s0, w0] at h0 a0
      simp only [s1, w1] at h1
      refine ⟨?_, Fin.ext ?_⟩
      · change ((idx (ix2 e 0)).toInt + ((0 : Nat) : Int)).toNat = p.val at h0
        omega
      · change ((0 : Int) + (q.val : Int)).toNat = q'.val at h1
        omega
    · rintro ⟨hi, rfl⟩
      funext a
      apply Fin.ext
      match a with
      | ⟨0, _⟩ =>
        show ((sd2 wf).start (ix2 e q) idx 0 + ((sd2 wf).window (ix2 e q) 0 : Int)).toNat = p.val
        rw [s0, w0]; omega
      | ⟨1, _⟩ =>
        show ((sd2 wf).start (ix2 e q) idx 1 + ((sd2 wf).window (ix2 e q) 1 : Int)).toNat = q.val
        rw [s1, w1]; omega
  · rename_i h
    constructor
    · intro hf; exact absurd hf (by simp)
    · rintro ⟨hi, rfl⟩
      exfalso
      apply h
      intro a
      match a with
      | ⟨0, _⟩ =>
        show 0 ≤ (sd2 wf).start (ix2 e q) idx 0 + ((sd2 wf).window (ix2 e q) 0 : Int) ∧ (sd2 wf).start (ix2 e q) idx 0 + ((sd2 wf).window (ix2 e q) 0 : Int) < (N : Int)
        rw [s0, w0]; omega
      | ⟨1, _⟩ =>
        show 0 ≤ (sd2 wf).start (ix2 e q) idx 1 + ((sd2 wf).window (ix2 e q) 1 : Int) ∧ (sd2 wf).start (ix2 e q) idx 1 + ((sd2 wf).window (ix2 e q) 1 : Int) < (D : Int)
        rw [s1, w1]; omega

/-- An accumulating scatter of rows, at (p, q): the operand's entry plus the sum, over the edges whose start index is p,
    of the updates' entries (e, q). -/
theorem scatterAdd2_apply (wf : ScatterDims.WF ⟨2, ![N, D]⟩ ⟨2, ![E, 1]⟩ ⟨2, ![E, D]⟩ [1] [0] [0] 1) {w : Nat} {φ : FTy} (x : FVec Ideal ⟨2, ![N, D]⟩ φ) (idx : IVec ⟨2, ![E, 1]⟩ w)
    (upd : FVec Ideal ⟨2, ![E, D]⟩ φ) (p : Fin N) (q : Fin D) :
    Host.scatterAdd (F := Ideal) (sd2 wf) x idx upd (ix2 p q)
      = x (ix2 p q) + ∑ e ∈ Finset.univ.filter (fun e : Fin E => (idx (ix2 e 0)).toInt = (p.val : Int)), upd (ix2 e q) := by
  classical
  rw [Cert.ScatterAddFinite.scatterAdd_apply]
  congr 1
  rw [Finset.sum_filter, sum_idx2, Finset.sum_filter]
  refine Finset.sum_congr rfl fun e _ => ?_
  by_cases hL : (idx (ix2 e 0)).toInt = (p.val : Int)
  · rw [if_pos hL]
    have : ∀ b : Fin D, (if (sd2 wf).resultIdx? (ix2 e b) idx = some (ix2 p q) then upd (ix2 e b) else 0)
        = if b = q then upd (ix2 e b) else 0 := by
      intro b
      by_cases hb : b = q
      · rw [if_pos hb, if_pos ((sd2_lands wf idx e b p q).2 ⟨hL, hb⟩)]
      · rw [if_neg hb, if_neg (fun h => hb ((sd2_lands wf idx e b p q).1 h).2)]
    rw [Finset.sum_congr rfl (fun b _ => this b), Finset.sum_ite_eq' Finset.univ q, if_pos (Finset.mem_univ q)]
  · rw [if_neg hL]
    refine Finset.sum_eq_zero fun b _ => ?_
    rw [if_neg (fun h => hL ((sd2_lands wf idx e b p q).1 h).1)]

/-- The dimension numbers of an accumulating scatter of [E] updates into an [N] vector by an [E, 1] index array. -/
abbrev sd1 (wf : ScatterDims.WF ⟨1, ![N]⟩ ⟨2, ![E, 1]⟩ ⟨1, ![E]⟩ [] [0] [0] 1) : ScatterDims ⟨1, ![N]⟩ ⟨2, ![E, 1]⟩ ⟨1, ![E]⟩ :=
  { updateWindowDims := [], insertedWindowDims := [0], scatterDimsToOperandDims := [0], indexVectorDim := 1, wf := wf }

theorem sd1_start0 (wf : ScatterDims.WF ⟨1, ![N]⟩ ⟨2, ![E, 1]⟩ ⟨1, ![E]⟩ [] [0] [0] 1) {w : Nat} (idx : IVec ⟨2, ![E, 1]⟩ w) (e : Fin E) :
    (sd1 (N := N) wf).start (ix1 e) idx 0 = (idx (ix2 e 0)).toInt := by
  unfold ScatterDims.start
  rw [dif_pos (show (0 : Fin 1) ∈ ([0] : List (Fin 1)) by decide)]
  have hs : ∀ hh, (sd1 wf).siIdx (ix1 e) ⟨List.idxOf (0 : Fin 1) ([0] : List (Fin 1)), hh⟩ = ix2 e 0 := by
    intro hh
    funext b
    apply Fin.ext
    match b with
    | ⟨0, _⟩ => rfl
    | ⟨1, _⟩ => rfl
  rw [hs]

theorem sd1_window0 (wf : ScatterDims.WF ⟨1, ![N]⟩ ⟨2, ![E, 1]⟩ ⟨1, ![E]⟩ [] [0] [0] 1) (e : Fin E) : (sd1 (N := N) wf).window (ix1 e) 0 = 0 := by
  unfold ScatterDims.window
  have hm : (0 : Fin 1) ∉ (sd1 wf).sKept := (show (0 : Fin 1) ∉ ([] : List (Fin 1)) by decide)
  rw [dif_neg hm]

/-- Update index e lands on p exactly when edge e's start index, read signed, is p. -/
theorem sd1_lands (wf : ScatterDims.WF ⟨1, ![N]⟩ ⟨2, ![E, 1]⟩ ⟨1, ![E]⟩ [] [0] [0] 1) {w : Nat} (idx : IVec ⟨2, ![E, 1]⟩ w) (e : Fin E) (p : Fin N) :
    (sd1 wf).resultIdx? (ix1 e) idx = some (ix1 p) ↔ (idx (ix2 e 0)).toInt = (p.val : Int) := by
  have s0 := sd1_start0 (N := N) wf idx e
  have w0 := sd1_window0 (N := N) wf e
  have hp := p.isLt
  unfold ScatterDims.resultIdx?
  split
  · rename_i h
    rw [Option.some.injEq]
    constructor
    · intro hf
      have h0 := congrArg (fun f => (f 0).val) hf
      have a0 := h 0
      simp only [s0, w0] at h0 a0
      change ((idx (ix2 e 0)).toInt + ((0 : Nat) : Int)).toNat = p.val at h0
      omega
    · intro hi
      funext a
      apply Fin.ext
      match a with
      | ⟨0, _⟩ =>
        show ((sd1 wf).start (ix1 e) idx 0 + ((sd1 wf).window (ix1 e) 0 : Int)).toNat = p.val
        rw [s0, w0]; omega
  · rename_i h
    constructor
    · intro hf; exact absurd hf (by simp)
    · intro hi
      exfalso
      apply h
      intro a
      match a with
      | ⟨0, _⟩ =>
        show 0 ≤ (sd1 wf).start (ix1 e) idx 0 + ((sd1 wf).window (ix1 e) 0 : Int) ∧ (sd1 wf).start (ix1 e) idx 0 + ((sd1 wf).window (ix1 e) 0 : Int) < (N : Int)
        rw [s0, w0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- An accumulating scatter into a vector, at p: the operand's entry plus the sum of the updates of the edges whose
    start index is p. -/
theorem scatterAdd1_apply (wf : ScatterDims.WF ⟨1, ![N]⟩ ⟨2, ![E, 1]⟩ ⟨1, ![E]⟩ [] [0] [0] 1) {w : Nat} {φ : FTy} (x : FVec Ideal ⟨1, ![N]⟩ φ) (idx : IVec ⟨2, ![E, 1]⟩ w)
    (upd : FVec Ideal ⟨1, ![E]⟩ φ) (p : Fin N) :
    Host.scatterAdd (F := Ideal) (sd1 wf) x idx upd (ix1 p)
      = x (ix1 p) + ∑ e ∈ Finset.univ.filter (fun e : Fin E => (idx (ix2 e 0)).toInt = (p.val : Int)), upd (ix1 e) := by
  classical
  rw [Cert.ScatterAddFinite.scatterAdd_apply]
  congr 1
  rw [Finset.sum_filter, ← Equiv.sum_comp (idxEquiv1 (n := E)).symm, Finset.sum_filter]
  refine Finset.sum_congr rfl fun e _ => ?_
  show (if (sd1 wf).resultIdx? (ix1 e) idx = some (ix1 p) then upd (ix1 e) else 0) = _
  by_cases hL : (idx (ix2 e 0)).toInt = (p.val : Int)
  · rw [if_pos hL, if_pos ((sd1_lands wf idx e p).2 hL)]
  · rw [if_neg hL, if_neg (fun h => hL ((sd1_lands wf idx e p).1 h))]

end Cert.GraphIdx

end
-- ==== Proof.KernelHostRead.lean ====
/-
  The host operations of the kernel's program, read at an index on the extended reals.

  The fused 128 × 384 matrix holds the query, key and value matrices in its columns 0–127, 128–255 and 256–383, and the
  fused 384 vector the three biases likewise. A gather of rows of a 128-column cut of the 384-wide array reads, for edge
  `e` and lane `j`, the array at (the edge's row, offset + j). The per-head view of a 128-wide row puts lane 16·h + d at
  (h, d). The first result at (p, h, d) is the sum of the weighted values landing on node p at lane 16·h + d, over the
  sum of the head weights landing on p at head h plus ε.
-/
import proofs.«145310_j17506286698747_2_alg».proof.Proof.KernelHost
import proofs.«145310_j17506286698747_2_alg».proof.Proof.Spec
import proofs.«145310_j17506286698747_2_alg».proof.Proof.Arrays
import proofs.«145310_j17506286698747_2_alg».proof.Proof.LibRows3
import proofs.«145310_j17506286698747_2_alg».proof.Proof.LibGraphIdx
import Idealize.ShloMosaic.Lib.ValueLayout

noncomputable section

open scoped BigOperators

namespace Cert.KernelIdeal.HostRead

open Cert.KernelIdeal Cert.KernelIdeal.Gen
open Idealize.ShloMosaic Idealize.ShloMosaic.TcCoe Idealize.ShloMosaic.StableHlo Idealize.ShloMosaic.ValueIdx
open Idealize.SL Idealize.SL.Sem

/-! ## The fused matrix and the fused bias -/

/-- Columns 0–127 of the fused matrix are the query matrix (the column given by its number). -/
theorem fusedW_at0_of (Wq Wk Wv : S128x128.Idx → EReal) (k j : Fin 128) (c : Fin 384) (hc : c.val = j.val) :
    concatenate S128x384 1 [⟨S128x128, Wq⟩, ⟨S128x128, Wk⟩, ⟨S128x128, Wv⟩] concatenates_S128x128_S128x128_S128x128_S128x384_d1 (ix2 k c) = Wq (ix2 k j) := by
  refine concatenate_apply_piece (t := S128x384) 1 [⟨S128x128, Wq⟩, ⟨S128x128, Wk⟩, ⟨S128x128, Wv⟩]
    concatenates_S128x128_S128x128_S128x128_S128x384_d1 (ix2 k c)
    0 (by show (0 : Nat) < 3; omega) S128x128 Wq rfl rfl 0 rfl (ix2 k j) (fun b hb => ?_) ?_
  · match b with
    | ⟨0, _⟩ => rfl
    | ⟨1, _⟩ => exact absurd rfl hb
  · show 0 + j.val = c.val
    omega

/-- Columns 128–255 of the fused matrix are the key matrix (the column given by its number). -/
theorem fusedW_at1_of (Wq Wk Wv : S128x128.Idx → EReal) (k j : Fin 128) (c : Fin 384) (hc : c.val = 128 + j.val) :
    concatenate S128x384 1 [⟨S128x128, Wq⟩, ⟨S128x128, Wk⟩, ⟨S128x128, Wv⟩] concatenates_S128x128_S128x128_S128x128_S128x384_d1 (ix2 k c) = Wk (ix2 k j) := by
  refine concatenate_apply_piece (t := S128x384) 1 [⟨S128x128, Wq⟩, ⟨S128x128, Wk⟩, ⟨S128x128, Wv⟩]
    concatenates_S128x128_S128x128_S128x128_S128x384_d1 (ix2 k c)
    1 (by show (1 : Nat) < 3; omega) S128x128 Wk rfl rfl 128 rfl (ix2 k j) (fun b hb => ?_) ?_
  · match b with
    | ⟨0, _⟩ => rfl
    | ⟨1, _⟩ => exact absurd rfl hb
  · show 128 + j.val = c.val
    omega

/-- Columns 256–383 of the fused matrix are the value matrix (the column given by its number). -/
theorem fusedW_at2_of (Wq Wk Wv : S128x128.Idx → EReal) (k j : Fin 128) (c : Fin 384) (hc : c.val = 256 + j.val) :
    concatenate S128x384 1 [⟨S128x128, Wq⟩, ⟨S128x128, Wk⟩, ⟨S128x128, Wv⟩] concatenates_S128x128_S128x128_S128x128_S128x384_d1 (ix2 k c) = Wv (ix2 k j) := by
  refine concatenate_apply_piece (t := S128x384) 1 [⟨S128x128, Wq⟩, ⟨S128x128, Wk⟩, ⟨S128x128, Wv⟩]
    concatenates_S128x128_S128x128_S128x128_S128x384_d1 (ix2 k c)
    2 (by show (2 : Nat) < 3; omega) S128x128 Wv rfl rfl 256 rfl (ix2 k j) (fun b hb => ?_) ?_
  · match b with
    | ⟨0, _⟩ => rfl
    | ⟨1, _⟩ => exact absurd rfl hb
  · show 256 + j.val = c.val
    omega

/-- Column j of the fused matrix is column j of the query matrix. -/
theorem fusedW_at0 (Wq Wk Wv : S128x128.Idx → EReal) (k j : Fin 128) :
    concatenate S128x384 1 [⟨S128x128, Wq⟩, ⟨S128x128, Wk⟩, ⟨S128x128, Wv⟩] concatenates_S128x128_S128x128_S128x128_S128x384_d1 (ix2 k (⟨j.val, by have := j.isLt; omega⟩ : Fin 384)) = Wq (ix2 k j) :=
  fusedW_at0_of Wq Wk Wv k j _ rfl

/-- Column 128 + j of the fused matrix is column j of the key matrix. -/
theorem fusedW_at1 (Wq Wk Wv : S128x128.Idx → EReal) (k j : Fin 128) :
    concatenate S128x384 1 [⟨S128x128, Wq⟩, ⟨S128x128, Wk⟩, ⟨S128x128, Wv⟩] concatenates_S128x128_S128x128_S128x128_S128x384_d1 (ix2 k (⟨128 + j.val, by have := j.isLt; omega⟩ : Fin 384)) = Wk (ix2 k j) :=
  fusedW_at1_of Wq Wk Wv k j _ rfl

/-- Column 256 + j of the fused matrix is column j of the value matrix. -/
theorem fusedW_at2 (Wq Wk Wv : S128x128.Idx → EReal) (k j : Fin 128) :
    concatenate S128x384 1 [⟨S128x128, Wq⟩, ⟨S128x128, Wk⟩, ⟨S128x128, Wv⟩] concatenates_S128x128_S128x128_S128x128_S128x384_d1 (ix2 k (⟨256 + j.val, by have := j.isLt; omega⟩ : Fin 384)) = Wv (ix2 k j) :=
  fusedW_at2_of Wq Wk Wv k j _ rfl

/-- Entries 0–127 of the fused bias are the query bias (the entry given by its number). -/
theorem fusedB_at0_of (bq bk bv : S128.Idx → EReal) (j : Fin 128) (c : Fin 384) (hc : c.val = j.val) :
    concatenate S384 0 [⟨S128, bq⟩, ⟨S128, bk⟩, ⟨S128, bv⟩] concatenates_S128_S128_S128_S384_d0 (ix1 c) = bq (ix1 j) := by
  refine concatenate_apply_piece (t := S384) 0 [⟨S128, bq⟩, ⟨S128, bk⟩, ⟨S128, bv⟩]
    concatenates_S128_S128_S128_S384_d0 (ix1 c)
    0 (by show (0 : Nat) < 3; omega) S128 bq rfl rfl 0 rfl (ix1 j) (fun b hb => ?_) ?_
  · match b with
    | ⟨0, _⟩ => exact absurd rfl hb
  · show 0 + j.val = c.val
    omega

/-- Entries 128–255 of the fused bias are the key bias (the entry given by its number). -/
theorem fusedB_at1_of (bq bk bv : S128.Idx → EReal) (j : Fin 128) (c : Fin 384) (hc : c.val = 128 + j.val) :
    concatenate S384 0 [⟨S128, bq⟩, ⟨S128, bk⟩, ⟨S128, bv⟩] concatenates_S128_S128_S128_S384_d0 (ix1 c) = bk (ix1 j) := by
  refine concatenate_apply_piece (t := S384) 0 [⟨S128, bq⟩, ⟨S128, bk⟩, ⟨S128, bv⟩]
    concatenates_S128_S128_S128_S384_d0 (ix1 c)
    1 (by show (1 : Nat) < 3; omega) S128 bk rfl rfl 128 rfl (ix1 j) (fun b hb => ?_) ?_
  · match b with
    | ⟨0, _⟩ => exact absurd rfl hb
  · show 128 + j.val = c.val
    omega

/-- Entries 256–383 of the fused bias are the value bias (the entry given by its number). -/
theorem fusedB_at2_of (bq bk bv : S128.Idx → EReal) (j : Fin 128) (c : Fin 384) (hc : c.val = 256 + j.val) :
    concatenate S384 0 [⟨S128, bq⟩, ⟨S128, bk⟩, ⟨S128, bv⟩] concatenates_S128_S128_S128_S384_d0 (ix1 c) = bv (ix1 j) := by
  refine concatenate_apply_piece (t := S384) 0 [⟨S128, bq⟩, ⟨S128, bk⟩, ⟨S128, bv⟩]
    concatenates_S128_S128_S128_S384_d0 (ix1 c)
    2 (by show (2 : Nat) < 3; omega) S128 bv rfl rfl 256 rfl (ix1 j) (fun b hb => ?_) ?_
  · match b with
    | ⟨0, _⟩ => exact absurd rfl hb
  · show 256 + j.val = c.val
    omega

/-- Entry j of the fused bias is entry j of the query bias. -/
theorem fusedB_at0 (bq bk bv : S128.Idx → EReal) (j : Fin 128) :
    concatenate S384 0 [⟨S128, bq⟩, ⟨S128, bk⟩, ⟨S128, bv⟩] concatenates_S128_S128_S128_S384_d0 (ix1 (⟨j.val, by have := j.isLt; omega⟩ : Fin 384)) = bq (ix1 j) :=
  fusedB_at0_of bq bk bv j _ rfl

/-- Entry 128 + j of the fused bias is entry j of the key bias. -/
theorem fusedB_at1 (bq bk bv : S128.Idx → EReal) (j : Fin 128) :
    concatenate S384 0 [⟨S128, bq⟩, ⟨S128, bk⟩, ⟨S128, bv⟩] concatenates_S128_S128_S128_S384_d0 (ix1 (⟨128 + j.val, by have := j.isLt; omega⟩ : Fin 384)) = bk (ix1 j) :=
  fusedB_at1_of bq bk bv j _ rfl

/-- Entry 256 + j of the fused bias is entry j of the value bias. -/
theorem fusedB_at2 (bq bk bv : S128.Idx → EReal) (j : Fin 128) :
    concatenate S384 0 [⟨S128, bq⟩, ⟨S128, bk⟩, ⟨S128, bv⟩] concatenates_S128_S128_S128_S384_d0 (ix1 (⟨256 + j.val, by have := j.isLt; omega⟩ : Fin 384)) = bv (ix1 j) :=
  fusedB_at2_of bq bk bv j _ rfl

/-! ## The index arrays -/

/-- The normalised index array holds, at (e, 0), the normalised index word. -/
theorem gidx_at (a : S800000.Idx → BitVec 32) (e : Fin 800000) :
    HostOps.gidx a (ix2 e 0) = Cert.Spec.norm (a (ix1 e)) := by
  unfold HostOps.gidx
  refine (broadcastInDim_apply _ bcast_S800000_S800000x1_0 _ (ix2 e 0) (ix1 e) (fun b => match b with
    | ⟨0, _⟩ => by show e.val = if (800000 : Nat) = 1 then 0 else e.val; rw [if_neg (by decide)])).trans ?_
  rfl

/-- The raw index array with a unit column axis holds, at (e, 0), the index word. -/
theorem sidx_at (a : S800000.Idx → BitVec 32) (e : Fin 800000) :
    HostOps.sidx a (ix2 e 0) = a (ix1 e) := by
  unfold HostOps.sidx
  exact broadcastInDim_apply _ bcast_S800000_S800000x1_0 a (ix2 e 0) (ix1 e) (fun b => match b with
    | ⟨0, _⟩ => by show e.val = if (800000 : Nat) = 1 then 0 else e.val; rw [if_neg (by decide)])

/-! ## The gathers of a 128-column cut -/

/-- A gather of rows of the 128 columns from `o` of a 384-wide array reads, at (e, j), the array at (the edge's row,
    o + j). -/
theorem gathered_at (o : Nat) (ho : o + 128 ≤ 384) (hs : S50000x384.Slices ![0, o] S50000x128) (Y : S50000x384.Idx → EReal)
    (a : S800000.Idx → BitVec 32) (e : Fin 800000) (j : Fin 128) :
    Host.gather gather_S50000x128_S800000x1_S800000x128_1_0_n_n_0_1_1128 (extractStridedSlice S50000x128 ![0, o] Y hs) (HostOps.gidx a) (ix2 e j)
      = Y (ix2 (Cert.Spec.rowOfIdx a e) (⟨o + j.val, by have := j.isLt; omega⟩ : Fin 384)) := by
  have hrec : gather_S50000x128_S800000x1_S800000x128_1_0_n_n_0_1_1128
      = Cert.GraphIdx.gd2 (N := 50000) (E := 800000) (D := 128) Gen.gather_S50000x128_S800000x1_S800000x128_1_0_n_n_0_1_1128_wf := rfl
  have hrow : Cert.GraphIdx.rowOf (N := 50000) (by decide) (HostOps.gidx a) e = Cert.Spec.rowOfIdx a e := by
    apply Fin.ext
    show min (HostOps.gidx a (ix2 e 0)).toInt.toNat (50000 - 1) = min (Cert.Spec.norm (a (ix1 e))).toInt.toNat 49999
    rw [gidx_at]
  rw [hrec, Cert.GraphIdx.gather2_apply _ (by decide : 0 < 50000), hrow]
  exact slice2_axis1_apply o Y hs _ j _ rfl

/-- The same gather of the affine map of all rows: the affine map at the edge's row, column o + j. -/
theorem affine_gathered (o : Nat) (ho : o + 128 ≤ 384) (hs : S50000x384.Slices ![0, o] S50000x128)
    (X : S50000x128.Idx → EReal) (Wc : S128x384.Idx → EReal) (bc : S384.Idx → EReal)
    (a : S800000.Idx → BitVec 32) (e : Fin 800000) (j : Fin 128) :
    Host.gather gather_S50000x128_S800000x1_S800000x128_1_0_n_n_0_1_1128 (extractStridedSlice S50000x128 ![0, o] (Arr.affArr X Wc bc) hs) (HostOps.gidx a) (ix2 e j)
      = (∑ k : Fin 128, X (ix2 (Cert.Spec.rowOfIdx a e) k) * Wc (ix2 k (⟨o + j.val, by have := j.isLt; omega⟩ : Fin 384)))
        + bc (ix1 (⟨o + j.val, by have := j.isLt; omega⟩ : Fin 384)) := by
  rw [gathered_at o ho hs]
  rfl

/-! ## The per-head view -/

/-- The per-head view of an [800000, 128] array reads, at (e, h, d), the array at (e, lane 16·h + d). -/
theorem byHead_at (X : S800000x128.Idx → EReal) (e : Fin 800000) (h : Fin 8) (d : Fin 16) :
    shapeCast S800000x8x16 X shapeCasts_S800000x128_S800000x8x16 (ix3 e h d) = X (ix2 e (Cert.Spec.lane h d)) := by
  refine shapeCast_apply X shapeCasts_S800000x128_S800000x8x16 (ix3 e h d) (ix2 e (Cert.Spec.lane h d)) ?_
  rewrite [Shape.rowMajor_val_two, Shape.rowMajor_val_three]
  have hh := h.isLt
  have hd := d.isLt
  show e.val * 128 + (16 * h.val + d.val) = (e.val * 8 + h.val) * 16 + d.val
  omega

/-! ## The first result -/

/-- The weighted values landing on node p at (h, d): the sum, over the edges whose index is p, of the per-head view. -/
theorem collectV_at (wvA : S800000x128.Idx → EReal) (a : S800000.Idx → BitVec 32) (p : Fin 50000) (h : Fin 8) (d : Fin 16) :
    Host.scatterAdd (F := Ideal) scatter_S50000x8x16_S800000x1_S800000x8x16_12_0_0_1 (broadcastInDim S50000x8x16 ![] bcast_S_S50000x8x16 (constant (F := Ideal) S_ .f32 0x00000000#32))
        (HostOps.sidx a) (shapeCast S800000x8x16 wvA shapeCasts_S800000x128_S800000x8x16) (ix3 p h d)
      = Cert.Spec.zero + ∑ e ∈ Finset.univ.filter (fun e : Fin 800000 => Cert.Spec.landOf a e = (p.val : Int)),
          wvA (ix2 e (Cert.Spec.lane h d)) := by
  have hrec3 : scatter_S50000x8x16_S800000x1_S800000x8x16_12_0_0_1
      = Cert.Rows3.sd3 (N := 50000) (E := 800000) (A := 8) (B := 16) Gen.scatter_S50000x8x16_S800000x1_S800000x8x16_12_0_0_1_wf := rfl
  rw [hrec3, Cert.Rows3.scatterAdd3_apply]
  refine congrArg₂ (· + ·) rfl
    (Finset.sum_congr (Finset.filter_congr fun e _ => ?_) fun e _ => byHead_at wvA e h d)
  rw [sidx_at]
  rfl

/-- The head weights landing on node p at head h. -/
theorem collectZ_at (sA : S800000x8.Idx → EReal) (a : S800000.Idx → BitVec 32) (p : Fin 50000) (h : Fin 8) :
    Host.scatterAdd (F := Ideal) scatter_S50000x8_S800000x1_S800000x8_1_0_0_1 (broadcastInDim S50000x8 ![] bcast_S_S50000x8 (constant (F := Ideal) S_ .f32 0x00000000#32))
        (HostOps.sidx a) sA (ix2 p h)
      = Cert.Spec.zero + ∑ e ∈ Finset.univ.filter (fun e : Fin 800000 => Cert.Spec.landOf a e = (p.val : Int)),
          sA (ix2 e h) := by
  have hrec2 : scatter_S50000x8_S800000x1_S800000x8_1_0_0_1
      = Cert.GraphIdx.sd2 (N := 50000) (E := 800000) (D := 8) Gen.scatter_S50000x8_S800000x1_S800000x8_1_0_0_1_wf := rfl
  rw [hrec2, Cert.GraphIdx.scatterAdd2_apply]
  refine congrArg₂ (· + ·) rfl (Finset.sum_congr (Finset.filter_congr fun e _ => ?_) fun e _ => rfl)
  rw [sidx_at]
  rfl

/-- The divisor at (p, h, d): the head weights landing on p at head h, plus ε. -/
theorem denom_at (sA : S800000x8.Idx → EReal) (a : S800000.Idx → BitVec 32) (p : Fin 50000) (h : Fin 8) (d : Fin 16) :
    broadcastInDim S50000x8x16 ![0, 1, 2] bcast_S50000x8x1_S50000x8x16_0_1_2
        (addf
          (shapeCast S50000x8x1
            (Host.scatterAdd (F := Ideal) scatter_S50000x8_S800000x1_S800000x8_1_0_0_1 (broadcastInDim S50000x8 ![] bcast_S_S50000x8 (constant (F := Ideal) S_ .f32 0x00000000#32)) (HostOps.sidx a) sA)
            shapeCasts_S50000x8_S50000x8x1)
          (broadcastInDim S50000x8x1 ![] bcast_S_S50000x8x1 (constant (F := Ideal) S_ .f32 0x358637BD#32)))
        (ix3 p h d)
      = (Cert.Spec.zero + ∑ e ∈ Finset.univ.filter (fun e : Fin 800000 => Cert.Spec.landOf a e = (p.val : Int)),
          sA (ix2 e h)) + Cert.Spec.eps := by
  refine (broadcastInDim_apply _ bcast_S50000x8x1_S50000x8x16_0_1_2 _ (ix3 p h d) (ix3 p h (0 : Fin 1))
    (fun b => match b with
      | ⟨0, _⟩ => by show p.val = if (50000 : Nat) = 1 then 0 else p.val; rw [if_neg (by decide)]
      | ⟨1, _⟩ => by show h.val = if (8 : Nat) = 1 then 0 else h.val; rw [if_neg (by decide)]
      | ⟨2, _⟩ => by show 0 = if (1 : Nat) = 1 then 0 else d.val; rw [if_pos rfl])).trans ?_
  rw [addf_apply]
  refine congrArg₂ (· + ·) ((shapeCast_apply _ shapeCasts_S50000x8_S50000x8x1 (ix3 p h (0 : Fin 1)) (ix2 p h) ?_).trans
    (collectZ_at sA a p h)) rfl
  rewrite [Shape.rowMajor_val_two, Shape.rowMajor_val_three]
  show p.val * 8 + h.val = (p.val * 8 + h.val) * 1 + 0
  omega

/-- The host's division of two arrays, at an index, is the division of their entries. -/
theorem hostDivf_at {s : Shape} {φ : FTy} (A B : FVec Ideal s φ) (i : s.Idx) :
    Host.divf A B i = Ideal.div (A i) (B i) := rfl

/-- The first result at (p, h, d): the weighted values landing on node p at lane 16·h + d, over the head weights landing
    on p at head h plus ε. -/
theorem node_output_at (wvA : S800000x128.Idx → EReal) (sA : S800000x8.Idx → EReal) (a : S800000.Idx → BitVec 32)
    (p : Fin 50000) (h : Fin 8) (d : Fin 16) :
    (Host.divf
        (Host.scatterAdd scatter_S50000x8x16_S800000x1_S800000x8x16_12_0_0_1
          (broadcastInDim S50000x8x16 ![] bcast_S_S50000x8x16 (constant (F := Ideal) S_ .f32 0x00000000#32))
          (HostOps.sidx a)
          (shapeCast S800000x8x16 wvA shapeCasts_S800000x128_S800000x8x16))
        (broadcastInDim S50000x8x16 ![0, 1, 2] bcast_S50000x8x1_S50000x8x16_0_1_2
          (addf
            (shapeCast S50000x8x1
              (Host.scatterAdd scatter_S50000x8_S800000x1_S800000x8_1_0_0_1
                (broadcastInDim S50000x8 ![] bcast_S_S50000x8 (constant (F := Ideal) S_ .f32 0x00000000#32))
                (HostOps.sidx a) sA)
              shapeCasts_S50000x8_S50000x8x1)
            (broadcastInDim S50000x8x1 ![] bcast_S_S50000x8x1 (constant (F := Ideal) S_ .f32 0x358637BD#32))))) (ix3 p h d)
      = Ideal.div
          (Cert.Spec.zero + ∑ e ∈ Finset.univ.filter (fun e : Fin 800000 => Cert.Spec.landOf a e = (p.val : Int)),
            wvA (ix2 e (Cert.Spec.lane h d)))
          ((Cert.Spec.zero + ∑ e ∈ Finset.univ.filter (fun e : Fin 800000 => Cert.Spec.landOf a e = (p.val : Int)),
            sA (ix2 e h)) + Cert.Spec.eps) := by
  rw [hostDivf_at, collectV_at, denom_at]

end Cert.KernelIdeal.HostRead

end
-- ==== Proof.SpecBridge.lean ====
/-
  From the edge kernel's arrays to the specification's per-edge quantities.

  Once the gathered key, query and value rows of an edge are known to be the affine rows the specification names — the key
  and value at the edge's source row, the query at its destination row — the edge kernel's score, head weight and weighted
  value are the specification's, term for term: the same products in the same order, the same clamp, the same `exp`.
-/
import proofs.«145310_j17506286698747_2_alg».proof.Proof.Arrays
import proofs.«145310_j17506286698747_2_alg».proof.Proof.Spec

noncomputable section

open scoped BigOperators

namespace Cert.KernelIdeal.Bridge

open Cert.KernelIdeal Idealize.ShloMosaic Idealize.ShloMosaic.ValueIdx

variable (h : S50000x128.Idx → EReal) (ef : S800000x128.Idx → EReal)
  (Wq Wk We Wv : S128x128.Idx → EReal) (bq bk be bv : S128.Idx → EReal)
  (rS rD : Fin 800000 → Fin 50000)
  (Kg Qg Vg : S800000x128.Idx → EReal)
  (hK : ∀ (e : Fin 800000) (j : Fin 128), Kg (ix2 e j) = Cert.Spec.lin h Wk bk (rS e) j)
  (hQ : ∀ (e : Fin 800000) (j : Fin 128), Qg (ix2 e j) = Cert.Spec.lin h Wq bq (rD e) j)
  (hV : ∀ (e : Fin 800000) (j : Fin 128), Vg (ix2 e j) = Cert.Spec.lin h Wv bv (rS e) j)

include hK hQ in
/-- The edge kernel's score is the specification's. -/
theorem scoreAt_eq (e : Fin 800000) (j : Fin 128) :
    Arr.scoreAt Kg Qg ef We be e j = Cert.Spec.sc h ef Wq Wk We bq bk be rS rD e j := by
  unfold Arr.scoreAt Cert.Spec.sc
  rw [hK e j, hQ e j]
  rfl

include hK hQ in
/-- The edge kernel's head weight is the specification's. -/
theorem sAt_eq (e : Fin 800000) (a : Fin 8) :
    Arr.sAt Kg Qg ef We be e a = Cert.Spec.sv h ef Wq Wk We bq bk be rS rD e a := by
  unfold Arr.sAt Cert.Spec.sv Cert.Spec.ssum
  refine congrArg (fun x => Ideal.exp (min Cert.Spec.five (max Cert.Spec.negfive x))) ?_
  exact Finset.sum_congr rfl fun d _ => scoreAt_eq h ef Wq Wk We bq bk be rS rD Kg Qg hK hQ e (Cert.Spec.lane a d)

include hK hQ hV in
/-- The edge kernel's weighted value is the specification's. -/
theorem wv_eq (e : Fin 800000) (j : Fin 128) :
    Vg (ix2 e j) * Arr.sAt Kg Qg ef We be e (Cert.Spec.hd j)
      = Cert.Spec.wv h ef Wq Wk We Wv bq bk be bv rS rD e j := by
  unfold Cert.Spec.wv
  rw [hV e j, sAt_eq h ef Wq Wk We bq bk be rS rD Kg Qg hK hQ e (Cert.Spec.hd j)]

end Cert.KernelIdeal.Bridge

end
-- ==== Proof.KernelSpec.lean ====
/-
  The kernel program's two results are the specification's.

  Through the fold of buffer contents, the program's second result is the score array viewed per head, and its first is
  the collected weighted values over the collected head weights plus ε. Read at an index: a gathered row of the fused
  projection, cut back to one 128-wide part, is the affine row of that part's own matrix and bias at the edge's source
  or destination node; so the edge kernel's arrays are the specification's per-edge quantities, and the two results are
  the specification's results entry by entry.
-/
import proofs.«145310_j17506286698747_2_alg».proof.Proof.KernelChain
import proofs.«145310_j17506286698747_2_alg».proof.Proof.KernelHostRead
import proofs.«145310_j17506286698747_2_alg».proof.Proof.SpecBridge

noncomputable section

open scoped BigOperators

namespace Cert.KernelIdeal.Final

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The key row gathered for edge e is the key projection's affine row at the edge's source node. -/
theorem Kg_at (e : Fin 800000) (j : Fin 128) :
    Chain.Kg m c (ix2 e j)
      = Cert.Spec.lin (m ((c.tc : Thread nD τ).loc main_arg0)) (m ((c.tc : Thread nD τ).loc main_arg6))
          (m ((c.tc : Thread nD τ).loc main_arg7)) (Cert.Spec.rowOfIdx (m ((c.tc : Thread nD τ).loc main_arg2)) e) j := by
  unfold Chain.Kg Chain.qkv
  refine (HostRead.affine_gathered 128 (by omega) _ _ _ _ _ e j).trans ?_
  unfold Cert.Spec.lin Chain.fusedW Chain.fusedB
  refine congrArg₂ (· + ·) (Finset.sum_congr rfl fun k _ => congrArg₂ (· * ·) rfl ?_) ?_
  · exact HostRead.fusedW_at1 _ _ _ k j
  · exact HostRead.fusedB_at1 _ _ _ j

/-- The query row gathered for edge e is the query projection's affine row at the edge's destination node. -/
theorem Qg_at (e : Fin 800000) (j : Fin 128) :
    Chain.Qg m c (ix2 e j)
      = Cert.Spec.lin (m ((c.tc : Thread nD τ).loc main_arg0)) (m ((c.tc : Thread nD τ).loc main_arg4))
          (m ((c.tc : Thread nD τ).loc main_arg5)) (Cert.Spec.rowOfIdx (m ((c.tc : Thread nD τ).loc main_arg3)) e) j := by
  unfold Chain.Qg Chain.qkv
  refine (HostRead.affine_gathered 0 (by omega) _ _ _ _ _ e j).trans ?_
  unfold Cert.Spec.lin Chain.fusedW Chain.fusedB
  refine congrArg₂ (· + ·) (Finset.sum_congr rfl fun k _ => congrArg₂ (· * ·) rfl ?_) ?_
  · exact HostRead.fusedW_at0_of _ _ _ k j _ (Nat.zero_add _)
  · exact HostRead.fusedB_at0_of _ _ _ j _ (Nat.zero_add _)

/-- The value row gathered for edge e is the value projection's affine row at the edge's source node. -/
theorem Vg_at (e : Fin 800000) (j : Fin 128) :
    Chain.Vg m c (ix2 e j)
      = Cert.Spec.lin (m ((c.tc : Thread nD τ).loc main_arg0)) (m ((c.tc : Thread nD τ).loc main_arg10))
          (m ((c.tc : Thread nD τ).loc main_arg11)) (Cert.Spec.rowOfIdx (m ((c.tc : Thread nD τ).loc main_arg2)) e) j := by
  unfold Chain.Vg Chain.qkv
  refine (HostRead.affine_gathered 256 (by omega) _ _ _ _ _ e j).trans ?_
  unfold Cert.Spec.lin Chain.fusedW Chain.fusedB
  refine congrArg₂ (· + ·) (Finset.sum_congr rfl fun k _ => congrArg₂ (· * ·) rfl ?_) ?_
  · exact HostRead.fusedW_at2 _ _ _ k j
  · exact HostRead.fusedB_at2 _ _ _ j

/-- The program's second result is the specification's score array. -/
theorem out_B :
    (W5 m c (Proc.devRef .tc main_v43) : S800000x8x16.Idx → EReal)
      = Cert.Spec.resultB (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [Chain.out_scores]
  funext i
  obtain ⟨e, a, d, rfl⟩ : ∃ (e : Fin 800000) (a : Fin 8) (d : Fin 16), i = ix3 e a d := ⟨i 0, i 1, i 2, eq_ix3 i⟩
  rw [HostRead.byHead_at]
  show Arr.scoreAt _ _ _ _ _ e (Cert.Spec.lane a d) = Cert.Spec.sc _ _ _ _ _ _ _ _ _ _ e (Cert.Spec.lane a d)
  exact Bridge.scoreAt_eq _ _ _ _ _ _ _ _ _ _ _ _ (Kg_at m c) (Qg_at m c) e (Cert.Spec.lane a d)

/-- The program's first result is the specification's node output. -/
theorem out_A :
    (W5 m c (Proc.devRef .tc main_v42) : S50000x8x16.Idx → EReal)
      = Cert.Spec.resultA (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  rw [Chain.out_nodes]
  funext i
  obtain ⟨p, a, d, rfl⟩ : ∃ (p : Fin 50000) (a : Fin 8) (d : Fin 16), i = ix3 p a d := ⟨i 0, i 1, i 2, eq_ix3 i⟩
  rw [HostRead.node_output_at]
  show Ideal.div _ _ = Cert.Spec.hout _ _ _ _ _ _ _ _ _ _ _ _ _ p a d
  unfold Cert.Spec.hout Cert.Spec.wV Cert.Spec.z
  refine congrArg₂ Ideal.div (congrArg (Cert.Spec.zero + ·) (Finset.sum_congr rfl fun e _ => ?_))
    (congrArg (· + Cert.Spec.eps) (congrArg (Cert.Spec.zero + ·) (Finset.sum_congr rfl fun e _ => ?_)))
  · show Chain.Vg m c (ix2 e (Cert.Spec.lane a d)) * Arr.sAt _ _ _ _ _ e (Cert.Spec.hd (Cert.Spec.lane a d)) = _
    exact Bridge.wv_eq _ _ _ _ _ _ _ _ _ _ _ _ _ _ _ (Kg_at m c) (Qg_at m c) (Vg_at m c) e (Cert.Spec.lane a d)
  · show Arr.sAt _ _ _ _ _ e a = _
    exact Bridge.sAt_eq _ _ _ _ _ _ _ _ _ _ _ _ (Kg_at m c) (Qg_at m c) e a

end Cert.KernelIdeal.Final

end
-- ==== Proof.RefRead.lean ====
/-
  The reference's run read one operation at a time: this module brings the generated run and its
  read-at-an-index lemmas into scope for the modules that state what the reference computes.
-/
import proofs.«145310_j17506286698747_2_alg».proof.Proof.Gen.ReferenceIdeal.Read
-- ==== Proof.RefSpec.lean ====
/-
  What the reference computes, index by index: its two results are the arrays `Spec.resultA` and `Spec.resultB`.

  The reference projects the node rows three ways and the edge rows once, each an affine map of rows reshaped by head and
  lane; gathers the key rows at the source node, the query rows at the destination node and the value rows at the source
  node (each gather normalises a negative index first); multiplies keys by queries, divides by 4 and multiplies by the edge
  projection: the score. Summed over a head's 16 lanes, clamped to [−5, 5] and exponentiated it is the head's weight. The
  weighted values and the weights are then added up, for each node, over the edges whose destination index is that node,
  and the first result is the quotient of the two sums, the second with ε added.
-/
import proofs.«145310_j17506286698747_2_alg».proof.Proof.RefRead
import proofs.«145310_j17506286698747_2_alg».proof.Proof.Spec
import proofs.«145310_j17506286698747_2_alg».proof.Proof.LibRows3

noncomputable section

open scoped BigOperators

namespace Cert.ReferenceIdeal.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal)) (x1 : (⟨S800000x128, .f32⟩ : BufTy).Contents (Elt Ideal))
  (x2 x3 : (⟨S800000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))

/-! ## The four projections, reshaped by head and lane -/

/-- The query projection: entry (n, a, d) of the reshaped projection is the affine map at row n, lane 16·a + d. -/
theorem linQ_at (n : Fin 50000) (a : Fin 8) (d : Fin 16) :
    val_main_v4 (F := Ideal) x0 x4 x5 (ix3 n a d) = Spec.lin x0 x4 x5 n (Spec.lane a d) := by
  have hi : idx_main_v4 (ix3 n a d) = ix2 n (Spec.lane a d) := funext fun c => Fin.ext (by
    have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
  have hb : idx_main_v1 (idx_main_v2 (ix2 n (Spec.lane a d))) = ix1 (Spec.lane a d) :=
    funext fun c => Fin.ext (by match c with | ⟨0, _⟩ => rfl)
  have hl : ∀ k : Fin 128, lidx_main_v0 (ix2 n (Spec.lane a d)) k = ix2 n k := fun k =>
    funext fun c => Fin.ext (by match c with | ⟨0, _⟩ => rfl | ⟨1, _⟩ => rfl)
  have hr : ∀ k : Fin 128, ridx_main_v0 (ix2 n (Spec.lane a d)) k = ix2 k (Spec.lane a d) := fun k =>
    funext fun c => Fin.ext (by match c with | ⟨0, _⟩ => rfl | ⟨1, _⟩ => rfl)
  rw [val_main_v4_apply, hi, val_main_v3_apply, val_main_v0_apply, val_main_v2_apply,
    val_main_v1_apply, hb]
  simp only [hl, hr]
  rfl

/-- The key projection: entry (n, a, d) of the reshaped projection is the affine map at row n, lane 16·a + d. -/
theorem linK_at (n : Fin 50000) (a : Fin 8) (d : Fin 16) :
    val_main_v9 (F := Ideal) x0 x6 x7 (ix3 n a d) = Spec.lin x0 x6 x7 n (Spec.lane a d) := by
  have hi : idx_main_v9 (ix3 n a d) = ix2 n (Spec.lane a d) := funext fun c => Fin.ext (by
    have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
  have hb : idx_main_v6 (idx_main_v7 (ix2 n (Spec.lane a d))) = ix1 (Spec.lane a d) :=
    funext fun c => Fin.ext (by match c with | ⟨0, _⟩ => rfl)
  have hl : ∀ k : Fin 128, lidx_main_v5 (ix2 n (Spec.lane a d)) k = ix2 n k := fun k =>
    funext fun c => Fin.ext (by match c with | ⟨0, _⟩ => rfl | ⟨1, _⟩ => rfl)
  have hr : ∀ k : Fin 128, ridx_main_v5 (ix2 n (Spec.lane a d)) k = ix2 k (Spec.lane a d) := fun k =>
    funext fun c => Fin.ext (by match c with | ⟨0, _⟩ => rfl | ⟨1, _⟩ => rfl)
  rw [val_main_v9_apply, hi, val_main_v8_apply, val_main_v5_apply, val_main_v7_apply,
    val_main_v6_apply, hb]
  simp only [hl, hr]
  rfl

/-- The value projection: entry (n, a, d) of the reshaped projection is the affine map at row n, lane 16·a + d. -/
theorem linV_at (n : Fin 50000) (a : Fin 8) (d : Fin 16) :
    val_main_v14 (F := Ideal) x0 x10 x11 (ix3 n a d) = Spec.lin x0 x10 x11 n (Spec.lane a d) := by
  have hi : idx_main_v14 (ix3 n a d) = ix2 n (Spec.lane a d) := funext fun c => Fin.ext (by
    have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
  have hb : idx_main_v11 (idx_main_v12 (ix2 n (Spec.lane a d))) = ix1 (Spec.lane a d) :=
    funext fun c => Fin.ext (by match c with | ⟨0, _⟩ => rfl)
  have hl : ∀ k : Fin 128, lidx_main_v10 (ix2 n (Spec.lane a d)) k = ix2 n k := fun k =>
    funext fun c => Fin.ext (by match c with | ⟨0, _⟩ => rfl | ⟨1, _⟩ => rfl)
  have hr : ∀ k : Fin 128, ridx_main_v10 (ix2 n (Spec.lane a d)) k = ix2 k (Spec.lane a d) := fun k =>
    funext fun c => Fin.ext (by match c with | ⟨0, _⟩ => rfl | ⟨1, _⟩ => rfl)
  rw [val_main_v14_apply, hi, val_main_v13_apply, val_main_v10_apply, val_main_v12_apply,
    val_main_v11_apply, hb]
  simp only [hl, hr]
  rfl

/-- The edge projection: entry (n, a, d) of the reshaped projection is the affine map at row n, lane 16·a + d. -/
theorem linE_at (n : Fin 800000) (a : Fin 8) (d : Fin 16) :
    val_main_v19 (F := Ideal) x1 x8 x9 (ix3 n a d) = Spec.lin x1 x8 x9 n (Spec.lane a d) := by
  have hi : idx_main_v19 (ix3 n a d) = ix2 n (Spec.lane a d) := funext fun c => Fin.ext (by
    have ha := a.isLt; have hd := d.isLt
    match c with
    | ⟨0, _⟩ => show ((n.val * 8 + a.val) * 16 + d.val) / 128 = n.val; omega
    | ⟨1, _⟩ => show ((n.val * 8 + a.val) * 16 + d.val) % 128 = 16 * a.val + d.val; omega)
  have hb : idx_main_v16 (idx_main_v17 (ix2 n (Spec.lane a d))) = ix1 (Spec.lane a d) :=
    funext fun c => Fin.ext (by match c with | ⟨0, _⟩ => rfl)
  have hl : ∀ k : Fin 128, lidx_main_v15 (ix2 n (Spec.lane a d)) k = ix2 n k := fun k =>
    funext fun c => Fin.ext (by match c with | ⟨0, _⟩ => rfl | ⟨1, _⟩ => rfl)
  have hr : ∀ k : Fin 128, ridx_main_v15 (ix2 n (Spec.lane a d)) k = ix2 k (Spec.lane a d) := fun k =>
    funext fun c => Fin.ext (by match c with | ⟨0, _⟩ => rfl | ⟨1, _⟩ => rfl)
  rw [val_main_v19_apply, hi, val_main_v18_apply, val_main_v15_apply, val_main_v17_apply,
    val_main_v16_apply, hb]
  simp only [hl, hr]
  rfl

/-! ## The normalised index arrays and the rows they select -/

/-- The source indices, for the keys: the index array handed to the gather holds, at (e, 0), the normalised index word. -/
theorem normK (e : Fin 800000) : val_main_v25 (F := Ideal) x2 (ix2 e 0) = Spec.norm (x2 (ix1 e)) := by
  have hi : idx_main_v25 (ix2 e (0 : Fin 1)) = ix1 e :=
    funext fun c => Fin.ext (by match c with | ⟨0, _⟩ => rfl)
  rw [val_main_v25_apply, hi, val_main_v24_apply, val_main_v21_apply, val_main_v23_apply,
    val_main_v20_apply, val_main_v22_apply, val_main_c_apply, val_main_c_0_apply]
  rfl

/-- The source indices, for the keys: the row the gather reads for edge e. -/
theorem row_normK (e : Fin 800000) :
    Cert.Rows3.rowOf (N := 50000) (by decide) (val_main_v25 (F := Ideal) x2) e = Spec.rowOfIdx x2 e := by
  apply Fin.ext
  show min (val_main_v25 (F := Ideal) x2 (ix2 e 0)).toInt.toNat (50000 - 1)
    = min (Spec.norm (x2 (ix1 e))).toInt.toNat 49999
  rw [normK]

/-- The destination indices, for the queries: the index array handed to the gather holds, at (e, 0), the normalised index word. -/
theorem normQ (e : Fin 800000) : val_main_v32 (F := Ideal) x3 (ix2 e 0) = Spec.norm (x3 (ix1 e)) := by
  have hi : idx_main_v32 (ix2 e (0 : Fin 1)) = ix1 e :=
    funext fun c => Fin.ext (by match c with | ⟨0, _⟩ => rfl)
  rw [val_main_v32_apply, hi, val_main_v31_apply, val_main_v28_apply, val_main_v30_apply,
    val_main_v27_apply, val_main_v29_apply, val_main_c_1_apply, val_main_c_2_apply]
  rfl

/-- The destination indices, for the queries: the row the gather reads for edge e. -/
theorem row_normQ (e : Fin 800000) :
    Cert.Rows3.rowOf (N := 50000) (by decide) (val_main_v32 (F := Ideal) x3) e = Spec.rowOfIdx x3 e := by
  apply Fin.ext
  show min (val_main_v32 (F := Ideal) x3 (ix2 e 0)).toInt.toNat (50000 - 1)
    = min (Spec.norm (x3 (ix1 e))).toInt.toNat 49999
  rw [normQ]

/-- The source indices, for the values: the index array handed to the gather holds, at (e, 0), the normalised index word. -/
theorem normV (e : Fin 800000) : val_main_v47 (F := Ideal) x2 (ix2 e 0) = Spec.norm (x2 (ix1 e)) := by
  have hi : idx_main_v47 (ix2 e (0 : Fin 1)) = ix1 e :=
    funext fun c => Fin.ext (by match c with | ⟨0, _⟩ => rfl)
  rw [val_main_v47_apply, hi, val_main_v46_apply, val_main_v43_apply, val_main_v45_apply,
    val_main_v42_apply, val_main_v44_apply, val_main_c_6_apply, val_main_c_7_apply]
  rfl

/-- The source indices, for the values: the row the gather reads for edge e. -/
theorem row_normV (e : Fin 800000) :
    Cert.Rows3.rowOf (N := 50000) (by decide) (val_main_v47 (F := Ideal) x2) e = Spec.rowOfIdx x2 e := by
  apply Fin.ext
  show min (val_main_v47 (F := Ideal) x2 (ix2 e 0)).toInt.toNat (50000 - 1)
    = min (Spec.norm (x2 (ix1 e))).toInt.toNat 49999
  rw [normV]

/-! ## The three gathers -/

/-- The gathers' dimension numbers are the row gather's. -/
theorem gatherRec_eq : gather_S50000x8x16_S800000x1_S800000x8x16_12_0_n_n_0_1_1816
    = Cert.Rows3.gd3 (N := 50000) (E := 800000) (A := 8) (B := 16) Gen.gather_S50000x8x16_S800000x1_S800000x8x16_12_0_n_n_0_1_1816_wf := rfl

/-- The keys at the source node: the gathered rows, at (e, a, d), are the projection at the edge's row. -/
theorem gK_at (e : Fin 800000) (a : Fin 8) (d : Fin 16) :
    val_main_v26 (F := Ideal) x0 x2 x6 x7 (ix3 e a d)
      = Spec.lin x0 x6 x7 (Spec.rowOfIdx x2 e) (Spec.lane a d) := by
  unfold val_main_v26
  rw [gatherRec_eq, Cert.Rows3.gather3_apply _ (by decide : 0 < 50000), row_normK, linK_at]

/-- The queries at the destination node: the gathered rows, at (e, a, d), are the projection at the edge's row. -/
theorem gQ_at (e : Fin 800000) (a : Fin 8) (d : Fin 16) :
    val_main_v33 (F := Ideal) x0 x3 x4 x5 (ix3 e a d)
      = Spec.lin x0 x4 x5 (Spec.rowOfIdx x3 e) (Spec.lane a d) := by
  unfold val_main_v33
  rw [gatherRec_eq, Cert.Rows3.gather3_apply _ (by decide : 0 < 50000), row_normQ, linQ_at]

/-- The values at the source node: the gathered rows, at (e, a, d), are the projection at the edge's row. -/
theorem gV_at (e : Fin 800000) (a : Fin 8) (d : Fin 16) :
    val_main_v48 (F := Ideal) x0 x2 x10 x11 (ix3 e a d)
      = Spec.lin x0 x10 x11 (Spec.rowOfIdx x2 e) (Spec.lane a d) := by
  unfold val_main_v48
  rw [gatherRec_eq, Cert.Rows3.gather3_apply _ (by decide : 0 < 50000), row_normV, linV_at]

/-! ## The score, the head weights, the weighted values -/

/-- The score of edge e at lane d of head a. -/
theorem score_at (e : Fin 800000) (a : Fin 8) (d : Fin 16) :
    val_main_v37 (F := Ideal) x0 x1 x2 x3 x4 x5 x6 x7 x8 x9 (ix3 e a d)
      = Spec.sc x0 x1 x4 x6 x8 x5 x7 x9 (Spec.rowOfIdx x2) (Spec.rowOfIdx x3) e (Spec.lane a d) := by
  rw [val_main_v37_apply, val_main_v36_apply, val_main_v34_apply, gK_at, gQ_at, linE_at, val_main_v35_apply,
    val_main_cst_apply]
  simp only [Ideal.mulf_def, Ideal.hostDivf_def, Ideal.ofBits_def]
  rw [Spec.div_four]
  rfl

/-- The weight of head a on edge e. -/
theorem weight_at (e : Fin 800000) (a : Fin 8) :
    val_main_v41 (F := Ideal) x0 x1 x2 x3 x4 x5 x6 x7 x8 x9 (ix3 e a 0)
      = Spec.sv x0 x1 x4 x6 x8 x5 x7 x9 (Spec.rowOfIdx x2) (Spec.rowOfIdx x3) e a := by
  have h39 : idx_main_v39 (ix3 e a (0 : Fin 1)) = ix2 e a :=
    funext fun c => Fin.ext (by match c with | ⟨0, _⟩ => rfl | ⟨1, _⟩ => rfl)
  have h38 : ∀ k : Fin 16, idx_main_v38 (ix2 e a) k = ix3 e a k := fun k =>
    funext fun c => Fin.ext (by match c with | ⟨0, _⟩ => rfl | ⟨1, _⟩ => rfl | ⟨2, _⟩ => rfl)
  have hz : (Ideal.ofBits .f32 0x00000000#32 : EReal) = 0 := Spec.zero_eq
  rw [val_main_v41_apply, val_main_v40_apply, val_main_call0_v4_apply, val_main_call0_v3_apply, val_main_cst_5_apply,
    val_main_call0_v2_apply, val_main_call0_v1_apply, val_main_call0_v0_apply, val_main_cst_4_apply,
    val_main_v39_apply, h39, val_main_v38_apply, val_main_cst_3_apply]
  simp only [h38, score_at, Ideal.hostUnary_exp_def, Ideal.minimumf_def, Ideal.maximumf_def, Ideal.ofBits_def]
  rw [hz, zero_add]
  rfl

/-- The weighted value of edge e at lane d of head a. -/
theorem wvalue_at (e : Fin 800000) (a : Fin 8) (d : Fin 16) :
    val_main_v50 (F := Ideal) x0 x1 x2 x3 x4 x5 x6 x7 x8 x9 x10 x11 (ix3 e a d)
      = Spec.wv x0 x1 x4 x6 x8 x10 x5 x7 x9 x11 (Spec.rowOfIdx x2) (Spec.rowOfIdx x3) e (Spec.lane a d) := by
  have h49 : idx_main_v49 (ix3 e a d) = ix3 e a (0 : Fin 1) :=
    funext fun c => Fin.ext (by match c with | ⟨0, _⟩ => rfl | ⟨1, _⟩ => rfl | ⟨2, _⟩ => rfl)
  rw [val_main_v50_apply, gV_at, val_main_v49_apply, h49, weight_at]
  simp only [Ideal.mulf_def]
  unfold Spec.wv
  rw [Spec.hd_lane]

/-! ## The two accumulating scatters -/

/-- The scatter of weighted values has the row scatter's dimension numbers. -/
theorem scatterRecV_eq : scatter_S50000x8x16_S800000x1_S800000x8x16_12_0_0_1
    = Cert.Rows3.sd3 (N := 50000) (E := 800000) (A := 8) (B := 16) Gen.scatter_S50000x8x16_S800000x1_S800000x8x16_12_0_0_1_wf := rfl

/-- The scatter of weights has the row scatter's dimension numbers. -/
theorem scatterRecZ_eq : scatter_S50000x8x1_S800000x1_S800000x8x1_12_0_0_1
    = Cert.Rows3.sd3 (N := 50000) (E := 800000) (A := 8) (B := 1) Gen.scatter_S50000x8x1_S800000x1_S800000x8x1_12_0_0_1_wf := rfl

/-- The scatters' index array holds, at (e, 0), the raw destination index. -/
theorem land52 (e : Fin 800000) : val_main_v52 (F := Ideal) x3 (ix2 e 0) = x3 (ix1 e) := by
  have hi : idx_main_v52 (ix2 e (0 : Fin 1)) = ix1 e :=
    funext fun c => Fin.ext (by match c with | ⟨0, _⟩ => rfl)
  rw [val_main_v52_apply, hi]

/-- The same for the second scatter's index array. -/
theorem land55 (e : Fin 800000) : val_main_v55 (F := Ideal) x3 (ix2 e 0) = x3 (ix1 e) := by
  have hi : idx_main_v55 (ix2 e (0 : Fin 1)) = ix1 e :=
    funext fun c => Fin.ext (by match c with | ⟨0, _⟩ => rfl)
  rw [val_main_v55_apply, hi]

/-- The weighted values node p collects at head a, lane d. -/
theorem collectV_at (p : Fin 50000) (a : Fin 8) (d : Fin 16) :
    val_main_v53 (F := Ideal) x0 x1 x2 x3 x4 x5 x6 x7 x8 x9 x10 x11 (ix3 p a d)
      = Spec.wV x0 x1 x4 x6 x8 x10 x5 x7 x9 x11 (Spec.rowOfIdx x2) (Spec.rowOfIdx x3) (Spec.landOf x3) p a d := by
  unfold val_main_v53
  rw [scatterRecV_eq, Cert.Rows3.scatterAdd3_apply, val_main_v51_apply, val_main_cst_8_apply]
  unfold Spec.wV
  refine congrArg₂ (· + ·) rfl (Finset.sum_congr (Finset.filter_congr fun e _ => ?_) fun e _ => wvalue_at _ _ _ _ _ _ _ _ _ _ _ _ e a d)
  rw [land52]
  rfl

/-- The head weights node p collects at head a. -/
theorem collectZ_at (p : Fin 50000) (a : Fin 8) :
    val_main_v56 (F := Ideal) x0 x1 x2 x3 x4 x5 x6 x7 x8 x9 (ix3 p a 0)
      = Spec.z x0 x1 x4 x6 x8 x5 x7 x9 (Spec.rowOfIdx x2) (Spec.rowOfIdx x3) (Spec.landOf x3) p a := by
  unfold val_main_v56
  rw [scatterRecZ_eq, Cert.Rows3.scatterAdd3_apply, val_main_v54_apply, val_main_cst_9_apply]
  unfold Spec.z
  refine congrArg₂ (· + ·) rfl (Finset.sum_congr (Finset.filter_congr fun e _ => ?_) fun e _ => weight_at _ _ _ _ _ _ _ _ _ _ e a)
  rw [land55]
  rfl

/-! ## The two results -/

/-- The reference's first result is `Spec.resultA`. -/
theorem out0 :
    val_main_v60 (F := Ideal) x0 x1 x2 x3 x4 x5 x6 x7 x8 x9 x10 x11
      = Cert.Spec.resultA x0 x1 x2 x3 x4 x5 x6 x7 x8 x9 x10 x11 := by
  funext i
  obtain ⟨p, a, d, rfl⟩ : ∃ (p : Fin 50000) (a : Fin 8) (d : Fin 16), i = ix3 p a d := ⟨i 0, i 1, i 2, eq_ix3 i⟩
  have h59 : idx_main_v59 (ix3 p a d) = ix3 p a (0 : Fin 1) :=
    funext fun c => Fin.ext (by match c with | ⟨0, _⟩ => rfl | ⟨1, _⟩ => rfl | ⟨2, _⟩ => rfl)
  rw [val_main_v60_apply, collectV_at, val_main_v59_apply, h59, val_main_v58_apply, collectZ_at, val_main_v57_apply,
    val_main_cst_10_apply]
  simp only [Ideal.hostDivf_def, Ideal.addf_def, Ideal.ofBits_def]
  rfl

/-- The reference's second result is `Spec.resultB`. -/
theorem out1 :
    val_main_v37 (F := Ideal) x0 x1 x2 x3 x4 x5 x6 x7 x8 x9
      = Cert.Spec.resultB x0 x1 x2 x3 x4 x5 x6 x7 x8 x9 := by
  funext i
  obtain ⟨e, a, d, rfl⟩ : ∃ (e : Fin 800000) (a : Fin 8) (d : Fin 16), i = ix3 e a d := ⟨i 0, i 1, i 2, eq_ix3 i⟩
  rw [score_at]
  rfl

end Cert.ReferenceIdeal.RefSpec

end
-- ==== Proof.lean ====
/-
  A graph attention layer: the kernel program against its reference, on the extended reals.

  Every node's features are projected to queries, keys and values, every edge's features to a per-lane modulation. For an
  edge, the key of its source and the query of its destination are multiplied lane by lane, scaled by ¼ and modulated;
  each of the 8 heads sums its 16 lanes, clamps the sum to [−5, 5] and exponentiates it into a weight; the source's value
  is weighted head by head. Each node then collects the weighted values and the weights of the edges landing on it, and
  the output is their quotient (with ε added to the divisor). The per-lane scores are the second result.

  The kernel program computes the three node projections as one product against the three matrices laid side by side,
  sums each head's lanes by a product with a matrix of ones and zeros, spreads the weights back over the lanes by the
  transposed product, and multiplies by the word ¼ where the reference divides by the word 4. On the extended reals
  each of these is the reference's operation exactly: a concatenation only moves entries, a term times one is the term
  and a term times zero is zero, and dividing by 4 is multiplying by ¼. No law that fails at the infinities is used, so
  the precondition is never opened. Both programs are shown equal, entry by entry, to one specification (Proof/Spec.lean).

  The kernel program's two pipelined regions and the host operations around them run to the end without a fault and
  leave the arguments unchanged, read on the extended reals (Proof/MainRun.lean) and on machine words
  (Proof/MainRunW.lean, the same argument at the other reading of a float); the idealisation rewrote no operation.
-/
import proofs.«145310_j17506286698747_2_alg».proof.Defs
import proofs.«145310_j17506286698747_2_alg».proof.Proof.Gen.Kernel
import proofs.«145310_j17506286698747_2_alg».proof.Proof.Gen.KernelIdeal
import proofs.«145310_j17506286698747_2_alg».proof.Proof.Gen.ReferenceIdeal
import proofs.«145310_j17506286698747_2_alg».proof.Proof.Gen.Pre_finite_inputs
import proofs.«145310_j17506286698747_2_alg».proof.Proof.MainRun
import proofs.«145310_j17506286698747_2_alg».proof.Proof.MainRunW
import proofs.«145310_j17506286698747_2_alg».proof.Proof.KernelSpec
import proofs.«145310_j17506286698747_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_p : Cert.frame_Kernel :=
  fun m ρ _ => Cert.Kernel.Hand.frame m ρ

/-- So does its reading on the extended reals. -/
theorem frame_pi : Cert.frame_KernelIdeal :=
  fun m ρ _ => Cert.KernelIdeal.Hand.frame m ρ

/-- The reference is host operations only: its run, with the results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- Both programs end holding the specification's two arrays of the twelve arguments. -/
theorem algebraic : Cert.algebraic_KernelIdeal_ReferenceIdeal := by
  intro m ρ m' ρ' _ hagree
  refine ⟨fun c => Cert.Spec.resultA
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    fun c => Cert.Spec.resultB
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · -- the kernel program: every buffer at the fold's last contents, the two results read against the specification
    refine (θ_run Cert.KernelIdeal.defs _ _).mono (fun r h c => ?_) (Cert.KernelIdeal.Hand.run_all (F := Ideal) m ρ)
    exact ⟨(h c _ (Cert.KernelIdeal.Hand.mem_uc Cert.KernelIdeal.main_v42 (by decide))).trans (Cert.KernelIdeal.Final.out_A m c),
      (h c _ (Cert.KernelIdeal.Hand.mem_uc Cert.KernelIdeal.main_v43 (by decide))).trans (Cert.KernelIdeal.Final.out_B m c),
      (h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c),
      (h c _ (Cert.KernelIdeal.Hand.mem_uc Cert.KernelIdeal.main_arg6 (by decide))).trans (Cert.KernelIdeal.Hand.W5_main_arg6 m c),
      (h c _ (Cert.KernelIdeal.Hand.mem_uc Cert.KernelIdeal.main_arg7 (by decide))).trans (Cert.KernelIdeal.Hand.W5_main_arg7 m c),
      (h c _ (Cert.KernelIdeal.Hand.mem_uc Cert.KernelIdeal.main_arg8 (by decide))).trans (Cert.KernelIdeal.Hand.W5_main_arg8 m c),
      (h c _ (Cert.KernelIdeal.Hand.mem_uc Cert.KernelIdeal.main_arg9 (by decide))).trans (Cert.KernelIdeal.Hand.W5_main_arg9 m c),
      (h c _ (Cert.KernelIdeal.Hand.mem_uc Cert.KernelIdeal.main_arg10 (by decide))).trans (Cert.KernelIdeal.Hand.W5_main_arg10 m c),
      (h c _ (Cert.KernelIdeal.Hand.mem_uc Cert.KernelIdeal.main_arg11 (by decide))).trans (Cert.KernelIdeal.Hand.W5_main_arg11 m c)⟩
  · -- the reference: its run's two terms are the specification's arrays of its own arguments, which agree with the kernel's
    refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11⟩ := hagree c
      rw [Cert.ReferenceIdeal.Read.val_main_v60_eq, Cert.ReferenceIdeal.RefSpec.out0, e0, e1, e2, e3, e4, e5, e6, e7, e8, e9, e10, e11]
    · obtain ⟨e0, e1, e2, e3, e4, e5, e6, e7, e8, e9, e10, e11⟩ := hagree c
      rw [Cert.ReferenceIdeal.Read.val_main_v37_eq, Cert.ReferenceIdeal.RefSpec.out1, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
